-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4096 .f32) (main_arg12 : FVec F S4096x4096 .f32) (main_arg13 : FVec F S4096 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096x4096 .f32 := Host.absf main_arg12
  let main_cst_22 : FVec F S_ .f32 := constant S_ .f32 0x7F800000#32
  let main_v60 : FVec F S4096x4096 .f32 := broadcastInDim S4096x4096 ![] bcast_S_S4096x4096 main_cst_22
  let main_v61 : IVec S4096x4096 1 := cmpf .olt main_v59 main_v60
  let main_c_23 : IVec S_ 1 := constantI S_ 1 1#1
  let main_v62 : IVec S_ 1 := (fun x v => Host.reduce IntOp.andi x v reducesTo_S4096x4096_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_v63 main_v67

def fn_part2 {F : FTy → Type} [FloatOps F] (main_arg7 : FVec F S4096 .f32) (main_arg8 : FVec F S4096x4096 .f32) (main_arg9 : FVec F S4096 .f32) (main_arg10 : FVec F S4096x4096 .f32) (main_arg11 : FVec F S4096 .f32) (main_arg12 : FVec F S4096x4096 .f32) (main_arg13 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_arg12 main_arg13 main_v48 main_v49 main_v50

def fn_part1 {F : FTy → Type} [FloatOps F] (main_arg4 : FVec F S4096x4096 .f32) (main_arg5 : FVec F S4096 .f32) (main_arg6 : FVec F S4096x4096 .f32) (main_arg7 : FVec F S4096 .f32) (main_arg8 : FVec F S4096x4096 .f32) (main_arg9 : FVec F S4096 .f32) (main_arg10 : FVec F S4096x4096 .f32) (main_arg11 : FVec F S4096 .f32) (main_arg12 : FVec F S4096x4096 .f32) (main_arg13 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x4096 .f32) (main_arg1 : FVec F S8192x4096 .f32) (main_arg2 : FVec F S4096x4096 .f32) (main_arg3 : FVec F S4096 .f32) (main_arg4 : FVec F S4096x4096 .f32) (main_arg5 : FVec F S4096 .f32) (main_arg6 : FVec F S4096x4096 .f32) (main_arg7 : FVec F S4096 .f32) (main_arg8 : FVec F S4096x4096 .f32) (main_arg9 : FVec F S4096 .f32) (main_arg10 : FVec F S4096x4096 .f32) (main_arg11 : FVec F S4096 .f32) (main_arg12 : FVec F S4096x4096 .f32) (main_arg13 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096x4096 : Shape := ⟨3, ![1, 4096, 4096]⟩
abbrev S4x4096x4096 : Shape := ⟨3, ![4, 4096, 4096]⟩
abbrev S1x4096 : Shape := ⟨2, ![1, 4096]⟩
abbrev S4x4096 : Shape := ⟨2, ![4, 4096]⟩
abbrev S4x1x4096 : Shape := ⟨3, ![4, 1, 4096]⟩
abbrev S2048x1024 : Shape := ⟨2, ![2048, 1024]⟩
abbrev S4x512x1024 : Shape := ⟨3, ![4, 512, 1024]⟩
abbrev S4x1x512 : Shape := ⟨3, ![4, 1, 512]⟩
abbrev S2048x512 : Shape := ⟨2, ![2048, 512]⟩
abbrev S4x2048x512 : Shape := ⟨3, ![4, 2048, 512]⟩
abbrev S1x512x1024 : Shape := ⟨3, ![1, 512, 1024]⟩
abbrev S512x1024 : Shape := ⟨2, ![512, 1024]⟩
abbrev S1x2048x512 : Shape := ⟨3, ![1, 2048, 512]⟩
abbrev S1x1x512 : Shape := ⟨3, ![1, 1, 512]⟩
abbrev S1x512 : Shape := ⟨2, ![1, 512]⟩

abbrev nBuf : Space → Nat
  | .hbm => 32
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S4096x4096, .f32⟩
  | .hbm, ⟨11, _⟩ => ⟨S4096, .f32⟩
  | .hbm, ⟨12, _⟩ => ⟨S4096x4096, .f32⟩
  | .hbm, ⟨13, _⟩ => ⟨S4096, .f32⟩
  | .hbm, ⟨14, _⟩ => ⟨S4096x4096, .f32⟩
  | .hbm, ⟨15, _⟩ => ⟨S4096, .f32⟩
  | .hbm, ⟨16, _⟩ => ⟨S4096x4096, .f32⟩
  | .hbm, ⟨17, _⟩ => ⟨S4096, .f32⟩
  | .hbm, ⟨18, _⟩ => ⟨S1x4096x4096, .f32⟩
  | .hbm, ⟨19, _⟩ => ⟨S1x4096x4096, .f32⟩
  | .hbm, ⟨20, _⟩ => ⟨S1x4096x4096, .f32⟩
  | .hbm, ⟨21, _⟩ => ⟨S1x4096x4096, .f32⟩
  | .hbm, ⟨22, _⟩ => ⟨S4x4096x4096, .f32⟩
  | .hbm, ⟨23, _⟩ => ⟨S4x4096x4096, .bf16⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S4x4096, .f32⟩
  | .hbm, ⟨29, _⟩ => ⟨S4x1x4096, .f32⟩
  | .hbm, ⟨30, _⟩ => ⟨S8192x4096, .bf16⟩
  | .hbm, ⟨31, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S4x512x1024, .bf16⟩
  | .local _ .vmem, ⟨3, _⟩ => ⟨S4x512x1024, .bf16⟩
  | .local _ .vmem, ⟨4, _⟩ => ⟨S4x1x512, .f32⟩
  | .local _ .vmem, ⟨5, _⟩ => ⟨S4x1x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S4x2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v41 : BitVec 1 := Scalar.cmpi .eq arg2 c3_i32
  let v42 : BitVec 32 := Scalar.extui v41
  let c0_i32_38 : BitVec 32 := 0#32
  let v43 : BitVec 1 := Scalar.cmpi .ne v42 c0_i32_38
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S4096x4096_S1x4096x4096_1_2 : S4096x4096.BroadcastsInDim S1x4096x4096 (![1, 2] : Fin 2 → Fin S1x4096x4096.rank)
  concatenates_S1x4096x4096_S1x4096x4096_S1x4096x4096_S1x4096x4096_S4x4096x4096_d0 : Shape.Concatenates [S1x4096x4096, S1x4096x4096, S1x4096x4096, S1x4096x4096] S4x4096x4096 0
  bitsLt_bf16_f32 : FTy.bits .bf16 < FTy.bits .f32
  bcast_S4096_S1x4096_1 : S4096.BroadcastsInDim S1x4096 (![1] : Fin 1 → Fin S1x4096.rank)
  concatenates_S1x4096_S1x4096_S1x4096_S1x4096_S4x4096_d0 : Shape.Concatenates [S1x4096, S1x4096, S1x4096, S1x4096] S4x4096 0
  shapeCasts_S4x4096_S4x1x4096 : S4x4096.ShapeCasts S4x1x4096
  inb_S4x2048x512_S4x2048x512_0_0_0 : ∀ a, (![0, 0, 0] : Fin 3 → Nat) a + S4x2048x512.size a ≤ S4x2048x512.size a
  h_S4x2048x512 : 0 < S4x2048x512.numel
  shapeCasts_S4x2048x512_S4x2048x512 : S4x2048x512.ShapeCasts S4x2048x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  inb_S4x2048x512_S1x2048x512_0_0_0 : ∀ a, (![0, 0, 0] : Fin 3 → Nat) a + S1x2048x512.size a ≤ S4x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  inb_S4x512x1024_S1x512x1024_1_0_0 : ∀ a, (![1, 0, 0] : Fin 3 → Nat) a + S1x512x1024.size a ≤ S4x512x1024.size a
  inb_S4x2048x512_S1x2048x512_1_0_0 : ∀ a, (![1, 0, 0] : Fin 3 → Nat) a + S1x2048x512.size a ≤ S4x2048x512.size a
  inb_S4x512x1024_S1x512x1024_2_0_0 : ∀ a, (![2, 0, 0] : Fin 3 → Nat) a + S1x512x1024.size a ≤ S4x512x1024.size a
  inb_S4x2048x512_S1x2048x512_2_0_0 : ∀ a, (![2, 0, 0] : Fin 3 → Nat) a + S1x2048x512.size a ≤ S4x2048x512.size a
  inb_S4x512x1024_S1x512x1024_3_0_0 : ∀ a, (![3, 0, 0] : Fin 3 → Nat) a + S1x512x1024.size a ≤ S4x512x1024.size a
  inb_S4x2048x512_S1x2048x512_3_0_0 : ∀ a, (![3, 0, 0] : Fin 3 → Nat) a + S1x2048x512.size a ≤ S4x2048x512.size a
  inb_S4x1x512_S1x1x512_0_0_0 : ∀ a, (![0, 0, 0] : Fin 3 → Nat) a + S1x1x512.size a ≤ S4x1x512.size a
  h_S1x1x512 : 0 < S1x1x512.numel
  shapeCasts_S1x1x512_S1x512 : S1x1x512.ShapeCasts S1x512
  broadcasts_S1x512_S2048x512 : S1x512.Broadcasts S2048x512
  inb_S4x1x512_S1x1x512_1_0_0 : ∀ a, (![1, 0, 0] : Fin 3 → Nat) a + S1x1x512.size a ≤ S4x1x512.size a
  inb_S4x1x512_S1x1x512_2_0_0 : ∀ a, (![2, 0, 0] : Fin 3 → Nat) a + S1x1x512.size a ≤ S4x1x512.size a
  inb_S4x1x512_S1x1x512_3_0_0 : ∀ a, (![3, 0, 0] : Fin 3 → Nat) a + S1x1x512.size a ≤ S4x1x512.size a
  inb_S2048x512_S2048x512_0_0 : ∀ a, (![0, 0] : Fin 2 → Nat) a + S2048x512.size a ≤ S2048x512.size a
  h_S2048x512 : 0 < S2048x512.numel
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x1024.size a ≤ S4x4096x4096.size a
  hwx0_1 : ∀ i : grid0.Coords, EltTy.bits .bf16 = 32 ∨ (Rect.block (s := S4x4096x4096) S4x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x512.size a ≤ S4x1x4096.size a
  hwx0_2 : ∀ i : grid0.Coords, EltTy.bits .f32 = 32 ∨ (Rect.block (s := S4x1x4096) S4x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x4096.size a
  hwx0_3 : ∀ i : grid0.Coords, EltTy.bits .f32 = 32 ∨ (Rect.block (s := S8192x4096) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x4096.size a
  hwx0_4 : ∀ i : grid0.Coords, EltTy.bits .f32 = 32 ∨ (Rect.block (s := S8192x4096) S2048x512.size (cc0_transform_4 i) (hinb0_4 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_v16) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S24576x4096 : Shape := ⟨2, ![24576, 4096]⟩
abbrev S24576 : Shape := ⟨1, ![24576]⟩
abbrev S8192x24576 : Shape := ⟨2, ![8192, 24576]⟩
abbrev S1x24576 : Shape := ⟨2, ![1, 24576]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S4096x4096, .f32⟩
  | .hbm, ⟨11, _⟩ => ⟨S4096, .f32⟩
  | .hbm, ⟨12, _⟩ => ⟨S4096x4096, .f32⟩
  | .hbm, ⟨13, _⟩ => ⟨S4096, .f32⟩
  | .hbm, ⟨14, _⟩ => ⟨S24576x4096, .f32⟩
  | .hbm, ⟨15, _⟩ => ⟨S24576, .f32⟩
  | .hbm, ⟨16, _⟩ => ⟨S8192x24576, .f32⟩
  | .hbm, ⟨17, _⟩ => ⟨S1x24576, .f32⟩
  | .hbm, ⟨18, _⟩ => ⟨S8192x24576, .f32⟩
  | .hbm, ⟨19, _⟩ => ⟨S8192x24576, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S_, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S8192x4096, .f32⟩
  | .hbm, ⟨56, _⟩ => ⟨S8192x4096, .f32⟩
  | .hbm, ⟨57, _⟩ => ⟨S8192x4096, .f32⟩
  | .hbm, ⟨58, _⟩ => ⟨S8192x4096, .f32⟩
  | .hbm, ⟨59, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S4096x4096_S4096x4096_S4096x4096_S4096x4096_S4096x4096_S4096x4096_S24576x4096_d0 : Shape.Concatenates [S4096x4096, S4096x4096, S4096x4096, S4096x4096, S4096x4096, S4096x4096] S24576x4096 0
  concatenates_S4096_S4096_S4096_S4096_S4096_S4096_S24576_d0 : Shape.Concatenates [S4096, S4096, S4096, S4096, S4096, S4096] S24576 0
  bcast_S24576_S1x24576_1 : S24576.BroadcastsInDim S1x24576 (![1] : Fin 1 → Fin S1x24576.rank)
  bcast_S1x24576_S8192x24576_0_1 : S1x24576.BroadcastsInDim S8192x24576 (![0, 1] : Fin 2 → Fin S8192x24576.rank)
  slices_S8192x24576_S8192x4096_0_0 : S8192x24576.Slices ![0, 0] S8192x4096
  slices_S8192x24576_S8192x4096_0_4096 : S8192x24576.Slices ![0, 4096] S8192x4096
  slices_S8192x24576_S8192x4096_0_8192 : S8192x24576.Slices ![0, 8192] S8192x4096
  slices_S8192x24576_S8192x4096_0_12288 : S8192x24576.Slices ![0, 12288] S8192x4096
  slices_S8192x24576_S8192x4096_0_16384 : S8192x24576.Slices ![0, 16384] S8192x4096
  slices_S8192x24576_S8192x4096_0_20480 : S8192x24576.Slices ![0, 20480] S8192x4096
  bcast_S_S8192x4096 : S_.BroadcastsInDim S8192x4096 (![] : Fin 0 → Fin S8192x4096.rank)
  dot_S8192x4096_S24576x4096_S8192x24576_1_1_0_0_n_n_wf : DotDims.WF S8192x4096 S24576x4096 S8192x24576 [1] [1] [0] [0] [] []

variable [Facts₀]

def dot_S8192x4096_S24576x4096_S8192x24576_1_1_0_0_n_n : DotDims S8192x4096 S24576x4096 S8192x24576 where
  lhsContracting := [1]
  rhsContracting := [1]
  lhsNonContracting := [0]
  rhsNonContracting := [0]
  lhsBatch := []
  rhsBatch := []
  wf := dot_S8192x4096_S24576x4096_S8192x24576_1_1_0_0_n_n_wf

class Facts : Prop extends Facts₀ where

variable [Facts]
-- ==== Proof.FrameBase.lean ====
/-
  The vocabulary the frame of the gate kernel is stated over, at any float instance.

  The kernel's grid is 4 x 8 x 4 = 128 points, the last axis (the reduction step k) innermost, so point t has k = t mod 4.
  The body branches twice on k: at k = 0 it first zeroes its accumulator; at k = 3 it finally adds the biases, applies
  the gates and stores the output tile. Both conditions are decided here over the grid in closed form.
  `V` is what each TensorCore buffer holds when the region is entered: the launch memory after the seventeen host
  operations that come first (the two weight sums, the two bias sums, the two four-fold stacks, the casts).
-/
import proofs.«107846_j83116207112676_2_alg».proof.Proof.Gen.KernelIdeal.Launch
import proofs.«107846_j83116207112676_2_alg».proof.Proof.Gen.KernelIdeal.Skeleton
import proofs.«107846_j83116207112676_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s TensorCore buffers when the region is entered: the launch memory after the host operations. -/
abbrev V (c : Dev nD) (b : Ref sig .tc) : Buf (Elt F) ((c : Thread nD τ).loc b) := StableHlo.after hostOps0 (fun b => m (c, b)) b

/-! ## The body's two branch conditions -/

/-- "This is the first reduction step": the body's first conditional, from the grid coordinates. -/
abbrev cond0_0 (i : grid0.Coords) : Prop := (Scalar.cmpi .ne (Scalar.extui (Scalar.cmpi .eq (BitVec.ofNat 32 (i 2).val) 0#32)) 0#32) = 1#1
/-- It holds exactly at the points with t mod 4 = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last reduction step": the body's second conditional. -/
abbrev cond0_1 (i : grid0.Coords) : Prop := k0_cond2 i = 1#1
/-- It holds exactly at the points with t mod 4 = 3. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## The memrefs the body is called with -/

/-- Each window's current staging memref at point `t`, as the pipeline passes it to the body, and its wholeness. -/
abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .f32 := win0_4.stage (cfg0.slots t 4)
abbrev hs0_4 (t : Fin cfg0.N) : (ms0_4 t).IsWhole := hstage0_4 ((cfg0.slots t 4).cast nbuf0_4)
/-- The accumulator: a whole scoped buffer of the kernel's own, four gate slabs of one output tile each. -/
abbrev scM0_0 : Memref sig .tc .vmem S4x2048x512 .f32 := Memref.whole cc0_scratch0
/-- The accumulator as a view: what it holds between points is stated through it. -/
abbrev VS0_0 : View sig .tc .vmem S4x2048x512 .f32 := scM0_0.view
/-- One staging buffer of the output window, through which the tile the body leaves is stated. -/
abbrev VO0_4 : View sig .tc .vmem S2048x512 .f32 := (Memref.whole cc0_stg4_0 : Memref sig .tc .vmem S2048x512 .f32).view

end Cert.KernelIdeal.Hand

end
-- ==== Proof.FrameKit.lean ====
/-
  The launch side of the gate kernel's frame, at any float instance.

  The program is seventeen host operations (the two weight sums, the two bias sums, the two four-fold stacks, the casts)
  followed by one region over the 4 x 8 x 4 grid. This module says what the region finds and what a run of it leaves:
    * the program up to the region is the host operations then the region, and none of the host operations writes an
      argument array (each writes only its own result), so the region finds all fourteen arguments as launched;
    * each window's block at a grid point, read off the array the region finds; an input window's staging buffer holds
      that block whenever the body runs, fetched at that point or carried from the point before (the two windows whose
      index map ignores the reduction step k are fetched only at k = 0 and keep their block for the other three steps);
    * the output window is idle, and not written back, except at the last reduction step k = 3;
    * what the region owns beside the windows is the accumulator and the generator register;
    * from a run of the region to the library's frame post, every argument array ends as launched (the hidden state is
      an input window's array, never written back; the other thirteen bypass the region), and the result array ends as
      the library computes it from the blocks written back.
-/
import proofs.«107846_j83116207112676_2_alg».proof.Proof.FrameBase
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- No host operation allocates a buffer. -/
theorem hostOps0_fresh : (hostOps0 : List (HloOp τ sig (Elt F))).Forall fun op => op.fresh = ∅ := by
  simp only [List.Forall]; repeat' constructor

/-- The program is the host operations then the region, so the region is entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0 (the input x): each writes only its own result, a different buffer. The region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 1 (the hidden state h): each writes only its own result, a different buffer. The region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 2 (the weight w_ir): each writes only its own result, a different buffer. The region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 3 (the bias b_ir): each writes only its own result, a different buffer. The region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 4 (the weight w_iz): each writes only its own result, a different buffer. The region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 5 (the bias b_iz): each writes only its own result, a different buffer. The region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 6 (the weight w_in): each writes only its own result, a different buffer. The region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 7 (the bias b_in): each writes only its own result, a different buffer. The region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 8 (the weight w_hr): each writes only its own result, a different buffer. The region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 9 (the bias b_hr): each writes only its own result, a different buffer. The region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 10 (the weight w_hz): each writes only its own result, a different buffer. The region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 11 (the bias b_hz): each writes only its own result, a different buffer. The region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 12 (the weight w_hn): each writes only its own result, a different buffer. The region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 13 (the bias b_hn): each writes only its own result, a different buffer. The region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the cast input's 2048 x 1024 tile (i, k)): its current staging buffer holds its block whenever the body runs, fetched at
    that point or not, for any proof data whose array is the one the region finds and whose body leaves the block in
    place: where it is not fetched the block index has not moved since the point before. The window is never idle and
    its blocks tile the array. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the stacked weights' 4 x 512 x 1024 tile (j, k)): its current staging buffer holds its block whenever the body runs, fetched at
    that point or not, for any proof data whose array is the one the region finds and whose body leaves the block in
    place: where it is not fetched the block index has not moved since the point before. The window is never idle and
    its blocks tile the array. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (the stacked biases' 4 x 1 x 512 tile j, the same for all four reduction steps): its current staging buffer holds its block whenever the body runs, fetched at
    that point or not, for any proof data whose array is the one the region finds and whose body leaves the block in
    place: where it is not fetched the block index has not moved since the point before. The window is never idle and
    its blocks tile the array. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (the hidden state's 2048 x 512 tile (i, j), the same for all four reduction steps): its current staging buffer holds its block whenever the body runs, fetched at
    that point or not, for any proof data whose array is the one the region finds and whose body leaves the block in
    place: where it is not fetched the block index has not moved since the point before. The window is never idle and
    its blocks tile the array. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post, and the result, from a run of the region -/

/-- The frame from a run of the region: for any proof data whose arrays are the contents the region finds, a run to the
    library's frame post leaves every argument array as launched. The hidden state (argument 1) is input window 3's
    array, which no write-back touches; each of the other thirteen is an unscoped buffer that is no window's array, so
    it bypasses the region and ends as the region found it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-- The same run read at the result as well: the result array ends as the library computes it from the proof data (the
    array the region finds, overwritten by the tile written back at each last reduction step), and the fourteen
    argument arrays as launched. -/
theorem result_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v17) = (dats 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1 4,
      ((h c).2 main_arg0 (Pipeline.mem_restRefs_of main_arg0 (by decide) (by decide))).trans (V_main_arg0 m c),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## Where the windows are idle -/

/-- Input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last reduction step the output window is idle: the body stores nothing into it there, -/
theorem idleAt0_4 : ∀ t : Fin cfg0.N, ¬cond0_1 (grid0.coords t) → cfg0.idle 4 (grid0.coords t) = true := by decide +kernel
/-- and its block is not written back there. -/
theorem noFlush0_4 : ∀ t : Fin cfg0.N, ¬cond0_1 (grid0.coords t) → (cfg0.win 4).flush t = false := by decide +kernel
/-- At the last reduction step the output window is live: the body stores the tile into it. -/
theorem liveAt0_4 : ∀ t : Fin cfg0.N, cond0_1 (grid0.coords t) → cfg0.idle 4 (grid0.coords t) = false := by decide +kernel

/-! ## What the region owns beside the windows -/

/-- The region's invariant with the accumulator as a memref owned at some contents, beside the generator register at
    some state: what the body is handed at each point and hands back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.RunA.lean ====
/-
  The gate kernel's body at a FIRST reduction step (k = 0), run once on arbitrary whole staging buffers.
  There the body overwrites its whole accumulator with zeros, then adds this step's four partial products
  (the input tile against each gate's weight tile) into the four slabs, and stores nothing into the output tile.
  The theorem is a Hoare triple in continuation form: given the four input buffers at their contents, the output
  buffer at any contents (handed back untouched) and the accumulator at anything, the body runs to a state where the
  inputs are as they were and the accumulator holds its old contents overwritten by a list of stored pieces; the list
  is the witness the symbolic run finds.
-/
import proofs.«107846_j83116207112676_2_alg».proof.Proof.FrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : cond0_0 i) (hc1 : ¬cond0_1 i)
    (x0 : Vec F S2048x1024 .bf16) (x1 : Vec F S4x512x1024 .bf16) (x2 : Vec F S4x1x512 .f32) (x3 : Vec F S2048x512 .f32) :
    Σ' (L4 : List (View.Piece (Elt F) S2048x512 .f32)), { LS0 : List (View.Piece (Elt F) S4x2048x512 .f32) //
      ∀ (xi4 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gru_kernel i arg3 harg3 arg4 harg4 arg5 harg5 arg6 harg6 arg7 harg7 arg8 harg8) K } := by
  refine ⟨[], ?_, fun xi4 E K => ?run⟩
  case run =>
    simp only [cc0__gru_kernel_eq_skeleton]; unfold cc0__gru_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.RunB.lean ====
/-
  The gate kernel's body at a MIDDLE reduction step (k = 1 or 2), run once on arbitrary whole staging buffers.
  There the body only adds this step's four partial products into the four accumulator slabs; it neither zeroes the
  accumulator nor touches the output tile. Given the four input buffers at their contents, the output buffer at any
  contents (handed back untouched) and the accumulator at the contents the step before left, the body runs to a state
  where the inputs are as they were and the accumulator holds those contents overwritten by the stored pieces found
  by the symbolic run.
-/
import proofs.«107846_j83116207112676_2_alg».proof.Proof.FrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : ¬cond0_1 i)
    (x0 : Vec F S2048x1024 .bf16) (x1 : Vec F S4x512x1024 .bf16) (x2 : Vec F S4x1x512 .f32) (x3 : Vec F S2048x512 .f32) (xs0 : Vec F S4x2048x512 .f32) :
    Σ' (L4 : List (View.Piece (Elt F) S2048x512 .f32)), { LS0 : List (View.Piece (Elt F) S4x2048x512 .f32) //
      ∀ (xi4 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gru_kernel i arg3 harg3 arg4 harg4 arg5 harg5 arg6 harg6 arg7 harg7 arg8 harg8) K } := by
  refine ⟨[], ?_, fun xi4 E K => ?run⟩
  case run =>
    simp only [cc0__gru_kernel_eq_skeleton]; unfold cc0__gru_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.RunC.lean ====
/-
  The gate kernel's body at a LAST reduction step (k = 3), run once on arbitrary whole staging buffers.
  There the body adds the last four partial products into the accumulator slabs, then reads the four slabs back, adds
  the four bias rows, applies the three sigmoids and the convex combination with the hidden tile, and stores the
  result as the whole output tile. Given the four input buffers at their contents, the output buffer at anything and
  the accumulator at the contents the step before left, the body runs to a state where the inputs are as they were
  and the output buffer and the accumulator hold their old contents overwritten by the stored pieces found by the
  symbolic run.
-/
import proofs.«107846_j83116207112676_2_alg».proof.Proof.FrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec F S2048x1024 .bf16) (x1 : Vec F S4x512x1024 .bf16) (x2 : Vec F S4x1x512 .f32) (x3 : Vec F S2048x512 .f32) (xs0 : Vec F S4x2048x512 .f32) :
    Σ' (L4 : List (View.Piece (Elt F) S2048x512 .f32)), { LS0 : List (View.Piece (Elt F) S4x2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__gru_kernel i arg3 harg3 arg4 harg4 arg5 harg5 arg6 harg6 arg7 harg7 arg8 harg8) K } := by
  refine ⟨?_, ?_, fun E K => ?run⟩
  case run =>
    simp only [cc0__gru_kernel_eq_skeleton]; unfold cc0__gru_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.Frame.lean ====
/-
  The frame of the gate kernel, at any float instance: @main runs to the end without a fault, leaves its fourteen
  argument arrays as they were, and its result array holds what the pipeline's write-backs leave there.

  The pipeline visits 128 grid points; the reduction step k = t mod 4 is innermost. What the body leaves behind at a
  point depends on k only through three cases: at k = 0 (case A) the accumulator is zeroed and the first partial
  products added; at k = 1, 2 (case B) partial products are added to what the point before left; at k = 3 (case C) the
  last partial products are added and the output tile is computed from the accumulator, the bias tile and the hidden
  tile and stored. `outsAt0` states, by recursion on the point, the pair (output tile, accumulator) after each point:
  each case's stored pieces read back, cases B and C started from the accumulator of the point before. The region's
  invariant carries the accumulator at exactly that contents from one point to the next; the output window is idle
  (neither stored nor written back) except at the points of case C.
-/
import proofs.«107846_j83116207112676_2_alg».proof.Proof.FrameBase
import proofs.«107846_j83116207112676_2_alg».proof.Proof.FrameKit
import proofs.«107846_j83116207112676_2_alg».proof.Proof.RunA
import proofs.«107846_j83116207112676_2_alg».proof.Proof.RunB
import proofs.«107846_j83116207112676_2_alg».proof.Proof.RunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The tile case A leaves in the output window's staging buffer: its stored pieces read back (none: the window is idle at these points, so this is a placeholder nothing consults). -/
def out0_A_4 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : cond0_0 i) (hc1 : ¬cond0_1 i)
    (x0 : Vec F S2048x1024 .bf16) (x1 : Vec F S4x512x1024 .bf16) (x2 : Vec F S4x1x512 .f32) (x3 : Vec F S2048x512 .f32) : Vec F S2048x512 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- Case A's stored pieces cover the accumulator: its four gate slabs of one output tile each tile it. -/
theorem scover0_A_0 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : cond0_0 i) (hc1 : ¬cond0_1 i)
    (x0 : Vec F S2048x1024 .bf16) (x1 : Vec F S4x512x1024 .bf16) (x2 : Vec F S4x1x512 .f32) (x3 : Vec F S2048x512 .f32) (y : S4x2048x512.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1x2048x512.size (by sl_kernel_rfl) y

/-- What case A leaves in the accumulator: its stored pieces read back. -/
def sout0_A_0 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : cond0_0 i) (hc1 : ¬cond0_1 i)
    (x0 : Vec F S2048x1024 .bf16) (x1 : Vec F S4x512x1024 .bf16) (x2 : Vec F S4x1x512 .f32) (x3 : Vec F S2048x512 .f32) : Vec F S4x2048x512 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- The tile case B leaves in the output window's staging buffer: its stored pieces read back (none: the window is idle at these points, so this is a placeholder nothing consults). -/
def out0_B_4 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : ¬cond0_1 i)
    (x0 : Vec F S2048x1024 .bf16) (x1 : Vec F S4x512x1024 .bf16) (x2 : Vec F S4x1x512 .f32) (x3 : Vec F S2048x512 .f32) (xs0 : Vec F S4x2048x512 .f32) : Vec F S2048x512 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

/-- Case B's stored pieces cover the accumulator: its four gate slabs of one output tile each tile it. -/
theorem scover0_B_0 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : ¬cond0_1 i)
    (x0 : Vec F S2048x1024 .bf16) (x1 : Vec F S4x512x1024 .bf16) (x2 : Vec F S4x1x512 .f32) (x3 : Vec F S2048x512 .f32) (xs0 : Vec F S4x2048x512 .f32) (y : S4x2048x512.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S1x2048x512.size (by sl_kernel_rfl) y

/-- What case B leaves in the accumulator: its stored pieces read back. -/
def sout0_B_0 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : ¬cond0_1 i)
    (x0 : Vec F S2048x1024 .bf16) (x1 : Vec F S4x512x1024 .bf16) (x2 : Vec F S4x1x512 .f32) (x3 : Vec F S2048x512 .f32) (xs0 : Vec F S4x2048x512 .f32) : Vec F S4x2048x512 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- The tile case C leaves in the output window's staging buffer: its stored pieces read back. -/
def out0_C_4 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec F S2048x1024 .bf16) (x1 : Vec F S4x512x1024 .bf16) (x2 : Vec F S4x1x512 .f32) (x3 : Vec F S2048x512 .f32) (xs0 : Vec F S4x2048x512 .f32) : Vec F S2048x512 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

/-- Case C's stored pieces cover the accumulator: its four gate slabs of one output tile each tile it. -/
theorem scover0_C_0 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec F S2048x1024 .bf16) (x1 : Vec F S4x512x1024 .bf16) (x2 : Vec F S4x1x512 .f32) (x3 : Vec F S2048x512 .f32) (xs0 : Vec F S4x2048x512 .f32) (y : S4x2048x512.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S1x2048x512.size (by sl_kernel_rfl) y

/-- What case C leaves in the accumulator: its stored pieces read back. -/
def sout0_C_0 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec F S2048x1024 .bf16) (x1 : Vec F S4x512x1024 .bf16) (x2 : Vec F S4x1x512 .f32) (x3 : Vec F S2048x512 .f32) (xs0 : Vec F S4x2048x512 .f32) : Vec F S4x2048x512 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-- In case C the one stored piece is the whole output tile, so it covers it. -/
theorem cover0_C_4 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec F S2048x1024 .bf16) (x1 : Vec F S4x512x1024 .bf16) (x2 : Vec F S4x1x512 .f32) (x3 : Vec F S2048x512 .f32) (xs0 : Vec F S4x2048x512 .f32) (y : S2048x512.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S2048x512.size (by sl_kernel_rfl) y

/-! ## What the output tile and the accumulator hold after each point -/

/-- After the body at position `n`: (the output window's staging buffer, the accumulator). The case is selected by
    n mod 4; cases B and C start from the accumulator the point before left. -/
def outsAt0 (c : Dev nD) : (n : ℕ) → n < cfg0.N → Vec F S2048x512 .f32 × Vec F S4x2048x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before position `n`: at the first point the accumulator holds anything; afterwards exactly what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body each input's buffer still at its block, the
    output's at `outsAt0`'s tile; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: each input's staging buffer holds its block; n mod 4 says which case the point is in; the
    invariant hands the body the accumulator at what the point before left (anything at the first point) and takes it
    back at this point's contents; the output window is handed back untouched unless the point is of case C, where it
    gets the stored tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 4 = 0
  · by_cases h1 : t.val % 4 = 3
    · exfalso; omega
    · -- case A
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · -- case C
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · -- case B
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's named contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run, the frame and the result -/

set_option backward.isDefEq.respectTransparency.types false in
/-- Every weakly fair execution of @main terminates without a fault, every array of the pipeline ending at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The same run, also read at the result array: the pipeline's write-backs over the region-entry contents. -/
theorem result : θ_run defs (onTc (τ := τ) (main (F := F))) ⟨m, fun _ => 0, ρ⟩ (fun r => ∀ c : Dev nD,
      r.2.mem ((c.tc : Thread nD τ).loc main_v17) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  result_of m ρ (dats m) (A_eq m) (run_main m ρ)

end Cert.KernelIdeal.Hand

end
-- ==== Proof.KFrameBase.lean ====
/-
  The vocabulary the frame of the gate kernel is stated over, at any float instance.

  The kernel's grid is 4 x 8 x 4 = 128 points, the last axis (the reduction step k) innermost, so point t has k = t mod 4.
  The body branches twice on k: at k = 0 it first zeroes its accumulator; at k = 3 it finally adds the biases, applies
  the gates and stores the output tile. Both conditions are decided here over the grid in closed form.
  `V` is what each TensorCore buffer holds when the region is entered: the launch memory after the seventeen host
  operations that come first (the two weight sums, the two bias sums, the two four-fold stacks, the casts).
-/
import proofs.«107846_j83116207112676_2_alg».proof.Proof.Gen.Kernel.Launch
import proofs.«107846_j83116207112676_2_alg».proof.Proof.Gen.Kernel.Skeleton
import proofs.«107846_j83116207112676_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s TensorCore buffers when the region is entered: the launch memory after the host operations. -/
abbrev V (c : Dev nD) (b : Ref sig .tc) : Buf (Elt F) ((c : Thread nD τ).loc b) := StableHlo.after hostOps0 (fun b => m (c, b)) b

/-! ## The body's two branch conditions -/

/-- "This is the first reduction step": the body's first conditional, from the grid coordinates. -/
abbrev cond0_0 (i : grid0.Coords) : Prop := (Scalar.cmpi .ne (Scalar.extui (Scalar.cmpi .eq (BitVec.ofNat 32 (i 2).val) 0#32)) 0#32) = 1#1
/-- It holds exactly at the points with t mod 4 = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last reduction step": the body's second conditional. -/
abbrev cond0_1 (i : grid0.Coords) : Prop := k0_cond2 i = 1#1
/-- It holds exactly at the points with t mod 4 = 3. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## The memrefs the body is called with -/

/-- Each window's current staging memref at point `t`, as the pipeline passes it to the body, and its wholeness. -/
abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .f32 := win0_4.stage (cfg0.slots t 4)
abbrev hs0_4 (t : Fin cfg0.N) : (ms0_4 t).IsWhole := hstage0_4 ((cfg0.slots t 4).cast nbuf0_4)
/-- The accumulator: a whole scoped buffer of the kernel's own, four gate slabs of one output tile each. -/
abbrev scM0_0 : Memref sig .tc .vmem S4x2048x512 .f32 := Memref.whole cc0_scratch0
/-- The accumulator as a view: what it holds between points is stated through it. -/
abbrev VS0_0 : View sig .tc .vmem S4x2048x512 .f32 := scM0_0.view
/-- One staging buffer of the output window, through which the tile the body leaves is stated. -/
abbrev VO0_4 : View sig .tc .vmem S2048x512 .f32 := (Memref.whole cc0_stg4_0 : Memref sig .tc .vmem S2048x512 .f32).view

end Cert.Kernel.Hand

end
-- ==== Proof.KFrameKit.lean ====
/-
  The launch side of the gate kernel's frame, at any float instance.

  The program is seventeen host operations (the two weight sums, the two bias sums, the two four-fold stacks, the casts)
  followed by one region over the 4 x 8 x 4 grid. This module says what the region finds and what a run of it leaves:
    * the program up to the region is the host operations then the region, and none of the host operations writes an
      argument array (each writes only its own result), so the region finds all fourteen arguments as launched;
    * each window's block at a grid point, read off the array the region finds; an input window's staging buffer holds
      that block whenever the body runs, fetched at that point or carried from the point before (the two windows whose
      index map ignores the reduction step k are fetched only at k = 0 and keep their block for the other three steps);
    * the output window is idle, and not written back, except at the last reduction step k = 3;
    * what the region owns beside the windows is the accumulator and the generator register;
    * from a run of the region to the library's frame post, every argument array ends as launched (the hidden state is
      an input window's array, never written back; the other thirteen bypass the region), and the result array ends as
      the library computes it from the blocks written back.
-/
import proofs.«107846_j83116207112676_2_alg».proof.Proof.KFrameBase
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- No host operation allocates a buffer. -/
theorem hostOps0_fresh : (hostOps0 : List (HloOp τ sig (Elt F))).Forall fun op => op.fresh = ∅ := by
  simp only [List.Forall]; repeat' constructor

/-- The program is the host operations then the region, so the region is entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0 (the input x): each writes only its own result, a different buffer. The region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 1 (the hidden state h): each writes only its own result, a different buffer. The region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 2 (the weight w_ir): each writes only its own result, a different buffer. The region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 3 (the bias b_ir): each writes only its own result, a different buffer. The region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 4 (the weight w_iz): each writes only its own result, a different buffer. The region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 5 (the bias b_iz): each writes only its own result, a different buffer. The region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 6 (the weight w_in): each writes only its own result, a different buffer. The region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 7 (the bias b_in): each writes only its own result, a different buffer. The region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 8 (the weight w_hr): each writes only its own result, a different buffer. The region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 9 (the bias b_hr): each writes only its own result, a different buffer. The region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 10 (the weight w_hz): each writes only its own result, a different buffer. The region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 11 (the bias b_hz): each writes only its own result, a different buffer. The region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 12 (the weight w_hn): each writes only its own result, a different buffer. The region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 13 (the bias b_hn): each writes only its own result, a different buffer. The region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the cast input's 2048 x 1024 tile (i, k)): its current staging buffer holds its block whenever the body runs, fetched at
    that point or not, for any proof data whose array is the one the region finds and whose body leaves the block in
    place: where it is not fetched the block index has not moved since the point before. The window is never idle and
    its blocks tile the array. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the stacked weights' 4 x 512 x 1024 tile (j, k)): its current staging buffer holds its block whenever the body runs, fetched at
    that point or not, for any proof data whose array is the one the region finds and whose body leaves the block in
    place: where it is not fetched the block index has not moved since the point before. The window is never idle and
    its blocks tile the array. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (the stacked biases' 4 x 1 x 512 tile j, the same for all four reduction steps): its current staging buffer holds its block whenever the body runs, fetched at
    that point or not, for any proof data whose array is the one the region finds and whose body leaves the block in
    place: where it is not fetched the block index has not moved since the point before. The window is never idle and
    its blocks tile the array. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (the hidden state's 2048 x 512 tile (i, j), the same for all four reduction steps): its current staging buffer holds its block whenever the body runs, fetched at
    that point or not, for any proof data whose array is the one the region finds and whose body leaves the block in
    place: where it is not fetched the block index has not moved since the point before. The window is never idle and
    its blocks tile the array. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post, and the result, from a run of the region -/

/-- The frame from a run of the region: for any proof data whose arrays are the contents the region finds, a run to the
    library's frame post leaves every argument array as launched. The hidden state (argument 1) is input window 3's
    array, which no write-back touches; each of the other thirteen is an unscoped buffer that is no window's array, so
    it bypasses the region and ends as the region found it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-- The same run read at the result as well: the result array ends as the library computes it from the proof data (the
    array the region finds, overwritten by the tile written back at each last reduction step), and the fourteen
    argument arrays as launched. -/
theorem result_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v17) = (dats 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1 4,
      ((h c).2 main_arg0 (Pipeline.mem_restRefs_of main_arg0 (by decide) (by decide))).trans (V_main_arg0 m c),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## Where the windows are idle -/

/-- Input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last reduction step the output window is idle: the body stores nothing into it there, -/
theorem idleAt0_4 : ∀ t : Fin cfg0.N, ¬cond0_1 (grid0.coords t) → cfg0.idle 4 (grid0.coords t) = true := by decide +kernel
/-- and its block is not written back there. -/
theorem noFlush0_4 : ∀ t : Fin cfg0.N, ¬cond0_1 (grid0.coords t) → (cfg0.win 4).flush t = false := by decide +kernel
/-- At the last reduction step the output window is live: the body stores the tile into it. -/
theorem liveAt0_4 : ∀ t : Fin cfg0.N, cond0_1 (grid0.coords t) → cfg0.idle 4 (grid0.coords t) = false := by decide +kernel

/-! ## What the region owns beside the windows -/

/-- The region's invariant with the accumulator as a memref owned at some contents, beside the generator register at
    some state: what the body is handed at each point and hands back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KRunA.lean ====
/-
  The gate kernel's body at a FIRST reduction step (k = 0), run once on arbitrary whole staging buffers.
  There the body overwrites its whole accumulator with zeros, then adds this step's four partial products
  (the input tile against each gate's weight tile) into the four slabs, and stores nothing into the output tile.
  The theorem is a Hoare triple in continuation form: given the four input buffers at their contents, the output
  buffer at any contents (handed back untouched) and the accumulator at anything, the body runs to a state where the
  inputs are as they were and the accumulator holds its old contents overwritten by a list of stored pieces; the list
  is the witness the symbolic run finds.
-/
import proofs.«107846_j83116207112676_2_alg».proof.Proof.KFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : cond0_0 i) (hc1 : ¬cond0_1 i)
    (x0 : Vec F S2048x1024 .bf16) (x1 : Vec F S4x512x1024 .bf16) (x2 : Vec F S4x1x512 .f32) (x3 : Vec F S2048x512 .f32) :
    Σ' (L4 : List (View.Piece (Elt F) S2048x512 .f32)), { LS0 : List (View.Piece (Elt F) S4x2048x512 .f32) //
      ∀ (xi4 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gru_kernel i arg3 harg3 arg4 harg4 arg5 harg5 arg6 harg6 arg7 harg7 arg8 harg8) K } := by
  refine ⟨[], ?_, fun xi4 E K => ?run⟩
  case run =>
    simp only [cc0__gru_kernel_eq_skeleton]; unfold cc0__gru_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.KRunB.lean ====
/-
  The gate kernel's body at a MIDDLE reduction step (k = 1 or 2), run once on arbitrary whole staging buffers.
  There the body only adds this step's four partial products into the four accumulator slabs; it neither zeroes the
  accumulator nor touches the output tile. Given the four input buffers at their contents, the output buffer at any
  contents (handed back untouched) and the accumulator at the contents the step before left, the body runs to a state
  where the inputs are as they were and the accumulator holds those contents overwritten by the stored pieces found
  by the symbolic run.
-/
import proofs.«107846_j83116207112676_2_alg».proof.Proof.KFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : ¬cond0_1 i)
    (x0 : Vec F S2048x1024 .bf16) (x1 : Vec F S4x512x1024 .bf16) (x2 : Vec F S4x1x512 .f32) (x3 : Vec F S2048x512 .f32) (xs0 : Vec F S4x2048x512 .f32) :
    Σ' (L4 : List (View.Piece (Elt F) S2048x512 .f32)), { LS0 : List (View.Piece (Elt F) S4x2048x512 .f32) //
      ∀ (xi4 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gru_kernel i arg3 harg3 arg4 harg4 arg5 harg5 arg6 harg6 arg7 harg7 arg8 harg8) K } := by
  refine ⟨[], ?_, fun xi4 E K => ?run⟩
  case run =>
    simp only [cc0__gru_kernel_eq_skeleton]; unfold cc0__gru_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.KRunC.lean ====
/-
  The gate kernel's body at a LAST reduction step (k = 3), run once on arbitrary whole staging buffers.
  There the body adds the last four partial products into the accumulator slabs, then reads the four slabs back, adds
  the four bias rows, applies the three sigmoids and the convex combination with the hidden tile, and stores the
  result as the whole output tile. Given the four input buffers at their contents, the output buffer at anything and
  the accumulator at the contents the step before left, the body runs to a state where the inputs are as they were
  and the output buffer and the accumulator hold their old contents overwritten by the stored pieces found by the
  symbolic run.
-/
import proofs.«107846_j83116207112676_2_alg».proof.Proof.KFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec F S2048x1024 .bf16) (x1 : Vec F S4x512x1024 .bf16) (x2 : Vec F S4x1x512 .f32) (x3 : Vec F S2048x512 .f32) (xs0 : Vec F S4x2048x512 .f32) :
    Σ' (L4 : List (View.Piece (Elt F) S2048x512 .f32)), { LS0 : List (View.Piece (Elt F) S4x2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__gru_kernel i arg3 harg3 arg4 harg4 arg5 harg5 arg6 harg6 arg7 harg7 arg8 harg8) K } := by
  refine ⟨?_, ?_, fun E K => ?run⟩
  case run =>
    simp only [cc0__gru_kernel_eq_skeleton]; unfold cc0__gru_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.KFrame.lean ====
/-
  The frame of the gate kernel, at any float instance: @main runs to the end without a fault, leaves its fourteen
  argument arrays as they were, and its result array holds what the pipeline's write-backs leave there.

  The pipeline visits 128 grid points; the reduction step k = t mod 4 is innermost. What the body leaves behind at a
  point depends on k only through three cases: at k = 0 (case A) the accumulator is zeroed and the first partial
  products added; at k = 1, 2 (case B) partial products are added to what the point before left; at k = 3 (case C) the
  last partial products are added and the output tile is computed from the accumulator, the bias tile and the hidden
  tile and stored. `outsAt0` states, by recursion on the point, the pair (output tile, accumulator) after each point:
  each case's stored pieces read back, cases B and C started from the accumulator of the point before. The region's
  invariant carries the accumulator at exactly that contents from one point to the next; the output window is idle
  (neither stored nor written back) except at the points of case C.
-/
import proofs.«107846_j83116207112676_2_alg».proof.Proof.KFrameBase
import proofs.«107846_j83116207112676_2_alg».proof.Proof.KFrameKit
import proofs.«107846_j83116207112676_2_alg».proof.Proof.KRunA
import proofs.«107846_j83116207112676_2_alg».proof.Proof.KRunB
import proofs.«107846_j83116207112676_2_alg».proof.Proof.KRunC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The tile case A leaves in the output window's staging buffer: its stored pieces read back (none: the window is idle at these points, so this is a placeholder nothing consults). -/
def out0_A_4 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : cond0_0 i) (hc1 : ¬cond0_1 i)
    (x0 : Vec F S2048x1024 .bf16) (x1 : Vec F S4x512x1024 .bf16) (x2 : Vec F S4x1x512 .f32) (x3 : Vec F S2048x512 .f32) : Vec F S2048x512 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- Case A's stored pieces cover the accumulator: its four gate slabs of one output tile each tile it. -/
theorem scover0_A_0 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : cond0_0 i) (hc1 : ¬cond0_1 i)
    (x0 : Vec F S2048x1024 .bf16) (x1 : Vec F S4x512x1024 .bf16) (x2 : Vec F S4x1x512 .f32) (x3 : Vec F S2048x512 .f32) (y : S4x2048x512.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1x2048x512.size (by sl_kernel_rfl) y

/-- What case A leaves in the accumulator: its stored pieces read back. -/
def sout0_A_0 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : cond0_0 i) (hc1 : ¬cond0_1 i)
    (x0 : Vec F S2048x1024 .bf16) (x1 : Vec F S4x512x1024 .bf16) (x2 : Vec F S4x1x512 .f32) (x3 : Vec F S2048x512 .f32) : Vec F S4x2048x512 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- The tile case B leaves in the output window's staging buffer: its stored pieces read back (none: the window is idle at these points, so this is a placeholder nothing consults). -/
def out0_B_4 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : ¬cond0_1 i)
    (x0 : Vec F S2048x1024 .bf16) (x1 : Vec F S4x512x1024 .bf16) (x2 : Vec F S4x1x512 .f32) (x3 : Vec F S2048x512 .f32) (xs0 : Vec F S4x2048x512 .f32) : Vec F S2048x512 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

/-- Case B's stored pieces cover the accumulator: its four gate slabs of one output tile each tile it. -/
theorem scover0_B_0 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : ¬cond0_1 i)
    (x0 : Vec F S2048x1024 .bf16) (x1 : Vec F S4x512x1024 .bf16) (x2 : Vec F S4x1x512 .f32) (x3 : Vec F S2048x512 .f32) (xs0 : Vec F S4x2048x512 .f32) (y : S4x2048x512.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S1x2048x512.size (by sl_kernel_rfl) y

/-- What case B leaves in the accumulator: its stored pieces read back. -/
def sout0_B_0 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : ¬cond0_1 i)
    (x0 : Vec F S2048x1024 .bf16) (x1 : Vec F S4x512x1024 .bf16) (x2 : Vec F S4x1x512 .f32) (x3 : Vec F S2048x512 .f32) (xs0 : Vec F S4x2048x512 .f32) : Vec F S4x2048x512 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- The tile case C leaves in the output window's staging buffer: its stored pieces read back. -/
def out0_C_4 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec F S2048x1024 .bf16) (x1 : Vec F S4x512x1024 .bf16) (x2 : Vec F S4x1x512 .f32) (x3 : Vec F S2048x512 .f32) (xs0 : Vec F S4x2048x512 .f32) : Vec F S2048x512 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

/-- Case C's stored pieces cover the accumulator: its four gate slabs of one output tile each tile it. -/
theorem scover0_C_0 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec F S2048x1024 .bf16) (x1 : Vec F S4x512x1024 .bf16) (x2 : Vec F S4x1x512 .f32) (x3 : Vec F S2048x512 .f32) (xs0 : Vec F S4x2048x512 .f32) (y : S4x2048x512.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S1x2048x512.size (by sl_kernel_rfl) y

/-- What case C leaves in the accumulator: its stored pieces read back. -/
def sout0_C_0 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec F S2048x1024 .bf16) (x1 : Vec F S4x512x1024 .bf16) (x2 : Vec F S4x1x512 .f32) (x3 : Vec F S2048x512 .f32) (xs0 : Vec F S4x2048x512 .f32) : Vec F S4x2048x512 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-- In case C the one stored piece is the whole output tile, so it covers it. -/
theorem cover0_C_4 (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec F S2048x1024 .bf16) (x1 : Vec F S4x512x1024 .bf16) (x2 : Vec F S4x1x512 .f32) (x3 : Vec F S2048x512 .f32) (xs0 : Vec F S4x2048x512 .f32) (y : S2048x512.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S2048x512.size (by sl_kernel_rfl) y

/-! ## What the output tile and the accumulator hold after each point -/

/-- After the body at position `n`: (the output window's staging buffer, the accumulator). The case is selected by
    n mod 4; cases B and C start from the accumulator the point before left. -/
def outsAt0 (c : Dev nD) : (n : ℕ) → n < cfg0.N → Vec F S2048x512 .f32 × Vec F S4x2048x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before position `n`: at the first point the accumulator holds anything; afterwards exactly what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body each input's buffer still at its block, the
    output's at `outsAt0`'s tile; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: each input's staging buffer holds its block; n mod 4 says which case the point is in; the
    invariant hands the body the accumulator at what the point before left (anything at the first point) and takes it
    back at this point's contents; the output window is handed back untouched unless the point is of case C, where it
    gets the stored tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 4 = 0
  · by_cases h1 : t.val % 4 = 3
    · exfalso; omega
    · -- case A
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · -- case C
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · -- case B
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's named contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run, the frame and the result -/

set_option backward.isDefEq.respectTransparency.types false in
/-- Every weakly fair execution of @main terminates without a fault, every array of the pipeline ending at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The same run, also read at the result array: the pipeline's write-backs over the region-entry contents. -/
theorem result : θ_run defs (onTc (τ := τ) (main (F := F))) ⟨m, fun _ => 0, ρ⟩ (fun r => ∀ c : Dev nD,
      r.2.mem ((c.tc : Thread nD τ).loc main_v17) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  result_of m ρ (dats m) (A_eq m) (run_main m ρ)

end Cert.Kernel.Hand

end
-- ==== Proof.Spec.lean ====
/-
  The gated-recurrent-cell update as one function of the fourteen argument arrays, on the extended reals.

  With x the 8192 x 4096 input, h the 8192 x 4096 hidden state, and six 4096 x 4096 weight matrices w with their bias rows b,
  a LINEAR GATE at row p and output feature o is   lin x w b p o = (sum over d of x(p,d) * w(o,d)) + b(o).
  The update is
      r = sigma(lin_ir + lin_hr),   z = sigma(lin_iz + lin_hz),   n = sigma(lin_in + r * lin_hn),
      out(p,o) = (1 - z) * h(p,o) + z * n,
  every gate fed the input x (the hidden state enters only the last line).

  Two spellings of it are defined here. `Gref` adds the two pre-activations of r (and of z) AFTER the two products with x;
  `Gker` adds the two weight matrices (and the two bias rows) FIRST and multiplies once. They are equal when x and the four
  added weight matrices are real-valued: that is distributivity x * (a + b) = x * a + x * b under the sum over d, which on the
  extended reals fails at infinities of opposite sign and so needs the entries finite; the regrouping of the two biases is
  commutativity and associativity of + alone and needs nothing.
-/
import Idealize.ShloMosaic.PureOps.Ideal
import Idealize.ShloMosaic.Lib.ValueIdx

noncomputable section

namespace Cert.GruSpec

open Idealize.ShloMosaic Idealize.ShloMosaic.ValueIdx

/-- An r x c array of extended reals, indexed as the printed programs index a rank-2 array. -/
abbrev Mat (r c : Nat) : Type := (⟨2, ![r, c]⟩ : Shape).Idx → EReal
/-- A length-n row of extended reals. -/
abbrev Row (n : Nat) : Type := (⟨1, ![n]⟩ : Shape).Idx → EReal

/-- Every entry is a real number (neither infinity). -/
def AllReal {ι : Type} (f : ι → EReal) : Prop := ∀ j, ∃ r : ℝ, f j = (r : EReal)

/-- The float 1.0, as the programs spell it. -/
abbrev one : EReal := Ideal.ofBits .f32 0x3F800000#32

/-- A linear gate at row `p`, output feature `o`: the row of `x` against row `o` of `w`, plus the bias. -/
def lin (x : Mat 8192 4096) (w : Mat 4096 4096) (b : Row 4096) (p : Fin 8192) (o : Fin 4096) : EReal :=
  (∑ d : Fin 4096, x (ix2 p d) * w (ix2 o d)) + b (ix1 o)

/-- The same gate with two weight matrices and two bias rows added BEFORE the product. -/
def linFused (x : Mat 8192 4096) (w w' : Mat 4096 4096) (b b' : Row 4096) (p : Fin 8192) (o : Fin 4096) : EReal :=
  (∑ d : Fin 4096, x (ix2 p d) * (w (ix2 o d) + w' (ix2 o d))) + (b (ix1 o) + b' (ix1 o))

/-- The cell's last lines from the four pre-activations and the hidden entry. -/
def combine (rPre zPre inn hn h : EReal) : EReal :=
  (one - Ideal.logistic zPre) * h + Ideal.logistic zPre * Ideal.logistic (inn + Ideal.logistic rPre * hn)

/-- The update with the pre-activations of r and of z each a SUM OF TWO GATES. Arguments in the programs' order:
    x, h, w_ir, b_ir, w_iz, b_iz, w_in, b_in, w_hr, b_hr, w_hz, b_hz, w_hn, b_hn. -/
def Gref (x h : Mat 8192 4096) (wir : Mat 4096 4096) (bir : Row 4096) (wiz : Mat 4096 4096) (biz : Row 4096)
    (win : Mat 4096 4096) (bin : Row 4096) (whr : Mat 4096 4096) (bhr : Row 4096) (whz : Mat 4096 4096) (bhz : Row 4096)
    (whn : Mat 4096 4096) (bhn : Row 4096) : Mat 8192 4096 := fun j =>
  combine (lin x wir bir (j 0) (j 1) + lin x whr bhr (j 0) (j 1)) (lin x wiz biz (j 0) (j 1) + lin x whz bhz (j 0) (j 1))
    (lin x win bin (j 0) (j 1)) (lin x whn bhn (j 0) (j 1)) (h j)

/-- The update with the weights and biases of r and of z ADDED FIRST. Same argument order. -/
def Gker (x h : Mat 8192 4096) (wir : Mat 4096 4096) (bir : Row 4096) (wiz : Mat 4096 4096) (biz : Row 4096)
    (win : Mat 4096 4096) (bin : Row 4096) (whr : Mat 4096 4096) (bhr : Row 4096) (whz : Mat 4096 4096) (bhz : Row 4096)
    (whn : Mat 4096 4096) (bhn : Row 4096) : Mat 8192 4096 := fun j =>
  combine (linFused x wir whr bir bhr (j 0) (j 1)) (linFused x wiz whz biz bhz (j 0) (j 1))
    (lin x win bin (j 0) (j 1)) (lin x whn bhn (j 0) (j 1)) (h j)

end Cert.GruSpec

end
-- ==== Proof.KerPay.lean ====
/-
  The arithmetic of the cell's body, read one entry at a time on the extended reals.

  The body works on tiles: a 2048 x 1024 tile of the input, four 512 x 1024 slabs of (fused) weights, four
  2048 x 512 accumulator slabs, four bias rows of length 512, and a 2048 x 512 tile of the hidden state.
  Each statement below says what one stored value is at row p and column c of its tile:
    * the accumulator starts at 0;
    * one accumulation step adds to a slab the product of the input tile with the TRANSPOSE of a weight slab,
      that is  acc(p,c) + sum over a < 1024 of x(p,a) * w(c,a);
    * the last step adds each bias row to its slab and forms the convex combination
      (1 - z) * h + z * n  of the spec, with z and n the two gate values.
  Nothing here uses finiteness: every step is a reading of an operation at an index, and the one law used,
  0 + s = s, holds on the extended reals without condition.
-/
import proofs.«107846_j83116207112676_2_alg».proof.Proof.Gen.KernelIdeal.Skeleton
import proofs.«107846_j83116207112676_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KerValue

open Cert.KernelIdeal Cert.KernelIdeal.Gen Idealize.ShloMosaic Idealize.ShloMosaic.ValueIdx

/-! ## The contraction at one entry -/

/-- On the left operand's row axis the operand index is the output's row. -/
theorem lhs_row (i : S2048x512.Idx) (q : dot_S2048x1024_S512x1024_S2048x512_1_1_0_0_n_n.contr.Idx) :
    (dot_S2048x1024_S512x1024_S2048x512_1_1_0_0_n_n.lhsIdx i q 0).val = (i 0).val := by
  unfold DotDims.lhsIdx
  rw [dif_neg (show ¬(0 : Fin S2048x1024.rank) ∈ dot_S2048x1024_S512x1024_S2048x512_1_1_0_0_n_n.lhsBatch by decide),
    dif_pos (show (0 : Fin S2048x1024.rank) ∈ dot_S2048x1024_S512x1024_S2048x512_1_1_0_0_n_n.lhsNonContracting by decide)]
  rfl

/-- On the left operand's contracted axis it is the contraction position. -/
theorem lhs_contr (i : S2048x512.Idx) (q : dot_S2048x1024_S512x1024_S2048x512_1_1_0_0_n_n.contr.Idx) :
    (dot_S2048x1024_S512x1024_S2048x512_1_1_0_0_n_n.lhsIdx i q 1).val = (q ⟨0, by decide⟩).val :=
  dot_S2048x1024_S512x1024_S2048x512_1_1_0_0_n_n.lhsIdx_val_of_single rfl i q

/-- On the right operand's row axis the operand index is the output's COLUMN (the right operand enters transposed). -/
theorem rhs_row (i : S2048x512.Idx) (q : dot_S2048x1024_S512x1024_S2048x512_1_1_0_0_n_n.contr.Idx) :
    (dot_S2048x1024_S512x1024_S2048x512_1_1_0_0_n_n.rhsIdx i q 0).val = (i 1).val := by
  unfold DotDims.rhsIdx
  rw [dif_neg (show ¬(0 : Fin S512x1024.rank) ∈ dot_S2048x1024_S512x1024_S2048x512_1_1_0_0_n_n.rhsBatch by decide),
    dif_pos (show (0 : Fin S512x1024.rank) ∈ dot_S2048x1024_S512x1024_S2048x512_1_1_0_0_n_n.rhsNonContracting by decide)]
  rfl

/-- On the right operand's contracted axis it is the contraction position. -/
theorem rhs_contr (i : S2048x512.Idx) (q : dot_S2048x1024_S512x1024_S2048x512_1_1_0_0_n_n.contr.Idx) :
    (dot_S2048x1024_S512x1024_S2048x512_1_1_0_0_n_n.rhsIdx i q 1).val = (q ⟨0, by decide⟩).val :=
  dot_S2048x1024_S512x1024_S2048x512_1_1_0_0_n_n.rhsIdx_val_of_single rfl i q

/-- The product of a 2048 x 1024 tile with the transpose of a 512 x 1024 slab, accumulated into zero, at (p, c):
    the sum over the 1024 contracted positions of l(p,a) * r(c,a). -/
theorem matmul_zero_apply (l : FVec Ideal S2048x1024 .bf16) (r : FVec Ideal S512x1024 .bf16) (p : Fin 2048) (c : Fin 512) :
    matmul dot_S2048x1024_S512x1024_S2048x512_1_1_0_0_n_n none l r (constant S2048x512 .f32 0x00000000#32) (ix2 p c)
      = ∑ a : Fin 1024, l (ix2 p a) * r (ix2 c a) := by
  refine (Ideal.matmul_constant_zero_apply dot_S2048x1024_S512x1024_S2048x512_1_1_0_0_n_n none l r (ix2 p c)).trans ?_
  rw [← Equiv.sum_comp (contrEquiv1 dot_S2048x1024_S512x1024_S2048x512_1_1_0_0_n_n 1024 rfl rfl).symm]
  refine Finset.sum_congr rfl fun k _ => ?_
  have hk := contrEquiv1_symm_val dot_S2048x1024_S512x1024_S2048x512_1_1_0_0_n_n 1024 rfl rfl k
  have el : dot_S2048x1024_S512x1024_S2048x512_1_1_0_0_n_n.lhsIdx (ix2 p c)
      ((contrEquiv1 dot_S2048x1024_S512x1024_S2048x512_1_1_0_0_n_n 1024 rfl rfl).symm k) = ix2 p k :=
    funext fun a => Fin.ext (by
      match a with
      | ⟨0, _⟩ => exact lhs_row _ _
      | ⟨1, _⟩ => exact (lhs_contr _ _).trans hk)
  have er : dot_S2048x1024_S512x1024_S2048x512_1_1_0_0_n_n.rhsIdx (ix2 p c)
      ((contrEquiv1 dot_S2048x1024_S512x1024_S2048x512_1_1_0_0_n_n 1024 rfl rfl).symm k) = ix2 c k :=
    funext fun a => Fin.ext (by
      match a with
      | ⟨0, _⟩ => exact rhs_row _ _
      | ⟨1, _⟩ => exact (rhs_contr _ _).trans hk)
  rw [el, er]

/-! ## The accumulator's slabs -/

/-- The input tile re-viewed at its own shape is itself. -/
theorem pay8_eq (v3 : Vec Ideal S2048x1024 .bf16) : k0_pay8 (F := Ideal) v3 = v3 :=
  shapeCast_self v3 _

/-- The accumulator is zeroed: every entry of the 4 x 2048 x 512 scratch is set to 0. -/
theorem pay7_apply (j : S4x2048x512.Idx) : k0_pay7 (F := Ideal) j = 0 := by
  unfold k0_pay7
  rw [shapeCast_self]
  exact Ideal.ofBits_zero_f32

/-- ONE ACCUMULATION STEP on a slab, at row p and column c: a slab (carried with a leading unit axis) is viewed as a
    2048 x 512 matrix, the product of the input tile l with the transpose of the weight slab w (also carried with a
    leading unit axis) is added, and the sum is viewed as a slab again. -/
theorem acc_step (l : FVec Ideal S2048x1024 .bf16) (w : FVec Ideal S1x512x1024 .bf16) (acc : FVec Ideal S1x2048x512 .f32)
    (p : Fin 2048) (c : Fin 512) :
    shapeCast S1x2048x512
        (addf (shapeCast S2048x512 acc shapeCasts_S1x2048x512_S2048x512)
          (matmul dot_S2048x1024_S512x1024_S2048x512_1_1_0_0_n_n none l
            (shapeCast S512x1024 w shapeCasts_S1x512x1024_S512x1024) (constant S2048x512 .f32 0x00000000#32)))
        shapeCasts_S2048x512_S1x2048x512 (ix3 (0 : Fin 1) p c)
      = acc (ix3 (0 : Fin 1) p c) + ∑ a : Fin 1024, l (ix2 p a) * w (ix3 (0 : Fin 1) c a) := by
  refine (shapeCast_ab_1ab_apply _ shapeCasts_S2048x512_S1x2048x512 (0 : Fin 1) p c).trans ?_
  refine (addf_apply _ _ (ix2 p c)).trans ?_
  refine congrArg₂ (· + ·) (shapeCast_1ab_ab_apply acc shapeCasts_S1x2048x512_S2048x512 p c) ?_
  refine (matmul_zero_apply l _ p c).trans ?_
  exact Finset.sum_congr rfl fun a _ =>
    congrArg (l (ix2 p a) * ·) (shapeCast_1ab_ab_apply w shapeCasts_S1x512x1024_S512x1024 c a)

/-- The step on slab 0 (the gate r, fused weights). -/
theorem pay9_apply (v3 : Vec Ideal S2048x1024 .bf16) (v5 : Vec Ideal S1x512x1024 .bf16) (v8 : Vec Ideal S1x2048x512 .f32)
    (p : Fin 2048) (c : Fin 512) :
    k0_pay9 (F := Ideal) v3 v5 v8 (ix3 (0 : Fin 1) p c)
      = v8 (ix3 (0 : Fin 1) p c) + ∑ a : Fin 1024, v3 (ix2 p a) * v5 (ix3 (0 : Fin 1) c a) :=
  (acc_step (k0_pay8 v3) v5 v8 p c).trans (by rw [pay8_eq])

/-- The step on slab 1 (the gate z, fused weights). -/
theorem pay10_apply (v3 : Vec Ideal S2048x1024 .bf16) (v14 : Vec Ideal S1x512x1024 .bf16) (v17 : Vec Ideal S1x2048x512 .f32)
    (p : Fin 2048) (c : Fin 512) :
    k0_pay10 (F := Ideal) v3 v14 v17 (ix3 (0 : Fin 1) p c)
      = v17 (ix3 (0 : Fin 1) p c) + ∑ a : Fin 1024, v3 (ix2 p a) * v14 (ix3 (0 : Fin 1) c a) :=
  (acc_step (k0_pay8 v3) v14 v17 p c).trans (by rw [pay8_eq])

/-- The step on slab 2 (the input part of the gate n). -/
theorem pay1_apply (v3 : Vec Ideal S2048x1024 .bf16) (v23 : Vec Ideal S1x512x1024 .bf16) (v26 : Vec Ideal S1x2048x512 .f32)
    (p : Fin 2048) (c : Fin 512) :
    k0_pay1 (F := Ideal) (k0_pay11 v3 v23) v26 (ix3 (0 : Fin 1) p c)
      = v26 (ix3 (0 : Fin 1) p c) + ∑ a : Fin 1024, v3 (ix2 p a) * v23 (ix3 (0 : Fin 1) c a) :=
  (acc_step (k0_pay8 v3) v23 v26 p c).trans (by rw [pay8_eq])

/-- The step on slab 3 (the hidden part of the gate n). -/
theorem pay2_apply (v3 : Vec Ideal S2048x1024 .bf16) (v32 : Vec Ideal S1x512x1024 .bf16) (v35 : Vec Ideal S1x2048x512 .f32)
    (p : Fin 2048) (c : Fin 512) :
    k0_pay2 (F := Ideal) (k0_pay8 v3) v32 v35 (ix3 (0 : Fin 1) p c)
      = v35 (ix3 (0 : Fin 1) p c) + ∑ a : Fin 1024, v3 (ix2 p a) * v32 (ix3 (0 : Fin 1) c a) :=
  (acc_step (k0_pay8 v3) v32 v35 p c).trans (by rw [pay8_eq])

/-! ## The last step: biases, gates, and the convex combination -/

/-- A slab plus its bias row, at (p, c): the slab is viewed as a matrix, the bias (carried as 1 x 1 x 512) is viewed as
    one row and repeated down the 2048 rows, and the two are added. -/
theorem pre_apply (acc : FVec Ideal S1x2048x512 .f32) (b : FVec Ideal S1x1x512 .f32) (p : Fin 2048) (c : Fin 512) :
    addf (shapeCast S2048x512 acc shapeCasts_S1x2048x512_S2048x512)
        (broadcastTo S2048x512 (shapeCast S1x512 b shapeCasts_S1x1x512_S1x512) broadcasts_S1x512_S2048x512) (ix2 p c)
      = acc (ix3 (0 : Fin 1) p c) + b (ix3 (0 : Fin 1) (0 : Fin 1) c) := by
  refine (addf_apply _ _ (ix2 p c)).trans ?_
  refine congrArg₂ (· + ·) (shapeCast_1ab_ab_apply acc shapeCasts_S1x2048x512_S2048x512 p c) ?_
  refine (broadcastTo_1b_ab_apply _ broadcasts_S1x512_S2048x512 p c).trans ?_
  exact shapeCast_1ab_ab_apply b shapeCasts_S1x1x512_S1x512 (0 : Fin 1) c

/-- The update gate z at (p, c): the logistic function of slab 1 plus its bias. -/
theorem pay4_apply (v50 : Vec Ideal S1x2048x512 .f32) (v52 : Vec Ideal S1x1x512 .f32) (p : Fin 2048) (c : Fin 512) :
    k0_pay4 (F := Ideal) v50 v52 (ix2 p c)
      = Ideal.logistic (v50 (ix3 (0 : Fin 1) p c) + v52 (ix3 (0 : Fin 1) (0 : Fin 1) c)) :=
  congrArg Ideal.logistic (pre_apply v50 v52 p c)

/-- The candidate n at (p, c): the logistic function of slab 2 plus its bias plus r times (slab 3 plus its bias), with
    r the logistic function of slab 0 plus its bias. -/
theorem pay5_apply (v44 : Vec Ideal S1x2048x512 .f32) (v46 : Vec Ideal S1x1x512 .f32) (v56 : Vec Ideal S1x2048x512 .f32)
    (v58 : Vec Ideal S1x1x512 .f32) (v62 : Vec Ideal S1x2048x512 .f32) (v64 : Vec Ideal S1x1x512 .f32)
    (p : Fin 2048) (c : Fin 512) :
    k0_pay5 (F := Ideal) v44 v46 v56 v58 v62 v64 (ix2 p c)
      = Ideal.logistic ((v56 (ix3 (0 : Fin 1) p c) + v58 (ix3 (0 : Fin 1) (0 : Fin 1) c))
          + Ideal.logistic (v44 (ix3 (0 : Fin 1) p c) + v46 (ix3 (0 : Fin 1) (0 : Fin 1) c))
            * (v62 (ix3 (0 : Fin 1) p c) + v64 (ix3 (0 : Fin 1) (0 : Fin 1) c))) :=
  congrArg Ideal.logistic
    (congrArg₂ (· + ·) (pre_apply v56 v58 p c)
      (congrArg₂ (· * ·) (congrArg Ideal.logistic (pre_apply v44 v46 p c)) (pre_apply v62 v64 p c)))

/-- The weight of the old state, (1 - z) * h, at (p, c). -/
theorem pay6_apply (v50 : Vec Ideal S1x2048x512 .f32) (v52 : Vec Ideal S1x1x512 .f32) (v75 : Vec Ideal S2048x512 .f32)
    (p : Fin 2048) (c : Fin 512) :
    k0_pay6 (F := Ideal) v50 v52 v75 (ix2 p c)
      = (Cert.GruSpec.one - Ideal.logistic (v50 (ix3 (0 : Fin 1) p c) + v52 (ix3 (0 : Fin 1) (0 : Fin 1) c))) * v75 (ix2 p c) :=
  congrArg (fun t => (Cert.GruSpec.one - t) * v75 (ix2 p c)) (pay4_apply v50 v52 p c)

/-- THE STORED OUTPUT at (p, c): the spec's convex combination of the hidden entry and the candidate, from the four
    slabs plus their biases. -/
theorem pay3_apply (v44 v50 v56 v62 : Vec Ideal S1x2048x512 .f32) (v46 v52 v58 v64 : Vec Ideal S1x1x512 .f32)
    (v75 : Vec Ideal S2048x512 .f32) (p : Fin 2048) (c : Fin 512) :
    k0_pay3 (F := Ideal) (k0_pay4 v50 v52) (k0_pay5 v44 v46 v56 v58 v62 v64) (k0_pay6 v50 v52 v75) (ix2 p c)
      = Cert.GruSpec.combine (v44 (ix3 (0 : Fin 1) p c) + v46 (ix3 (0 : Fin 1) (0 : Fin 1) c))
          (v50 (ix3 (0 : Fin 1) p c) + v52 (ix3 (0 : Fin 1) (0 : Fin 1) c))
          (v56 (ix3 (0 : Fin 1) p c) + v58 (ix3 (0 : Fin 1) (0 : Fin 1) c))
          (v62 (ix3 (0 : Fin 1) p c) + v64 (ix3 (0 : Fin 1) (0 : Fin 1) c)) (v75 (ix2 p c)) := by
  unfold Cert.GruSpec.combine
  exact congrArg₂ (· + ·) (pay6_apply v50 v52 v75 p c)
    (congrArg₂ (· * ·) (pay4_apply v50 v52 p c) (pay5_apply v44 v46 v56 v58 v62 v64 p c))

end Cert.KernelIdeal.KerValue

end
-- ==== Proof.PieceValues.lean ====
/-
  What the gate kernel's body stores, entry by entry, on the extended reals.

  The body's stores are found by its symbolic run as lists of PIECES, each a rectangle of a buffer with the values stored
  there, the last store first. The accumulator is four slabs of 2048 x 512, one per gate; every reduction step stores
  each slab once, slab g receiving what it held plus the product of the step's input tile x (2048 x 1024) with the
  transpose of the step's weight slab w_g (512 x 1024):
      slab g at (p, o)  =  held(g, p, o) + sum over a < 1024 of x(p, a) * w(g, o, a).
  The four slabs are disjoint (they differ in the leading coordinate), so an entry of slab g is decided by the one
  store into slab g and by no other. At the first step the accumulator is first set to 0 everywhere, and what each
  slab's store then reads back is that 0. At the last step the output tile is stored once, whole: the spec's convex
  combination of the hidden entry with the candidate, from the four freshly stored slabs plus their bias rows.
-/
import proofs.«107846_j83116207112676_2_alg».proof.Proof.RunA
import proofs.«107846_j83116207112676_2_alg».proof.Proof.RunB
import proofs.«107846_j83116207112676_2_alg».proof.Proof.RunC
import proofs.«107846_j83116207112676_2_alg».proof.Proof.KerPay
import proofs.«107846_j83116207112676_2_alg».proof.Proof.Spec
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

namespace Cert.KernelIdeal.KerValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

/-! ## Rectangles of consecutive coordinates, read at an index -/

/-- Local index (a, b, c) of a rank-3 rectangle of consecutive coordinates starting at `off` is the buffer's index
    (off 0 + a, off 1 + b, off 2 + c). -/
theorem unit_idx3 {n0 n1 n2 m0 m1 m2 : Nat} (off : Fin 3 → Nat)
    (inb : ∀ a, off a + (![m0, m1, m2] : Fin 3 → Nat) a ≤ (⟨3, ![n0, n1, n2]⟩ : Shape).size a)
    (a : Fin m0) (b : Fin m1) (c : Fin m2) (a' : Fin n0) (b' : Fin n1) (c' : Fin n2)
    (h0 : off 0 + a.val = a'.val) (h1 : off 1 + b.val = b'.val) (h2 : off 2 + c.val = c'.val) :
    (Rect.unit (s := ⟨3, ![n0, n1, n2]⟩) off ![m0, m1, m2] inb).idx (ix3 a b c) = ix3 a' b' c' := by
  funext d
  apply Fin.ext
  match d with
  | ⟨0, _⟩ => show off 0 + 1 * a.val = a'.val; omega
  | ⟨1, _⟩ => show off 1 + 1 * b.val = b'.val; omega
  | ⟨2, _⟩ => show off 2 + 1 * c.val = c'.val; omega

/-- The same at rank 2. -/
theorem unit_idx2 {n0 n1 m0 m1 : Nat} (off : Fin 2 → Nat)
    (inb : ∀ a, off a + (![m0, m1] : Fin 2 → Nat) a ≤ (⟨2, ![n0, n1]⟩ : Shape).size a)
    (a : Fin m0) (b : Fin m1) (a' : Fin n0) (b' : Fin n1)
    (h0 : off 0 + a.val = a'.val) (h1 : off 1 + b.val = b'.val) :
    (Rect.unit (s := ⟨2, ![n0, n1]⟩) off ![m0, m1] inb).idx (ix2 a b) = ix2 a' b' := by
  funext d
  apply Fin.ext
  match d with
  | ⟨0, _⟩ => show off 0 + 1 * a.val = a'.val; omega
  | ⟨1, _⟩ => show off 1 + 1 * b.val = b'.val; omega

/-- An index whose leading coordinate is outside a rectangle's leading range is not in the rectangle. -/
theorem not_mem_unit3 {n0 n1 n2 : Nat} (off size : Fin 3 → Nat) (inb : ∀ a, off a + size a ≤ (⟨3, ![n0, n1, n2]⟩ : Shape).size a)
    (a : Fin n0) (b : Fin n1) (c : Fin n2) (h : a.val < off 0 ∨ off 0 + size 0 ≤ a.val) :
    ix3 a b c ∉ (Rect.unit (s := ⟨3, ![n0, n1, n2]⟩) off size inb).set := by
  rw [Rect.mem_set_unit]
  intro hm
  have h0 : off 0 ≤ a.val ∧ a.val < off 0 + size 0 := hm 0
  omega

/-- A load through a rectangle of a whole buffer holding `X` reads `X` at the rectangle's indices. -/
theorem readAt_unread {Val : EltTy → Type} {S : Shape} {e : EltTy} (M : Memref sig .tc .vmem S e) (h : M.IsWhole) (R : Rect S)
    (X : S.Idx → Val e) (y : R.shape.Idx) (z : S.Idx) (hz : R.idx y = z) :
    View.readAt Val M.view R.toLoadRect (h.unread X) y = X z := by
  subst hz
  show View.ld (M.view.read Val (h.unread X)) R y = X (R.idx y)
  rw [h.read_unread]

/-- Under the last store, at an index of its rectangle, the stored contents are its payload there. -/
theorem canon_cons_at {Val : EltTy → Type} [∀ e, Nonempty (Val e)] {S : Shape} {e : EltTy} (r : Rect S) (w : r.shape.Idx → Val e)
    (L : List (View.Piece Val S e)) (x : r.shape.Idx) (y : S.Idx) (h : r.idx x = y) :
    View.canon (⟨r, w⟩ :: L) y = w x := by
  subst h
  exact View.canon_cons_emb r w L x

/-- One arithmetic side condition of the index lemmas: an offset plus a local coordinate is the buffer's coordinate. -/
macro "slab_arith" : tactic => `(tactic| first | rfl | exact Nat.zero_add _ | decide | omega)

/-- The stored contents at an index whose leading coordinate is outside the last store's rectangle are those the
    earlier stores left. -/
theorem canon_skip3 {Val : EltTy → Type} [∀ e, Nonempty (Val e)] {n0 n1 n2 : Nat} {e : EltTy} (off size : Fin 3 → Nat)
    (inb : ∀ a, off a + size a ≤ (⟨3, ![n0, n1, n2]⟩ : Shape).size a)
    (w : (Rect.unit (s := ⟨3, ![n0, n1, n2]⟩) off size inb).shape.Idx → Val e) (L : List (View.Piece Val ⟨3, ![n0, n1, n2]⟩ e))
    (a : Fin n0) (b : Fin n1) (c : Fin n2) (h : a.val < off 0 ∨ off 0 + size 0 ≤ a.val) :
    View.canon ((⟨Rect.unit off size inb, w⟩ : View.Piece Val ⟨3, ![n0, n1, n2]⟩ e) :: L) (ix3 a b c) = View.canon L (ix3 a b c) :=
  View.canon_cons_of_not_mem _ _ (not_mem_unit3 off size inb a b c h)

/-- The stored contents at an index inside the last store's rectangle are its payload at the local index. -/
theorem canon_hit3 {Val : EltTy → Type} [∀ e, Nonempty (Val e)] {n0 n1 n2 m0 m1 m2 : Nat} {e : EltTy} (off : Fin 3 → Nat)
    (inb : ∀ a, off a + (![m0, m1, m2] : Fin 3 → Nat) a ≤ (⟨3, ![n0, n1, n2]⟩ : Shape).size a)
    (w : (Rect.unit (s := ⟨3, ![n0, n1, n2]⟩) off ![m0, m1, m2] inb).shape.Idx → Val e) (L : List (View.Piece Val ⟨3, ![n0, n1, n2]⟩ e))
    (a : Fin m0) (b : Fin m1) (c : Fin m2) (a' : Fin n0) (b' : Fin n1) (c' : Fin n2)
    (h0 : off 0 + a.val = a'.val) (h1 : off 1 + b.val = b'.val) (h2 : off 2 + c.val = c'.val) :
    View.canon ((⟨Rect.unit off ![m0, m1, m2] inb, w⟩ : View.Piece Val ⟨3, ![n0, n1, n2]⟩ e) :: L) (ix3 a' b' c') = w (ix3 a b c) :=
  canon_cons_at _ w L (ix3 a b c) _ (unit_idx3 off inb a b c a' b' c' h0 h1 h2)

/-- A load of a rank-3 rectangle of a whole buffer holding `X`, at local index (a, b, c), reads `X` at the offset index. -/
theorem load3 {Val : EltTy → Type} {n0 n1 n2 m0 m1 m2 : Nat} {e : EltTy} (M : Memref sig .tc .vmem ⟨3, ![n0, n1, n2]⟩ e) (h : M.IsWhole)
    (off : Fin 3 → Nat) (inb : ∀ a, off a + (![m0, m1, m2] : Fin 3 → Nat) a ≤ (⟨3, ![n0, n1, n2]⟩ : Shape).size a)
    (X : (⟨3, ![n0, n1, n2]⟩ : Shape).Idx → Val e)
    (a : Fin m0) (b : Fin m1) (c : Fin m2) (a' : Fin n0) (b' : Fin n1) (c' : Fin n2)
    (h0 : off 0 + a.val = a'.val) (h1 : off 1 + b.val = b'.val) (h2 : off 2 + c.val = c'.val) :
    View.readAt Val M.view (Rect.unit (s := ⟨3, ![n0, n1, n2]⟩) off ![m0, m1, m2] inb).toLoadRect (h.unread X) (ix3 a b c) = X (ix3 a' b' c') :=
  readAt_unread M h _ X _ _ (unit_idx3 off inb a b c a' b' c' h0 h1 h2)

/-- The same at rank 2. -/
theorem load2 {Val : EltTy → Type} {n0 n1 m0 m1 : Nat} {e : EltTy} (M : Memref sig .tc .vmem ⟨2, ![n0, n1]⟩ e) (h : M.IsWhole)
    (off : Fin 2 → Nat) (inb : ∀ a, off a + (![m0, m1] : Fin 2 → Nat) a ≤ (⟨2, ![n0, n1]⟩ : Shape).size a)
    (X : (⟨2, ![n0, n1]⟩ : Shape).Idx → Val e)
    (a : Fin m0) (b : Fin m1) (a' : Fin n0) (b' : Fin n1)
    (h0 : off 0 + a.val = a'.val) (h1 : off 1 + b.val = b'.val) :
    View.readAt Val M.view (Rect.unit (s := ⟨2, ![n0, n1]⟩) off ![m0, m1] inb).toLoadRect (h.unread X) (ix2 a b) = X (ix2 a' b') :=
  readAt_unread M h _ X _ _ (unit_idx2 off inb a b a' b' h0 h1)

/-- A load, through a rank-3 rectangle, of what earlier stores left reads their stored contents at the offset index. -/
theorem readCov3 {Val : EltTy → Type} [∀ e, Nonempty (Val e)] {κ : Kind} {sp : Space} {n0 n1 n2 m0 m1 m2 : Nat} {e : EltTy}
    (v : View sig κ sp ⟨3, ![n0, n1, n2]⟩ e) (L : List (View.Piece Val ⟨3, ![n0, n1, n2]⟩ e))
    (off : Fin 3 → Nat) (inb : ∀ a, off a + (![m0, m1, m2] : Fin 3 → Nat) a ≤ (⟨3, ![n0, n1, n2]⟩ : Shape).size a)
    (a : Fin m0) (b : Fin m1) (c : Fin m2) (a' : Fin n0) (b' : Fin n1) (c' : Fin n2)
    (h0 : off 0 + a.val = a'.val) (h1 : off 1 + b.val = b'.val) (h2 : off 2 + c.val = c'.val) :
    v.readCov L (Rect.unit (s := ⟨3, ![n0, n1, n2]⟩) off ![m0, m1, m2] inb).toLoadRect (ix3 a b c) = View.canon L (ix3 a' b' c') := by
  rw [View.readCov_eq_canon']
  exact congrArg (View.canon L) (unit_idx3 off inb a b c a' b' c' h0 h1 h2)

/-- The stored contents at an index inside the last store's rank-2 rectangle are its payload at the local index. -/
theorem canon_hit2 {Val : EltTy → Type} [∀ e, Nonempty (Val e)] {n0 n1 m0 m1 : Nat} {e : EltTy} (off : Fin 2 → Nat)
    (inb : ∀ a, off a + (![m0, m1] : Fin 2 → Nat) a ≤ (⟨2, ![n0, n1]⟩ : Shape).size a)
    (w : (Rect.unit (s := ⟨2, ![n0, n1]⟩) off ![m0, m1] inb).shape.Idx → Val e) (L : List (View.Piece Val ⟨2, ![n0, n1]⟩ e))
    (a : Fin m0) (b : Fin m1) (a' : Fin n0) (b' : Fin n1)
    (h0 : off 0 + a.val = a'.val) (h1 : off 1 + b.val = b'.val) :
    View.canon ((⟨Rect.unit off ![m0, m1] inb, w⟩ : View.Piece Val ⟨2, ![n0, n1]⟩ e) :: L) (ix2 a' b') = w (ix2 a b) :=
  canon_cons_at _ w L (ix2 a b) _ (unit_idx2 off inb a b a' b' h0 h1)

/-- The spec's combination depends on its five arguments only. -/
theorem combine_congr {a a' b b' c c' d d' e e' : EReal} (ha : a = a') (hb : b = b') (hc : c = c') (hd : d = d') (he : e = e') :
    Cert.GruSpec.combine a b c d e = Cert.GruSpec.combine a' b' c' d' e' := by
  subst ha hb hc hd he; rfl

/-! ## A middle reduction step -/

/-- At a middle reduction step (k = 1, 2) the accumulator's slab g ends, at (p, o), at what it held plus this step's
    partial product: the entry lies in slab g's store and in no other slab's. -/
theorem canon_B (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : ¬cond0_1 i)
    (x0 : Vec Ideal S2048x1024 .bf16) (x1 : Vec Ideal S4x512x1024 .bf16) (x2 : Vec Ideal S4x1x512 .f32) (x3 : Vec Ideal S2048x512 .f32) (xs0 : Vec Ideal S4x2048x512 .f32) (g : Fin 4) (p : Fin 2048) (o : Fin 512) :
    View.canon (kernelRun0_B (F := Ideal) c i arg3 harg3 arg4 harg4 arg5 harg5 arg6 harg6 arg7 harg7 arg8 harg8 hc0 hc1 x0 x1 x2 x3 xs0).2.1 (ix3 g p o)
      = xs0 (ix3 g p o) + ∑ a : Fin 1024, x0 (ix2 p a) * x1 (ix3 g o a) := by
  unfold kernelRun0_B; dsimp only
  sl_unfold_words
  match g with
  | ⟨0, _⟩ =>
    refine (canon_skip3 _ _ _ _ _ _ _ _ (by decide +revert)).trans ?_
    refine (canon_skip3 _ _ _ _ _ _ _ _ (by decide +revert)).trans ?_
    refine (canon_skip3 _ _ _ _ _ _ _ _ (by decide +revert)).trans ?_
    refine (canon_hit3 _ _ _ _ (0 : Fin 1) p o _ _ _ (by slab_arith) (by slab_arith) (by slab_arith)).trans ?_
    refine (pay9_apply _ _ _ p o).trans ?_
    refine congrArg₂ (· + ·) ?_ (Finset.sum_congr rfl fun a _ => congrArg₂ (· * ·) ?_ ?_)
    · exact load3 _ _ _ _ _ _ _ _ _ _ _ (by slab_arith) (by slab_arith) (by slab_arith)
    · exact load2 _ _ _ _ _ _ _ _ _ (by slab_arith) (by slab_arith)
    · exact load3 _ _ _ _ _ _ _ _ _ _ _ (by slab_arith) (by slab_arith) (by slab_arith)
  | ⟨1, _⟩ =>
    refine (canon_skip3 _ _ _ _ _ _ _ _ (by decide +revert)).trans ?_
    refine (canon_skip3 _ _ _ _ _ _ _ _ (by decide +revert)).trans ?_
    refine (canon_hit3 _ _ _ _ (0 : Fin 1) p o _ _ _ (by slab_arith) (by slab_arith) (by slab_arith)).trans ?_
    refine (pay10_apply _ _ _ p o).trans ?_
    refine congrArg₂ (· + ·) ?_ (Finset.sum_congr rfl fun a _ => congrArg₂ (· * ·) ?_ ?_)
    · exact load3 _ _ _ _ _ _ _ _ _ _ _ (by slab_arith) (by slab_arith) (by slab_arith)
    · exact load2 _ _ _ _ _ _ _ _ _ (by slab_arith) (by slab_arith)
    · exact load3 _ _ _ _ _ _ _ _ _ _ _ (by slab_arith) (by slab_arith) (by slab_arith)
  | ⟨2, _⟩ =>
    refine (canon_skip3 _ _ _ _ _ _ _ _ (by decide +revert)).trans ?_
    refine (canon_hit3 _ _ _ _ (0 : Fin 1) p o _ _ _ (by slab_arith) (by slab_arith) (by slab_arith)).trans ?_
    refine (pay1_apply _ _ _ p o).trans ?_
    refine congrArg₂ (· + ·) ?_ (Finset.sum_congr rfl fun a _ => congrArg₂ (· * ·) ?_ ?_)
    · exact load3 _ _ _ _ _ _ _ _ _ _ _ (by slab_arith) (by slab_arith) (by slab_arith)
    · exact load2 _ _ _ _ _ _ _ _ _ (by slab_arith) (by slab_arith)
    · exact load3 _ _ _ _ _ _ _ _ _ _ _ (by slab_arith) (by slab_arith) (by slab_arith)
  | ⟨3, _⟩ =>
    refine (canon_hit3 _ _ _ _ (0 : Fin 1) p o _ _ _ (by slab_arith) (by slab_arith) (by slab_arith)).trans ?_
    refine (pay2_apply _ _ _ p o).trans ?_
    refine congrArg₂ (· + ·) ?_ (Finset.sum_congr rfl fun a _ => congrArg₂ (· * ·) ?_ ?_)
    · exact load3 _ _ _ _ _ _ _ _ _ _ _ (by slab_arith) (by slab_arith) (by slab_arith)
    · exact load2 _ _ _ _ _ _ _ _ _ (by slab_arith) (by slab_arith)
    · exact load3 _ _ _ _ _ _ _ _ _ _ _ (by slab_arith) (by slab_arith) (by slab_arith)
  | ⟨n + 4, h⟩ => exact absurd h (by omega)

/-! ## The last reduction step: the accumulator -/

/-- At the last reduction step (k = 3) the accumulator's slab g ends, at (p, o), at what it held plus this step's
    partial product, exactly as at a middle step. -/
theorem canon_C_acc (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec Ideal S2048x1024 .bf16) (x1 : Vec Ideal S4x512x1024 .bf16) (x2 : Vec Ideal S4x1x512 .f32) (x3 : Vec Ideal S2048x512 .f32) (xs0 : Vec Ideal S4x2048x512 .f32) (g : Fin 4) (p : Fin 2048) (o : Fin 512) :
    View.canon (kernelRun0_C (F := Ideal) c i arg3 harg3 arg4 harg4 arg5 harg5 arg6 harg6 arg7 harg7 arg8 harg8 hc0 hc1 x0 x1 x2 x3 xs0).2.1 (ix3 g p o)
      = xs0 (ix3 g p o) + ∑ a : Fin 1024, x0 (ix2 p a) * x1 (ix3 g o a) := by
  unfold kernelRun0_C; dsimp only
  sl_unfold_words
  match g with
  | ⟨0, _⟩ =>
    refine (canon_skip3 _ _ _ _ _ _ _ _ (by decide +revert)).trans ?_
    refine (canon_skip3 _ _ _ _ _ _ _ _ (by decide +revert)).trans ?_
    refine (canon_skip3 _ _ _ _ _ _ _ _ (by decide +revert)).trans ?_
    refine (canon_hit3 _ _ _ _ (0 : Fin 1) p o _ _ _ (by slab_arith) (by slab_arith) (by slab_arith)).trans ?_
    refine (pay9_apply _ _ _ p o).trans ?_
    refine congrArg₂ (· + ·) ?_ (Finset.sum_congr rfl fun a _ => congrArg₂ (· * ·) ?_ ?_)
    · exact load3 _ _ _ _ _ _ _ _ _ _ _ (by slab_arith) (by slab_arith) (by slab_arith)
    · exact load2 _ _ _ _ _ _ _ _ _ (by slab_arith) (by slab_arith)
    · exact load3 _ _ _ _ _ _ _ _ _ _ _ (by slab_arith) (by slab_arith) (by slab_arith)
  | ⟨1, _⟩ =>
    refine (canon_skip3 _ _ _ _ _ _ _ _ (by decide +revert)).trans ?_
    refine (canon_skip3 _ _ _ _ _ _ _ _ (by decide +revert)).trans ?_
    refine (canon_hit3 _ _ _ _ (0 : Fin 1) p o _ _ _ (by slab_arith) (by slab_arith) (by slab_arith)).trans ?_
    refine (pay10_apply _ _ _ p o).trans ?_
    refine congrArg₂ (· + ·) ?_ (Finset.sum_congr rfl fun a _ => congrArg₂ (· * ·) ?_ ?_)
    · exact load3 _ _ _ _ _ _ _ _ _ _ _ (by slab_arith) (by slab_arith) (by slab_arith)
    · exact load2 _ _ _ _ _ _ _ _ _ (by slab_arith) (by slab_arith)
    · exact load3 _ _ _ _ _ _ _ _ _ _ _ (by slab_arith) (by slab_arith) (by slab_arith)
  | ⟨2, _⟩ =>
    refine (canon_skip3 _ _ _ _ _ _ _ _ (by decide +revert)).trans ?_
    refine (canon_hit3 _ _ _ _ (0 : Fin 1) p o _ _ _ (by slab_arith) (by slab_arith) (by slab_arith)).trans ?_
    refine (pay1_apply _ _ _ p o).trans ?_
    refine congrArg₂ (· + ·) ?_ (Finset.sum_congr rfl fun a _ => congrArg₂ (· * ·) ?_ ?_)
    · exact load3 _ _ _ _ _ _ _ _ _ _ _ (by slab_arith) (by slab_arith) (by slab_arith)
    · exact load2 _ _ _ _ _ _ _ _ _ (by slab_arith) (by slab_arith)
    · exact load3 _ _ _ _ _ _ _ _ _ _ _ (by slab_arith) (by slab_arith) (by slab_arith)
  | ⟨3, _⟩ =>
    refine (canon_hit3 _ _ _ _ (0 : Fin 1) p o _ _ _ (by slab_arith) (by slab_arith) (by slab_arith)).trans ?_
    refine (pay2_apply _ _ _ p o).trans ?_
    refine congrArg₂ (· + ·) ?_ (Finset.sum_congr rfl fun a _ => congrArg₂ (· * ·) ?_ ?_)
    · exact load3 _ _ _ _ _ _ _ _ _ _ _ (by slab_arith) (by slab_arith) (by slab_arith)
    · exact load2 _ _ _ _ _ _ _ _ _ (by slab_arith) (by slab_arith)
    · exact load3 _ _ _ _ _ _ _ _ _ _ _ (by slab_arith) (by slab_arith) (by slab_arith)
  | ⟨n + 4, h⟩ => exact absurd h (by omega)

/-! ## The first reduction step -/

/-- At the first reduction step (k = 0) the accumulator's slab g ends, at (p, o), at 0 plus this step's partial product:
    the accumulator is first set to 0 everywhere; what slab g's store reads back of it is that 0, because the slabs
    stored before it (those of smaller g) do not reach slab g; and the entry lies in slab g's store and in no later one. -/
theorem canon_A (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : cond0_0 i) (hc1 : ¬cond0_1 i)
    (x0 : Vec Ideal S2048x1024 .bf16) (x1 : Vec Ideal S4x512x1024 .bf16) (x2 : Vec Ideal S4x1x512 .f32) (x3 : Vec Ideal S2048x512 .f32) (g : Fin 4) (p : Fin 2048) (o : Fin 512) :
    View.canon (kernelRun0_A (F := Ideal) c i arg3 harg3 arg4 harg4 arg5 harg5 arg6 harg6 arg7 harg7 arg8 harg8 hc0 hc1 x0 x1 x2 x3).2.1 (ix3 g p o)
      = 0 + ∑ a : Fin 1024, x0 (ix2 p a) * x1 (ix3 g o a) := by
  unfold kernelRun0_A; dsimp only
  sl_unfold_words
  match g with
  | ⟨0, hg⟩ =>
    refine (canon_skip3 _ _ _ _ _ _ _ _ (by decide +revert)).trans ?_
    refine (canon_skip3 _ _ _ _ _ _ _ _ (by decide +revert)).trans ?_
    refine (canon_skip3 _ _ _ _ _ _ _ _ (by decide +revert)).trans ?_
    refine (canon_hit3 _ _ _ _ (0 : Fin 1) p o _ _ _ (by slab_arith) (by slab_arith) (by slab_arith)).trans ?_
    refine (pay9_apply _ _ _ p o).trans ?_
    refine congrArg₂ (· + ·) ?_ (Finset.sum_congr rfl fun a _ => congrArg₂ (· * ·) ?_ ?_)
    · refine (readCov3 _ _ _ _ (0 : Fin 1) p o (⟨0, hg⟩ : Fin 4) p o (by slab_arith) (by slab_arith) (by slab_arith)).trans ?_
      exact (canon_hit3 _ _ _ _ (⟨0, hg⟩ : Fin 4) p o _ _ _ (by slab_arith) (by slab_arith) (by slab_arith)).trans (pay7_apply _)
    · exact load2 _ _ _ _ _ _ _ _ _ (by slab_arith) (by slab_arith)
    · exact load3 _ _ _ _ _ _ _ _ _ _ _ (by slab_arith) (by slab_arith) (by slab_arith)
  | ⟨1, hg⟩ =>
    refine (canon_skip3 _ _ _ _ _ _ _ _ (by decide +revert)).trans ?_
    refine (canon_skip3 _ _ _ _ _ _ _ _ (by decide +revert)).trans ?_
    refine (canon_hit3 _ _ _ _ (0 : Fin 1) p o _ _ _ (by slab_arith) (by slab_arith) (by slab_arith)).trans ?_
    refine (pay10_apply _ _ _ p o).trans ?_
    refine congrArg₂ (· + ·) ?_ (Finset.sum_congr rfl fun a _ => congrArg₂ (· * ·) ?_ ?_)
    · refine (readCov3 _ _ _ _ (0 : Fin 1) p o (⟨1, hg⟩ : Fin 4) p o (by slab_arith) (by slab_arith) (by slab_arith)).trans ?_
      refine (canon_skip3 _ _ _ _ _ _ _ _ (by decide +revert)).trans ?_
      exact (canon_hit3 _ _ _ _ (⟨1, hg⟩ : Fin 4) p o _ _ _ (by slab_arith) (by slab_arith) (by slab_arith)).trans (pay7_apply _)
    · exact load2 _ _ _ _ _ _ _ _ _ (by slab_arith) (by slab_arith)
    · exact load3 _ _ _ _ _ _ _ _ _ _ _ (by slab_arith) (by slab_arith) (by slab_arith)
  | ⟨2, hg⟩ =>
    refine (canon_skip3 _ _ _ _ _ _ _ _ (by decide +revert)).trans ?_
    refine (canon_hit3 _ _ _ _ (0 : Fin 1) p o _ _ _ (by slab_arith) (by slab_arith) (by slab_arith)).trans ?_
    refine (pay1_apply _ _ _ p o).trans ?_
    refine congrArg₂ (· + ·) ?_ (Finset.sum_congr rfl fun a _ => congrArg₂ (· * ·) ?_ ?_)
    · refine (readCov3 _ _ _ _ (0 : Fin 1) p o (⟨2, hg⟩ : Fin 4) p o (by slab_arith) (by slab_arith) (by slab_arith)).trans ?_
      refine (canon_skip3 _ _ _ _ _ _ _ _ (by decide +revert)).trans ?_
      refine (canon_skip3 _ _ _ _ _ _ _ _ (by decide +revert)).trans ?_
      exact (canon_hit3 _ _ _ _ (⟨2, hg⟩ : Fin 4) p o _ _ _ (by slab_arith) (by slab_arith) (by slab_arith)).trans (pay7_apply _)
    · exact load2 _ _ _ _ _ _ _ _ _ (by slab_arith) (by slab_arith)
    · exact load3 _ _ _ _ _ _ _ _ _ _ _ (by slab_arith) (by slab_arith) (by slab_arith)
  | ⟨3, hg⟩ =>
    refine (canon_hit3 _ _ _ _ (0 : Fin 1) p o _ _ _ (by slab_arith) (by slab_arith) (by slab_arith)).trans ?_
    refine (pay2_apply _ _ _ p o).trans ?_
    refine congrArg₂ (· + ·) ?_ (Finset.sum_congr rfl fun a _ => congrArg₂ (· * ·) ?_ ?_)
    · refine (readCov3 _ _ _ _ (0 : Fin 1) p o (⟨3, hg⟩ : Fin 4) p o (by slab_arith) (by slab_arith) (by slab_arith)).trans ?_
      refine (canon_skip3 _ _ _ _ _ _ _ _ (by decide +revert)).trans ?_
      refine (canon_skip3 _ _ _ _ _ _ _ _ (by decide +revert)).trans ?_
      refine (canon_skip3 _ _ _ _ _ _ _ _ (by decide +revert)).trans ?_
      exact (canon_hit3 _ _ _ _ (⟨3, hg⟩ : Fin 4) p o _ _ _ (by slab_arith) (by slab_arith) (by slab_arith)).trans (pay7_apply _)
    · exact load2 _ _ _ _ _ _ _ _ _ (by slab_arith) (by slab_arith)
    · exact load3 _ _ _ _ _ _ _ _ _ _ _ (by slab_arith) (by slab_arith) (by slab_arith)
  | ⟨n + 4, h⟩ => exact absurd h (by omega)

/-! ## The last reduction step: the output tile -/

/-- At the last reduction step (k = 3) the output tile is stored once, whole. At (p, o) it is the spec's combination of
    the hidden entry with the four pre-activations, each the slab's entry AFTER this step's store (what it held plus this
    step's partial product: the load of slab g reads back slab g's own store) plus the gate's bias at o. -/
theorem canon_C_out (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec Ideal S2048x1024 .bf16) (x1 : Vec Ideal S4x512x1024 .bf16) (x2 : Vec Ideal S4x1x512 .f32) (x3 : Vec Ideal S2048x512 .f32) (xs0 : Vec Ideal S4x2048x512 .f32) (p : Fin 2048) (o : Fin 512) :
    View.canon (kernelRun0_C (F := Ideal) c i arg3 harg3 arg4 harg4 arg5 harg5 arg6 harg6 arg7 harg7 arg8 harg8 hc0 hc1 x0 x1 x2 x3 xs0).1 (ix2 p o)
      = Cert.GruSpec.combine
          ((xs0 (ix3 (0 : Fin 4) p o) + ∑ a : Fin 1024, x0 (ix2 p a) * x1 (ix3 (0 : Fin 4) o a)) + x2 (ix3 (0 : Fin 4) (0 : Fin 1) o))
          ((xs0 (ix3 (1 : Fin 4) p o) + ∑ a : Fin 1024, x0 (ix2 p a) * x1 (ix3 (1 : Fin 4) o a)) + x2 (ix3 (1 : Fin 4) (0 : Fin 1) o))
          ((xs0 (ix3 (2 : Fin 4) p o) + ∑ a : Fin 1024, x0 (ix2 p a) * x1 (ix3 (2 : Fin 4) o a)) + x2 (ix3 (2 : Fin 4) (0 : Fin 1) o))
          ((xs0 (ix3 (3 : Fin 4) p o) + ∑ a : Fin 1024, x0 (ix2 p a) * x1 (ix3 (3 : Fin 4) o a)) + x2 (ix3 (3 : Fin 4) (0 : Fin 1) o))
          (x3 (ix2 p o)) := by
  unfold kernelRun0_C; dsimp only
  sl_unfold_words
  refine (canon_hit2 _ _ _ _ p o _ _ (by slab_arith) (by slab_arith)).trans ?_
  refine (pay3_apply _ _ _ _ _ _ _ _ _ p o).trans ?_
  refine combine_congr ?_ ?_ ?_ ?_ ?_
  · refine congrArg₂ (· + ·) ?_ ?_
    · refine (readCov3 _ _ _ _ (0 : Fin 1) p o (0 : Fin 4) p o (by slab_arith) (by slab_arith) (by slab_arith)).trans ?_
      refine (canon_skip3 _ _ _ _ _ _ _ _ (by decide)).trans ?_
      refine (canon_skip3 _ _ _ _ _ _ _ _ (by decide)).trans ?_
      refine (canon_skip3 _ _ _ _ _ _ _ _ (by decide)).trans ?_
      refine (canon_hit3 _ _ _ _ (0 : Fin 1) p o _ _ _ (by slab_arith) (by slab_arith) (by slab_arith)).trans ?_
      refine (pay9_apply _ _ _ p o).trans ?_
      refine congrArg₂ (· + ·) ?_ (Finset.sum_congr rfl fun a _ => congrArg₂ (· * ·) ?_ ?_)
      · exact load3 _ _ _ _ _ _ _ _ _ _ _ (by slab_arith) (by slab_arith) (by slab_arith)
      · exact load2 _ _ _ _ _ _ _ _ _ (by slab_arith) (by slab_arith)
      · exact load3 _ _ _ _ _ _ _ _ _ _ _ (by slab_arith) (by slab_arith) (by slab_arith)
    · exact load3 _ _ _ _ _ _ _ _ _ _ _ (by slab_arith) (by slab_arith) (by slab_arith)
  · refine congrArg₂ (· + ·) ?_ ?_
    · refine (readCov3 _ _ _ _ (0 : Fin 1) p o (1 : Fin 4) p o (by slab_arith) (by slab_arith) (by slab_arith)).trans ?_
      refine (canon_skip3 _ _ _ _ _ _ _ _ (by decide)).trans ?_
      refine (canon_skip3 _ _ _ _ _ _ _ _ (by decide)).trans ?_
      refine (canon_hit3 _ _ _ _ (0 : Fin 1) p o _ _ _ (by slab_arith) (by slab_arith) (by slab_arith)).trans ?_
      refine (pay10_apply _ _ _ p o).trans ?_
      refine congrArg₂ (· + ·) ?_ (Finset.sum_congr rfl fun a _ => congrArg₂ (· * ·) ?_ ?_)
      · exact load3 _ _ _ _ _ _ _ _ _ _ _ (by slab_arith) (by slab_arith) (by slab_arith)
      · exact load2 _ _ _ _ _ _ _ _ _ (by slab_arith) (by slab_arith)
      · exact load3 _ _ _ _ _ _ _ _ _ _ _ (by slab_arith) (by slab_arith) (by slab_arith)
    · exact load3 _ _ _ _ _ _ _ _ _ _ _ (by slab_arith) (by slab_arith) (by slab_arith)
  · refine congrArg₂ (· + ·) ?_ ?_
    · refine (readCov3 _ _ _ _ (0 : Fin 1) p o (2 : Fin 4) p o (by slab_arith) (by slab_arith) (by slab_arith)).trans ?_
      refine (canon_skip3 _ _ _ _ _ _ _ _ (by decide)).trans ?_
      refine (canon_hit3 _ _ _ _ (0 : Fin 1) p o _ _ _ (by slab_arith) (by slab_arith) (by slab_arith)).trans ?_
      refine (pay1_apply _ _ _ p o).trans ?_
      refine congrArg₂ (· + ·) ?_ (Finset.sum_congr rfl fun a _ => congrArg₂ (· * ·) ?_ ?_)
      · exact load3 _ _ _ _ _ _ _ _ _ _ _ (by slab_arith) (by slab_arith) (by slab_arith)
      · exact load2 _ _ _ _ _ _ _ _ _ (by slab_arith) (by slab_arith)
      · exact load3 _ _ _ _ _ _ _ _ _ _ _ (by slab_arith) (by slab_arith) (by slab_arith)
    · exact load3 _ _ _ _ _ _ _ _ _ _ _ (by slab_arith) (by slab_arith) (by slab_arith)
  · refine congrArg₂ (· + ·) ?_ ?_
    · refine (readCov3 _ _ _ _ (0 : Fin 1) p o (3 : Fin 4) p o (by slab_arith) (by slab_arith) (by slab_arith)).trans ?_
      refine (canon_hit3 _ _ _ _ (0 : Fin 1) p o _ _ _ (by slab_arith) (by slab_arith) (by slab_arith)).trans ?_
      refine (pay2_apply _ _ _ p o).trans ?_
      refine congrArg₂ (· + ·) ?_ (Finset.sum_congr rfl fun a _ => congrArg₂ (· * ·) ?_ ?_)
      · exact load3 _ _ _ _ _ _ _ _ _ _ _ (by slab_arith) (by slab_arith) (by slab_arith)
      · exact load2 _ _ _ _ _ _ _ _ _ (by slab_arith) (by slab_arith)
      · exact load3 _ _ _ _ _ _ _ _ _ _ _ (by slab_arith) (by slab_arith) (by slab_arith)
    · exact load3 _ _ _ _ _ _ _ _ _ _ _ (by slab_arith) (by slab_arith) (by slab_arith)
  · exact load2 _ _ _ _ _ _ _ _ _ (by slab_arith) (by slab_arith)

end Cert.KernelIdeal.KerValue

end
-- ==== Proof.KerDefs.lean ====
/-
  The two quantities the gate kernel's accumulator is described by, at the ideal instance.
  `stepProd` is the product one grid point adds into one accumulator slab: the point's input tile (2048 x 1024) against
  the point's tile of one gate's weights (512 x 1024), contracted over the 1024 reduction indices of the step.
  `partialAcc` is the sum of the step products since the last point with reduction step k = 0, in the grid's order:
  what the accumulator holds after a point, since it is zeroed exactly at k = 0.
-/
import proofs.«107846_j83116207112676_2_alg».proof.Proof.FrameKit
import Idealize.ShloMosaic.Lib.ValueIdx

set_option maxRecDepth 16384

noncomputable section

namespace Cert.KernelIdeal.KerValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The four input tiles of a point, as arrays of extended reals: the input tile, the tile of the four gates' weights,
    the four gates' bias rows, and the hidden-state tile. -/
abbrev xTile (c : Dev nD) (t : Fin cfg0.N) : S2048x1024.Idx → EReal := iblk m c 0 t
abbrev wTile (c : Dev nD) (t : Fin cfg0.N) : S4x512x1024.Idx → EReal := iblk m c 1 t
abbrev bTile (c : Dev nD) (t : Fin cfg0.N) : S4x1x512.Idx → EReal := iblk m c 2 t
abbrev hTile (c : Dev nD) (t : Fin cfg0.N) : S2048x512.Idx → EReal := iblk m c 3 t

/-- The product this point adds into slab `g` at (p, o): its input tile's row p against row o of its tile of gate g's weights. -/
def stepProd (c : Dev nD) (t : Fin cfg0.N) (g : Fin 4) (p : Fin 2048) (o : Fin 512) : EReal :=
  ∑ a : Fin 1024, xTile m c t (ix2 p a) * wTile m c t (ix3 g o a)

/-- The step products summed since the last first reduction step, in the grid's order. -/
def partialAcc (c : Dev nD) : (n : ℕ) → n < cfg0.N → Fin 4 → Fin 2048 → Fin 512 → EReal
  | 0, h => stepProd m c ⟨0, h⟩
  | n + 1, h => fun g p o =>
    if (n + 1) % 4 = 0 then stepProd m c ⟨n + 1, h⟩ g p o
    else partialAcc c n (Nat.lt_of_succ_lt h) g p o + stepProd m c ⟨n + 1, h⟩ g p o

theorem partialAcc_first (c : Dev nD) (n : ℕ) (h : n < cfg0.N) (h0 : n % 4 = 0) (g : Fin 4) (p : Fin 2048) (o : Fin 512) :
    partialAcc m c n h g p o = stepProd m c ⟨n, h⟩ g p o := by
  cases n with
  | zero => rfl
  | succ n => exact if_pos h0

theorem partialAcc_next (c : Dev nD) (n : ℕ) (h : n + 1 < cfg0.N) (h0 : ¬(n + 1) % 4 = 0) (g : Fin 4) (p : Fin 2048) (o : Fin 512) :
    partialAcc m c (n + 1) h g p o = partialAcc m c n (Nat.lt_of_succ_lt h) g p o + stepProd m c ⟨n + 1, h⟩ g p o :=
  if_neg h0

end Cert.KernelIdeal.KerValue

end
-- ==== Proof.KerAcc.lean ====
/-
  What the gate kernel's accumulator and output tile hold, point by point, at the ideal instance.

  At each grid point the body adds, into slab g of its accumulator, the STEP PRODUCT of the point's input tile and the
  point's tile of gate g's weights:  stepProd t g p o = sum over a < 1024 of x_t(p,a) * w_t(g,o,a).
  The accumulator is zeroed at a first reduction step (k = t mod 4 = 0) and carried otherwise, so after point n it
  holds the RUNNING SUM of the step products since the last first step (`partialAcc`): by induction on the point, each
  case's stored pieces read back as one function of the index. At a last reduction step (k = 3) the stored output tile
  is the cell's combine of the four slabs of that running sum plus the four bias rows, and the hidden tile.
-/
import proofs.«107846_j83116207112676_2_alg».proof.Proof.Frame
import proofs.«107846_j83116207112676_2_alg».proof.Proof.PieceValues
import proofs.«107846_j83116207112676_2_alg».proof.Proof.KerDefs
import Idealize.ShloMosaic.Lib.Pipeline.Value
import Idealize.ShloMosaic.Lib.ValueIdx

set_option maxRecDepth 16384

noncomputable section

namespace Cert.KernelIdeal.KerValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Pieces read back are the canonical contents of the piece list -/

theorem soutA_eq (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : cond0_0 i) (hc1 : ¬cond0_1 i)
    (x0 : Vec Ideal S2048x1024 .bf16) (x1 : Vec Ideal S4x512x1024 .bf16) (x2 : Vec Ideal S4x1x512 .f32) (x3 : Vec Ideal S2048x512 .f32) :
    sout0_A_0 (F := Ideal) c i arg3 harg3 arg4 harg4 arg5 harg5 arg6 harg6 arg7 harg7 arg8 harg8 hc0 hc1 x0 x1 x2 x3 = View.canon (kernelRun0_A (F := Ideal) c i arg3 harg3 arg4 harg4 arg5 harg5 arg6 harg6 arg7 harg7 arg8 harg8 hc0 hc1 x0 x1 x2 x3).2.1 := by
  unfold sout0_A_0; exact View.read_writes_junk_eq_canon _ _

theorem soutB_eq (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : ¬cond0_1 i)
    (x0 : Vec Ideal S2048x1024 .bf16) (x1 : Vec Ideal S4x512x1024 .bf16) (x2 : Vec Ideal S4x1x512 .f32) (x3 : Vec Ideal S2048x512 .f32) (xs0 : Vec Ideal S4x2048x512 .f32) :
    sout0_B_0 (F := Ideal) c i arg3 harg3 arg4 harg4 arg5 harg5 arg6 harg6 arg7 harg7 arg8 harg8 hc0 hc1 x0 x1 x2 x3 xs0 = View.canon (kernelRun0_B (F := Ideal) c i arg3 harg3 arg4 harg4 arg5 harg5 arg6 harg6 arg7 harg7 arg8 harg8 hc0 hc1 x0 x1 x2 x3 xs0).2.1 := by
  unfold sout0_B_0; exact View.read_writes_junk_eq_canon _ _

theorem soutC_eq (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec Ideal S2048x1024 .bf16) (x1 : Vec Ideal S4x512x1024 .bf16) (x2 : Vec Ideal S4x1x512 .f32) (x3 : Vec Ideal S2048x512 .f32) (xs0 : Vec Ideal S4x2048x512 .f32) :
    sout0_C_0 (F := Ideal) c i arg3 harg3 arg4 harg4 arg5 harg5 arg6 harg6 arg7 harg7 arg8 harg8 hc0 hc1 x0 x1 x2 x3 xs0 = View.canon (kernelRun0_C (F := Ideal) c i arg3 harg3 arg4 harg4 arg5 harg5 arg6 harg6 arg7 harg7 arg8 harg8 hc0 hc1 x0 x1 x2 x3 xs0).2.1 := by
  unfold sout0_C_0; exact View.read_writes_junk_eq_canon _ _

theorem outC_eq (c : Dev nD) (i : grid0.Coords) (arg3 : Memref sig .tc .vmem S2048x1024 .bf16) (harg3 : arg3.IsWhole) (arg4 : Memref sig .tc .vmem S4x512x1024 .bf16) (harg4 : arg4.IsWhole) (arg5 : Memref sig .tc .vmem S4x1x512 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S4x2048x512 .f32) (harg8 : arg8.IsWhole) (hc0 : ¬cond0_0 i) (hc1 : cond0_1 i)
    (x0 : Vec Ideal S2048x1024 .bf16) (x1 : Vec Ideal S4x512x1024 .bf16) (x2 : Vec Ideal S4x1x512 .f32) (x3 : Vec Ideal S2048x512 .f32) (xs0 : Vec Ideal S4x2048x512 .f32) :
    out0_C_4 (F := Ideal) c i arg3 harg3 arg4 harg4 arg5 harg5 arg6 harg6 arg7 harg7 arg8 harg8 hc0 hc1 x0 x1 x2 x3 xs0 = View.canon (kernelRun0_C (F := Ideal) c i arg3 harg3 arg4 harg4 arg5 harg5 arg6 harg6 arg7 harg7 arg8 harg8 hc0 hc1 x0 x1 x2 x3 xs0).1 := by
  unfold out0_C_4; exact View.read_writes_junk_eq_canon _ _

/-! ## The accumulator is the running sum -/

/-- After point `n` the accumulator IS the running sum: by induction on the point, each case's pieces read back. -/
theorem acc_eq (c : Dev nD) : ∀ (n : ℕ) (h : n < cfg0.N) (g : Fin 4) (p : Fin 2048) (o : Fin 512),
    ((outsAt0 m c n h).2 : Vec Ideal S4x2048x512 .f32) (ix3 g p o) = partialAcc m c n h g p o
  | 0, h, g, p, o => by
    have e := outsAt0_A m c ⟨0, h⟩ rfl (by show ¬ 0 % 4 = 3; decide)
    rw [show outsAt0 m c 0 h = _ from e]
    dsimp only
    rw [soutA_eq, canon_A, zero_add]
    rfl
  | n + 1, h, g, p, o => by
    by_cases h0 : (n + 1) % 4 = 0
    · have e := outsAt0_A m c ⟨n + 1, h⟩ h0 (by dsimp only; omega)
      rw [show outsAt0 m c (n + 1) h = _ from e]
      dsimp only
      rw [soutA_eq, canon_A, zero_add, partialAcc_first m c (n + 1) h h0]
      rfl
    · by_cases h1 : (n + 1) % 4 = 3
      · have e := outsAt0_C m c ⟨n + 1, h⟩ h0 h1
        rw [show outsAt0 m c (n + 1) h = _ from e]
        dsimp only
        rw [soutC_eq, canon_C_acc, partialAcc_next m c n h h0]
        show ((outsAt0 m c n _).2 : Vec Ideal S4x2048x512 .f32) (ix3 g p o) + _ = _
        rw [acc_eq c n]
        rfl
      · have e := outsAt0_B m c ⟨n + 1, h⟩ h0 h1
        rw [show outsAt0 m c (n + 1) h = _ from e]
        dsimp only
        rw [soutB_eq, canon_B, partialAcc_next m c n h h0]
        show ((outsAt0 m c n _).2 : Vec Ideal S4x2048x512 .f32) (ix3 g p o) + _ = _
        rw [acc_eq c n]
        rfl

/-! ## The stored output tile at a last reduction step -/

/-- At a point with t mod 4 = 3 the output tile at (p, o) is the cell's combine of the four slabs of the running sum,
    each plus its bias entry, and the hidden tile's entry. -/
theorem out_eq (c : Dev nD) (t : Fin cfg0.N) (h3 : t.val % 4 = 3) (p : Fin 2048) (o : Fin 512) :
    ((outsAt0 m c t.val t.isLt).1 : Vec Ideal S2048x512 .f32) (ix2 p o)
      = Cert.GruSpec.combine
          (partialAcc m c t.val t.isLt 0 p o + bTile m c t (ix3 (0 : Fin 4) (0 : Fin 1) o))
          (partialAcc m c t.val t.isLt 1 p o + bTile m c t (ix3 (1 : Fin 4) (0 : Fin 1) o))
          (partialAcc m c t.val t.isLt 2 p o + bTile m c t (ix3 (2 : Fin 4) (0 : Fin 1) o))
          (partialAcc m c t.val t.isLt 3 p o + bTile m c t (ix3 (3 : Fin 4) (0 : Fin 1) o))
          (hTile m c t (ix2 p o)) := by
  obtain ⟨n, hn⟩ := t
  cases n with
  | zero => exact absurd h3 (by show ¬ 0 % 4 = 3; decide)
  | succ n =>
    have h0 : ¬(n + 1) % 4 = 0 := by dsimp only at h3; omega
    have e := outsAt0_C m c ⟨n + 1, hn⟩ h0 h3
    rw [show outsAt0 m c (n + 1) hn = _ from e]
    dsimp only
    rw [outC_eq, canon_C_out]
    have k : ∀ g : Fin 4, ((outsAt0 m c (n + 1 - 1) (Nat.lt_of_le_of_lt (Nat.sub_le _ _) hn)).2 : Vec Ideal S4x2048x512 .f32) (ix3 g p o)
        = partialAcc m c n (Nat.lt_of_succ_lt hn) g p o := fun g => acc_eq m c n _ g p o
    rw [k 0, k 1, k 2, k 3]
    simp only [partialAcc_next m c n hn h0]
    rfl

end Cert.KernelIdeal.KerValue

end
-- ==== Proof.BlockReads.lean ====
/-
  Where each window's block sits in its array, at every grid point.

  The grid is 4 x 8 x 4 with the last axis innermost: point t has coordinates i = t / 32 (row tile), j = (t / 4) mod 8
  (feature tile), k = t mod 4 (reduction step). Each of the five windows cuts its array into blocks of a fixed size and
  an index map sends the coordinates to a block index; the block at t is then the unit-stride rectangle of the array at
  offsets (block index) * (block size). This module decides the five index maps in closed form over the 128 points and
  reads them off: a block read at a coordinate is the array at "block index * block size + coordinate" on every axis.
  For the output window it also states which array indices a block holds and that the blocks of the points with k = 3
  cover the whole output array.
  The lemmas about reads are stated for an ARBITRARY array Y of the window's array type, at any float instance.
-/
import proofs.«107846_j83116207112676_2_alg».proof.Proof.FrameBase
import Idealize.ShloMosaic.Lib.Pipeline.Value
import Idealize.ShloMosaic.Lib.ValueIdx

set_option maxRecDepth 16384

noncomputable section

namespace Cert.KernelIdeal.KerValue

open Cert.KernelIdeal Cert.KernelIdeal.Gen Cert.KernelIdeal.Hand
open Idealize.ShloMosaic Idealize.ShloMosaic.TcCoe Idealize.SL.Sem Idealize.ShloMosaic.ValueIdx

variable {F : FTy → Type} [FloatOps F]

/-- The grid has 4 * 8 * 4 = 128 points. -/
theorem point_lt (t : Fin cfg0.N) : t.val < 128 := lt_of_lt_of_eq t.isLt N_0

/-! ## The index maps in closed form

  Point t of the grid, the last axis innermost, has coordinates i = t / 32, j = (t / 4) mod 8, k = t mod 4. Each window's block
  index at t is a selection of those (or the constant 0), decided once over the 128 points. -/

/-- Window 0 (the input rows, 2048 x 1024 blocks of an 8192 x 4096 array): block index (i, k). -/
theorem idx_facts0 : ∀ t : Fin cfg0.N, win0_0.index t (0 : Fin 2) = t.val / 32 ∧ win0_0.index t (1 : Fin 2) = t.val % 4 :=
  (by decide +kernel : ∀ t : Fin grid0.N, win0_0.index t (0 : Fin 2) = t.val / 32 ∧ win0_0.index t (1 : Fin 2) = t.val % 4)

/-- Window 1 (the four stacked weight matrices, 4 x 512 x 1024 blocks of a 4 x 4096 x 4096 array): block index (0, j, k). -/
theorem idx_facts1 : ∀ t : Fin cfg0.N, win0_1.index t (0 : Fin 3) = 0 ∧ win0_1.index t (1 : Fin 3) = (t.val / 4) % 8
    ∧ win0_1.index t (2 : Fin 3) = t.val % 4 :=
  (by decide +kernel : ∀ t : Fin grid0.N, win0_1.index t (0 : Fin 3) = 0 ∧ win0_1.index t (1 : Fin 3) = (t.val / 4) % 8
    ∧ win0_1.index t (2 : Fin 3) = t.val % 4)

/-- Window 2 (the four stacked bias rows, 4 x 1 x 512 blocks of a 4 x 1 x 4096 array): block index (0, 0, j). -/
theorem idx_facts2 : ∀ t : Fin cfg0.N, win0_2.index t (0 : Fin 3) = 0 ∧ win0_2.index t (1 : Fin 3) = 0
    ∧ win0_2.index t (2 : Fin 3) = (t.val / 4) % 8 :=
  (by decide +kernel : ∀ t : Fin grid0.N, win0_2.index t (0 : Fin 3) = 0 ∧ win0_2.index t (1 : Fin 3) = 0
    ∧ win0_2.index t (2 : Fin 3) = (t.val / 4) % 8)

/-- Window 3 (the hidden state, 2048 x 512 blocks of an 8192 x 4096 array): block index (i, j). -/
theorem idx_facts3 : ∀ t : Fin cfg0.N, win0_3.index t (0 : Fin 2) = t.val / 32 ∧ win0_3.index t (1 : Fin 2) = (t.val / 4) % 8 :=
  (by decide +kernel : ∀ t : Fin grid0.N, win0_3.index t (0 : Fin 2) = t.val / 32 ∧ win0_3.index t (1 : Fin 2) = (t.val / 4) % 8)

/-- Window 4 (the output, 2048 x 512 blocks of an 8192 x 4096 array): block index (i, j). -/
theorem idx_facts4 : ∀ t : Fin cfg0.N, win0_4.index t (0 : Fin 2) = t.val / 32 ∧ win0_4.index t (1 : Fin 2) = (t.val / 4) % 8 :=
  (by decide +kernel : ∀ t : Fin grid0.N, win0_4.index t (0 : Fin 2) = t.val / 32 ∧ win0_4.index t (1 : Fin 2) = (t.val / 4) % 8)

/-! ## A block read at a coordinate

  On every axis an element of a block sits in the array at (block index) * (block size) + (its coordinate in the block). -/

/-- Entry (p, a) of window 0's block at t is entry (2048 i + p, 1024 k + a) of the array. -/
theorem blk0_read (Y : S8192x4096.Idx → Elt F .bf16) (t : Fin cfg0.N) (p : Fin 2048) (a : Fin 1024) :
    ((cfg0.win 0).blk t).view.read (Elt F) Y (ix2 p a)
      = Y (ix2 (⟨2048 * (t.val / 32) + p.val, by have := point_lt t; have := p.isLt; omega⟩ : Fin 8192)
               (⟨1024 * (t.val % 4) + a.val, by have := a.isLt; omega⟩ : Fin 4096)) := by
  obtain ⟨e0, e1⟩ := idx_facts0 t
  show Y (((cfg0.win 0).blk t).view.emb (ix2 p a)) = _
  refine congrArg Y ?_
  funext d; apply Fin.ext
  match d with
  | ⟨0, _⟩ => show win0_0.index t (0 : Fin 2) * 2048 + 1 * p.val = 2048 * (t.val / 32) + p.val; omega
  | ⟨1, _⟩ => show win0_0.index t (1 : Fin 2) * 1024 + 1 * a.val = 1024 * (t.val % 4) + a.val; omega

/-- Entry (g, o, a) of window 1's block at t is entry (g, 512 j + o, 1024 k + a) of the array. -/
theorem blk1_read (Y : S4x4096x4096.Idx → Elt F .bf16) (t : Fin cfg0.N) (g : Fin 4) (o : Fin 512) (a : Fin 1024) :
    ((cfg0.win 1).blk t).view.read (Elt F) Y (ix3 g o a)
      = Y (ix3 g (⟨512 * ((t.val / 4) % 8) + o.val, by have := o.isLt; omega⟩ : Fin 4096)
                 (⟨1024 * (t.val % 4) + a.val, by have := a.isLt; omega⟩ : Fin 4096)) := by
  obtain ⟨e0, e1, e2⟩ := idx_facts1 t
  show Y (((cfg0.win 1).blk t).view.emb (ix3 g o a)) = _
  refine congrArg Y ?_
  funext d; apply Fin.ext
  match d with
  | ⟨0, _⟩ => show win0_1.index t (0 : Fin 3) * 4 + 1 * g.val = g.val; omega
  | ⟨1, _⟩ => show win0_1.index t (1 : Fin 3) * 512 + 1 * o.val = 512 * ((t.val / 4) % 8) + o.val; omega
  | ⟨2, _⟩ => show win0_1.index t (2 : Fin 3) * 1024 + 1 * a.val = 1024 * (t.val % 4) + a.val; omega

/-- Entry (g, 0, o) of window 2's block at t is entry (g, 0, 512 j + o) of the array. -/
theorem blk2_read (Y : S4x1x4096.Idx → Elt F .f32) (t : Fin cfg0.N) (g : Fin 4) (o : Fin 512) :
    ((cfg0.win 2).blk t).view.read (Elt F) Y (ix3 g (0 : Fin 1) o)
      = Y (ix3 g (0 : Fin 1) (⟨512 * ((t.val / 4) % 8) + o.val, by have := o.isLt; omega⟩ : Fin 4096)) := by
  obtain ⟨e0, e1, e2⟩ := idx_facts2 t
  show Y (((cfg0.win 2).blk t).view.emb (ix3 g (0 : Fin 1) o)) = _
  refine congrArg Y ?_
  funext d; apply Fin.ext
  match d with
  | ⟨0, _⟩ => show win0_2.index t (0 : Fin 3) * 4 + 1 * g.val = g.val; omega
  | ⟨1, _⟩ => show win0_2.index t (1 : Fin 3) * 1 + 1 * 0 = 0; omega
  | ⟨2, _⟩ => show win0_2.index t (2 : Fin 3) * 512 + 1 * o.val = 512 * ((t.val / 4) % 8) + o.val; omega

/-- Entry (p, o) of window 3's block at t is entry (2048 i + p, 512 j + o) of the array. -/
theorem blk3_read (Y : S8192x4096.Idx → Elt F .f32) (t : Fin cfg0.N) (p : Fin 2048) (o : Fin 512) :
    ((cfg0.win 3).blk t).view.read (Elt F) Y (ix2 p o)
      = Y (ix2 (⟨2048 * (t.val / 32) + p.val, by have := point_lt t; have := p.isLt; omega⟩ : Fin 8192)
               (⟨512 * ((t.val / 4) % 8) + o.val, by have := o.isLt; omega⟩ : Fin 4096)) := by
  obtain ⟨e0, e1⟩ := idx_facts3 t
  show Y (((cfg0.win 3).blk t).view.emb (ix2 p o)) = _
  refine congrArg Y ?_
  funext d; apply Fin.ext
  match d with
  | ⟨0, _⟩ => show win0_3.index t (0 : Fin 2) * 2048 + 1 * p.val = 2048 * (t.val / 32) + p.val; omega
  | ⟨1, _⟩ => show win0_3.index t (1 : Fin 2) * 512 + 1 * o.val = 512 * ((t.val / 4) % 8) + o.val; omega

/-! ## The output window: where a block sits, which indices it holds, and that the blocks cover the array -/

/-- Coordinate (p, o) of the output block at t is index (2048 i + p, 512 j + o) of the output array. -/
theorem blk4_emb (t : Fin cfg0.N) (p : Fin 2048) (o : Fin 512) :
    ((cfg0.win 4).blk t).view.emb (ix2 p o)
      = ix2 (⟨2048 * (t.val / 32) + p.val, by have := point_lt t; have := p.isLt; omega⟩ : Fin 8192)
            (⟨512 * ((t.val / 4) % 8) + o.val, by have := o.isLt; omega⟩ : Fin 4096) := by
  obtain ⟨e0, e1⟩ := idx_facts4 t
  funext d; apply Fin.ext
  match d with
  | ⟨0, _⟩ => show win0_4.index t (0 : Fin 2) * 2048 + 1 * p.val = 2048 * (t.val / 32) + p.val; omega
  | ⟨1, _⟩ => show win0_4.index t (1 : Fin 2) * 512 + 1 * o.val = 512 * ((t.val / 4) % 8) + o.val; omega

/-- An index of the output array lies in the block at t exactly when its row is in [2048 i, 2048 i + 2048) and its column in
    [512 j, 512 j + 512). -/
theorem mem_blk4 (t : Fin cfg0.N) (y : S8192x4096.Idx) :
    y ∈ ((cfg0.win 4).blk t).view.set ↔
      (2048 * (t.val / 32) ≤ (y 0).val ∧ (y 0).val < 2048 * (t.val / 32) + 2048
        ∧ 512 * ((t.val / 4) % 8) ≤ (y 1).val ∧ (y 1).val < 512 * ((t.val / 4) % 8) + 512) := by
  obtain ⟨e0, e1⟩ := idx_facts4 t
  show y ∈ ((View.whole main_v17).slice (win0_4.rect t)).set ↔ _
  rw [View.set_slice_whole, Rect.mem_set_unit]
  constructor
  · intro h
    have b0 : win0_4.index t (0 : Fin 2) * 2048 ≤ (y 0).val ∧ (y 0).val < win0_4.index t (0 : Fin 2) * 2048 + 2048 := h 0
    have b1 : win0_4.index t (1 : Fin 2) * 512 ≤ (y 1).val ∧ (y 1).val < win0_4.index t (1 : Fin 2) * 512 + 512 := h 1
    omega
  · intro h a
    match a with
    | ⟨0, _⟩ => show win0_4.index t (0 : Fin 2) * 2048 ≤ (y 0).val ∧ (y 0).val < win0_4.index t (0 : Fin 2) * 2048 + 2048; omega
    | ⟨1, _⟩ => show win0_4.index t (1 : Fin 2) * 512 ≤ (y 1).val ∧ (y 1).val < win0_4.index t (1 : Fin 2) * 512 + 512; omega

/-- Every index (r, q) of the output array lies in the block of a point with k = 3 (a last reduction step, the only points
    that write the output back): the point 32 * (r / 2048) + 4 * (q / 512) + 3. -/
theorem cover4 (y : S8192x4096.Idx) : ∃ t : Fin cfg0.N, t.val % 4 = 3 ∧ y ∈ ((cfg0.win 4).blk t).view.set := by
  have h0 : (y 0).val < 8192 := (y 0).isLt
  have h1 : (y 1).val < 4096 := (y 1).isLt
  refine ⟨⟨32 * ((y 0).val / 2048) + 4 * ((y 1).val / 512) + 3, lt_of_lt_of_eq (by omega) N_0.symm⟩, ?_, ?_⟩
  · show (32 * ((y 0).val / 2048) + 4 * ((y 1).val / 512) + 3) % 4 = 3; omega
  · rw [mem_blk4]
    show 2048 * ((32 * ((y 0).val / 2048) + 4 * ((y 1).val / 512) + 3) / 32) ≤ (y 0).val
      ∧ (y 0).val < 2048 * ((32 * ((y 0).val / 2048) + 4 * ((y 1).val / 512) + 3) / 32) + 2048
      ∧ 512 * (((32 * ((y 0).val / 2048) + 4 * ((y 1).val / 512) + 3) / 4) % 8) ≤ (y 1).val
      ∧ (y 1).val < 512 * (((32 * ((y 0).val / 2048) + 4 * ((y 1).val / 512) + 3) / 4) % 8) + 512
    omega

end Cert.KernelIdeal.KerValue

end
-- ==== Proof.BlockSum.lean ====
/-
  A sum over 4096 consecutive positions is the sum of its four consecutive blocks of 1024 positions.

  Position d < 4096 is written uniquely as 1024 * k + a with k < 4 and a < 1024 (quotient and remainder by 1024);
  summing over d is summing over the pairs (k, a), and a sum over pairs is an iterated sum. Only commutativity and
  associativity of + are used, so this holds in any commutative additive monoid (in particular on the extended reals,
  where no finiteness is needed).
-/
import Mathlib.Algebra.BigOperators.Fin
import Mathlib.Logic.Equiv.Fin.Basic

namespace Cert.KernelIdeal.KerValue

open scoped BigOperators

/-- The sum over 4096 positions, block by block: block k holds the positions 1024 * k + a, a < 1024. -/
theorem sum_four_blocks {M : Type*} [AddCommMonoid M] (f : Fin 4096 → M) :
    ∑ d : Fin 4096, f d = ∑ k : Fin 4, ∑ a : Fin 1024, f ⟨1024 * k.val + a.val, by omega⟩ := by
  have h1 : ∑ d : Fin 4096, f d = ∑ x : Fin 4 × Fin 1024, f (finProdFinEquiv x) :=
    (Equiv.sum_comp (finProdFinEquiv : Fin 4 × Fin 1024 ≃ Fin (4 * 1024)) f).symm
  rw [h1, Fintype.sum_prod_type]
  refine Finset.sum_congr rfl fun k _ => Finset.sum_congr rfl fun a _ => congrArg f (Fin.ext ?_)
  show a.val + 1024 * k.val = 1024 * k.val + a.val
  exact Nat.add_comm _ _

end Cert.KernelIdeal.KerValue
-- ==== Proof.KerSums.lean ====
import proofs.«107846_j83116207112676_2_alg».proof.Proof.Spec
import proofs.«107846_j83116207112676_2_alg».proof.Proof.BlockSum
import Idealize.ShloMosaic.Lib.ValueIdx

/-! # Two spellings used on the kernel side

A sum over 4096 reduction indices taken in four ordered steps of 1024, added left to right, is the whole sum: a finite sum
over the extended reals may be regrouped freely, since + there is commutative and associative. And the fused update at an
index, with its four pre-activations written out as sums. -/

noncomputable section

namespace Cert.KernelIdeal.KerValue

open Cert.GruSpec Idealize.ShloMosaic Idealize.ShloMosaic.ValueIdx

/-- Row P of X against row (g, O) of W, accumulated in four steps of 1024 reduction indices added in order, is the sum
    over all 4096 reduction indices. The position of step k's a-th index is any `idx k a` whose value is 1024 k + a. -/
theorem four_steps' (X : (⟨2, ![8192, 4096]⟩ : Shape).Idx → EReal) (W : (⟨3, ![4, 4096, 4096]⟩ : Shape).Idx → EReal)
    (P : Fin 8192) (O : Fin 4096) (g : Fin 4)
    (idx : Fin 4 → Fin 1024 → Fin 4096) (hidx : ∀ k a, (idx k a).val = 1024 * k.val + a.val) :
    (((∑ a : Fin 1024, X (ix2 P (idx 0 a)) * W (ix3 g O (idx 0 a)))
        + (∑ a : Fin 1024, X (ix2 P (idx 1 a)) * W (ix3 g O (idx 1 a))))
        + (∑ a : Fin 1024, X (ix2 P (idx 2 a)) * W (ix3 g O (idx 2 a))))
        + (∑ a : Fin 1024, X (ix2 P (idx 3 a)) * W (ix3 g O (idx 3 a)))
      = ∑ d : Fin 4096, X (ix2 P d) * W (ix3 g O d) := by
  have hi : ∀ (k : Fin 4) (a : Fin 1024), idx k a = ⟨1024 * k.val + a.val, by omega⟩ := fun k a => Fin.ext (hidx k a)
  rw [sum_four_blocks (fun d => X (ix2 P d) * W (ix3 g O d)), Fin.sum_univ_four]
  simp only [hi]

/-- The fused update at (P, O): its four pre-activations written as sums over the 4096 input features. -/
theorem gker_at (A0 A1 : Mat 8192 4096) (A2 : Mat 4096 4096) (A3 : Row 4096) (A4 : Mat 4096 4096) (A5 : Row 4096)
    (A6 : Mat 4096 4096) (A7 : Row 4096) (A8 : Mat 4096 4096) (A9 : Row 4096) (A10 : Mat 4096 4096) (A11 : Row 4096)
    (A12 : Mat 4096 4096) (A13 : Row 4096) (P : Fin 8192) (O : Fin 4096) :
    Cert.GruSpec.Gker A0 A1 A2 A3 A4 A5 A6 A7 A8 A9 A10 A11 A12 A13 (ix2 P O)
      = Cert.GruSpec.combine
          ((∑ d : Fin 4096, A0 (ix2 P d) * (A2 (ix2 O d) + A8 (ix2 O d))) + (A3 (ix1 O) + A9 (ix1 O)))
          ((∑ d : Fin 4096, A0 (ix2 P d) * (A4 (ix2 O d) + A10 (ix2 O d))) + (A5 (ix1 O) + A11 (ix1 O)))
          ((∑ d : Fin 4096, A0 (ix2 P d) * A6 (ix2 O d)) + A7 (ix1 O))
          ((∑ d : Fin 4096, A0 (ix2 P d) * A12 (ix2 O d)) + A13 (ix1 O))
          (A1 (ix2 P O)) := rfl

end Cert.KernelIdeal.KerValue

end
-- ==== Proof.AccFull.lean ====
/-
  What the accumulator holds at a last reduction step: the full contraction over the 4096 input features.

  A grid point t has row tile i = t / 32, feature tile j = (t / 4) mod 8 and reduction step k = t mod 4, the step
  innermost. The accumulator is restarted at k = 0 and at every point one step product is added: the point's 2048 x 1024
  input tile against its 512 x 1024 tile of a gate's weights, a sum over the 1024 reduction indices 1024 k + a. Read off
  the whole arrays, the four products of the points with the same (i, j) are the four consecutive quarters of
      sum over d < 4096 of x(2048 i + p, d) * w(g, 512 j + o, d),
  and adding them in order gives that sum: commutativity and associativity of + on the extended reals, nothing else.
-/
import proofs.«107846_j83116207112676_2_alg».proof.Proof.KerDefs
import proofs.«107846_j83116207112676_2_alg».proof.Proof.BlockReads
import proofs.«107846_j83116207112676_2_alg».proof.Proof.KerSums

set_option maxRecDepth 16384

noncomputable section

namespace Cert.KernelIdeal.KerValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The cast input array and the stacked weight array as the region finds them, as arrays of extended reals. -/
abbrev xArr (c : Dev nD) : S8192x4096.Idx → EReal := V m c main_v16
abbrev wArr (c : Dev nD) : S4x4096x4096.Idx → EReal := V m c main_v9

/-- The product one grid point adds at (g, p, o), read off the whole arrays: with i = t / 32, j = (t / 4) mod 8, k = t mod 4,
    it is row 2048 i + p of the input against row 512 j + o of gate g's weights, over the 1024 reduction indices
    1024 k + a of step k. -/
theorem stepProd_read (c : Dev nD) (t : Fin cfg0.N) (g : Fin 4) (p : Fin 2048) (o : Fin 512) :
    stepProd m c t g p o = ∑ a : Fin 1024,
      xArr m c
          (ix2 (⟨2048 * (t.val / 32) + p.val, by have := point_lt t; have := p.isLt; omega⟩ : Fin 8192)
               (⟨1024 * (t.val % 4) + a.val, by have := a.isLt; omega⟩ : Fin 4096))
        * wArr m c
          (ix3 g (⟨512 * ((t.val / 4) % 8) + o.val, by have := o.isLt; omega⟩ : Fin 4096)
               (⟨1024 * (t.val % 4) + a.val, by have := a.isLt; omega⟩ : Fin 4096)) := by
  unfold stepProd
  refine Finset.sum_congr rfl fun a _ => ?_
  exact congrArg₂ (fun u v : EReal => u * v) (blk0_read (F := Ideal) (xArr m c) t p a) (blk1_read (F := Ideal) (wArr m c) t g o a)

/-- One step sum does not change when its row, its feature and its reduction positions are replaced by equal ones. -/
theorem step_congr (X : (⟨2, ![8192, 4096]⟩ : Shape).Idx → EReal) (W : (⟨3, ![4, 4096, 4096]⟩ : Shape).Idx → EReal) (g : Fin 4)
    {P P' : Fin 8192} {O O' : Fin 4096} {f f' : Fin 1024 → Fin 4096}
    (hP : P.val = P'.val) (hO : O.val = O'.val) (hf : ∀ a, (f a).val = (f' a).val) :
    ∑ a : Fin 1024, X (ix2 P (f a)) * W (ix3 g O (f a)) = ∑ a : Fin 1024, X (ix2 P' (f' a)) * W (ix3 g O' (f' a)) := by
  obtain rfl : P = P' := Fin.ext hP
  obtain rfl : O = O' := Fin.ext hO
  obtain rfl : f = f' := funext fun a => Fin.ext (hf a)
  rfl

/-- At a last reduction step n + 3 (n a multiple of 4) the accumulated value is the four step products of the points
    n, n + 1, n + 2, n + 3, added in that order: the accumulation restarts at n and adds one product per point after. -/
theorem acc_four (c : Dev nD) (n : ℕ) (hn : n + 3 < cfg0.N) (h0 : n % 4 = 0) (g : Fin 4) (p : Fin 2048) (o : Fin 512) :
    partialAcc m c (n + 3) hn g p o
      = ((stepProd m c ⟨n, by omega⟩ g p o + stepProd m c ⟨n + 1, by omega⟩ g p o)
          + stepProd m c ⟨n + 2, by omega⟩ g p o) + stepProd m c ⟨n + 3, hn⟩ g p o := by
  rw [partialAcc_next m c (n + 2) hn (by omega), partialAcc_next m c (n + 1) (by omega) (by omega),
    partialAcc_next m c n (by omega) (by omega), partialAcc_first m c n (by omega) h0]

/-- At a point t with reduction step k = 3 the accumulated value at (g, p, o) is the FULL contraction: row 2048 i + p of the
    input against row 512 j + o of gate g's weights over all 4096 reduction indices. The four points t - 3, …, t share
    i and j and have k = 0, 1, 2, 3, so their step products are the four consecutive quarters of that sum; a finite sum of
    extended reals may be regrouped freely. -/
theorem acc_full (c : Dev nD) (t : Fin cfg0.N) (h3 : t.val % 4 = 3) (g : Fin 4) (p : Fin 2048) (o : Fin 512) :
    partialAcc m c t.val t.isLt g p o
      = ∑ d : Fin 4096,
          xArr m c (ix2 (⟨2048 * (t.val / 32) + p.val, by have := point_lt t; have := p.isLt; omega⟩ : Fin 8192) d)
            * wArr m c (ix3 g (⟨512 * ((t.val / 4) % 8) + o.val, by have := o.isLt; omega⟩ : Fin 4096) d) := by
  have ht := point_lt t
  obtain ⟨tv, htv⟩ := t
  obtain ⟨n, rfl⟩ : ∃ n, tv = n + 3 := ⟨tv - 3, by have : tv % 4 = 3 := h3; omega⟩
  have h3' : (n + 3) % 4 = 3 := h3
  have hlt : n + 3 < 128 := ht
  show partialAcc m c (n + 3) htv g p o = _
  rw [acc_four m c n htv (by omega) g p o, stepProd_read, stepProd_read, stepProd_read, stepProd_read]
  refine Eq.trans ?_ (four_steps' (xArr m c) (wArr m c) _ _ g
    (fun k a => (⟨1024 * k.val + a.val, by have := k.isLt; have := a.isLt; omega⟩ : Fin 4096)) (fun k a => rfl))
  have hp := p.isLt
  have ho := o.isLt
  refine congrArg₂ (fun u v : EReal => u + v) (congrArg₂ (fun u v : EReal => u + v) (congrArg₂ (fun u v : EReal => u + v) ?_ ?_) ?_) ?_
  · exact step_congr (xArr m c) (wArr m c) g (by show 2048 * (n / 32) + p.val = 2048 * ((n + 3) / 32) + p.val; omega)
      (by show 512 * ((n / 4) % 8) + o.val = 512 * (((n + 3) / 4) % 8) + o.val; omega)
      (fun a => by show 1024 * (n % 4) + a.val = 1024 * 0 + a.val; omega)
  · exact step_congr (xArr m c) (wArr m c) g (by show 2048 * ((n + 1) / 32) + p.val = 2048 * ((n + 3) / 32) + p.val; omega)
      (by show 512 * (((n + 1) / 4) % 8) + o.val = 512 * (((n + 3) / 4) % 8) + o.val; omega)
      (fun a => by show 1024 * ((n + 1) % 4) + a.val = 1024 * 1 + a.val; omega)
  · exact step_congr (xArr m c) (wArr m c) g (by show 2048 * ((n + 2) / 32) + p.val = 2048 * ((n + 3) / 32) + p.val; omega)
      (by show 512 * (((n + 2) / 4) % 8) + o.val = 512 * (((n + 3) / 4) % 8) + o.val; omega)
      (fun a => by show 1024 * ((n + 2) % 4) + a.val = 1024 * 2 + a.val; omega)
  · exact step_congr (xArr m c) (wArr m c) g rfl rfl
      (fun a => by show 1024 * ((n + 3) % 4) + a.val = 1024 * 3 + a.val; omega)

end Cert.KernelIdeal.KerValue

end
-- ==== Proof.HostStages.lean ====
/-
  What the region finds in its three host-computed operands, one entry at a time on the extended reals.

  Before the region the host program
    * casts the input x to the narrower float format (on the extended reals a change of format is the identity);
    * adds the two weight matrices of the gate r and the two of the gate z, stacks the four matrices
      [w_ir + w_hr, w_iz + w_hz, w_in, w_hn] along a new leading axis, and casts the 4 x 4096 x 4096 stack;
    * adds the matching bias rows, stacks the four rows the same way, and views the 4 x 4096 stack as 4 x 1 x 4096.
  So entry (g, o, d) of the weight stack is entry (o, d) of the g-th matrix of the list, and entry (g, 0, o) of the
  bias stack is entry o of the g-th row. Each statement below is that reading: a stack along a new axis reads the
  piece its leading coordinate names, a matrix placed under a new unit axis reads itself, and a re-viewing keeps
  the row-major position. No arithmetic law is used, so nothing needs finiteness.
-/
import proofs.«107846_j83116207112676_2_alg».proof.Proof.FrameBase
import proofs.«107846_j83116207112676_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KerValue

open Cert.KernelIdeal Cert.KernelIdeal.Gen Cert.KernelIdeal.Hand Idealize.ShloMosaic Idealize.ShloMosaic.TcCoe Idealize.SL.Sem
open Idealize.ShloMosaic.StableHlo Idealize.ShloMosaic.ValueIdx

/-! ## The layout operations at an index -/

section Layout
variable {α : Type}

/-- A 4096 x 4096 matrix placed under a new leading unit axis reads, at (u, o, d), the matrix at (o, d). -/
theorem lift_mat_apply (x : S4096x4096.Idx → α) (u : Fin 1) (o d : Fin 4096) :
    broadcastInDim S1x4096x4096 ![1, 2] bcast_S4096x4096_S1x4096x4096_1_2 x (ix3 u o d) = x (ix2 o d) :=
  broadcastInDim_apply _ bcast_S4096x4096_S1x4096x4096_1_2 x (ix3 u o d) (ix2 o d) (fun a => match a with
    | ⟨0, _⟩ => by show o.val = if (4096 : Nat) = 1 then 0 else o.val; rw [if_neg (by decide)]
    | ⟨1, _⟩ => by show d.val = if (4096 : Nat) = 1 then 0 else d.val; rw [if_neg (by decide)])

/-- A length-4096 row placed under a new leading unit axis reads, at (u, o), the row at o. -/
theorem lift_row_apply (x : S4096.Idx → α) (u : Fin 1) (o : Fin 4096) :
    broadcastInDim S1x4096 ![1] bcast_S4096_S1x4096_1 x (ix2 u o) = x (ix1 o) :=
  broadcastInDim_apply _ bcast_S4096_S1x4096_1 x (ix2 u o) (ix1 o) (fun a => match a with
    | ⟨0, _⟩ => by show o.val = if (4096 : Nat) = 1 then 0 else o.val; rw [if_neg (by decide)])

/-- Four 1 x 4096 x 4096 pieces stacked along the leading axis read, at (g, o, d), piece g at (0, o, d). -/
theorem stack_mat_apply (x0 x1 x2 x3 : S1x4096x4096.Idx → α) (g : Fin 4) (o d : Fin 4096) :
    concatenate S4x4096x4096 0 [⟨S1x4096x4096, x0⟩, ⟨S1x4096x4096, x1⟩, ⟨S1x4096x4096, x2⟩, ⟨S1x4096x4096, x3⟩]
        concatenates_S1x4096x4096_S1x4096x4096_S1x4096x4096_S1x4096x4096_S4x4096x4096_d0 (ix3 g o d)
      = (match g with | 0 => x0 | 1 => x1 | 2 => x2 | 3 => x3) (ix3 (0 : Fin 1) o d) := by
  have hi : ∀ (g : Fin 4) (b : Fin S1x4096x4096.rank), b.cast (rfl : S1x4096x4096.rank = S4x4096x4096.rank) ≠ (0 : Fin S4x4096x4096.rank) →
      ((ix3 (0 : Fin 1) o d : S1x4096x4096.Idx) b).val = ((ix3 g o d : S4x4096x4096.Idx) (b.cast rfl)).val := fun g b => by
    match b with
    | ⟨0, _⟩ => intro h; exact absurd rfl h
    | ⟨1, _⟩ => intro _; rfl
    | ⟨2, _⟩ => intro _; rfl
  match g with
  | ⟨0, hg⟩ => exact concatenate_apply_piece 0 [⟨S1x4096x4096, x0⟩, ⟨S1x4096x4096, x1⟩, ⟨S1x4096x4096, x2⟩, ⟨S1x4096x4096, x3⟩] concatenates_S1x4096x4096_S1x4096x4096_S1x4096x4096_S1x4096x4096_S4x4096x4096_d0 (ix3 (⟨0, hg⟩ : Fin 4) o d) 0 (by show (0 : Nat) < 4; omega) S1x4096x4096 x0 rfl rfl 0 rfl (ix3 (0 : Fin 1) o d) (hi _) rfl
  | ⟨1, hg⟩ => exact concatenate_apply_piece 0 [⟨S1x4096x4096, x0⟩, ⟨S1x4096x4096, x1⟩, ⟨S1x4096x4096, x2⟩, ⟨S1x4096x4096, x3⟩] concatenates_S1x4096x4096_S1x4096x4096_S1x4096x4096_S1x4096x4096_S4x4096x4096_d0 (ix3 (⟨1, hg⟩ : Fin 4) o d) 1 (by show (1 : Nat) < 4; omega) S1x4096x4096 x1 rfl rfl 1 rfl (ix3 (0 : Fin 1) o d) (hi _) rfl
  | ⟨2, hg⟩ => exact concatenate_apply_piece 0 [⟨S1x4096x4096, x0⟩, ⟨S1x4096x4096, x1⟩, ⟨S1x4096x4096, x2⟩, ⟨S1x4096x4096, x3⟩] concatenates_S1x4096x4096_S1x4096x4096_S1x4096x4096_S1x4096x4096_S4x4096x4096_d0 (ix3 (⟨2, hg⟩ : Fin 4) o d) 2 (by show (2 : Nat) < 4; omega) S1x4096x4096 x2 rfl rfl 2 rfl (ix3 (0 : Fin 1) o d) (hi _) rfl
  | ⟨3, hg⟩ => exact concatenate_apply_piece 0 [⟨S1x4096x4096, x0⟩, ⟨S1x4096x4096, x1⟩, ⟨S1x4096x4096, x2⟩, ⟨S1x4096x4096, x3⟩] concatenates_S1x4096x4096_S1x4096x4096_S1x4096x4096_S1x4096x4096_S4x4096x4096_d0 (ix3 (⟨3, hg⟩ : Fin 4) o d) 3 (by show (3 : Nat) < 4; omega) S1x4096x4096 x3 rfl rfl 3 rfl (ix3 (0 : Fin 1) o d) (hi _) rfl

/-- Four 1 x 4096 pieces stacked along the leading axis read, at (g, o), piece g at (0, o). -/
theorem stack_row_apply (x0 x1 x2 x3 : S1x4096.Idx → α) (g : Fin 4) (o : Fin 4096) :
    concatenate S4x4096 0 [⟨S1x4096, x0⟩, ⟨S1x4096, x1⟩, ⟨S1x4096, x2⟩, ⟨S1x4096, x3⟩]
        concatenates_S1x4096_S1x4096_S1x4096_S1x4096_S4x4096_d0 (ix2 g o)
      = (match g with | 0 => x0 | 1 => x1 | 2 => x2 | 3 => x3) (ix2 (0 : Fin 1) o) := by
  have hi : ∀ (g : Fin 4) (b : Fin S1x4096.rank), b.cast (rfl : S1x4096.rank = S4x4096.rank) ≠ (0 : Fin S4x4096.rank) →
      ((ix2 (0 : Fin 1) o : S1x4096.Idx) b).val = ((ix2 g o : S4x4096.Idx) (b.cast rfl)).val := fun g b => by
    match b with
    | ⟨0, _⟩ => intro h; exact absurd rfl h
    | ⟨1, _⟩ => intro _; rfl
  match g with
  | ⟨0, hg⟩ => exact concatenate_apply_piece 0 [⟨S1x4096, x0⟩, ⟨S1x4096, x1⟩, ⟨S1x4096, x2⟩, ⟨S1x4096, x3⟩] concatenates_S1x4096_S1x4096_S1x4096_S1x4096_S4x4096_d0 (ix2 (⟨0, hg⟩ : Fin 4) o) 0 (by show (0 : Nat) < 4; omega) S1x4096 x0 rfl rfl 0 rfl (ix2 (0 : Fin 1) o) (hi _) rfl
  | ⟨1, hg⟩ => exact concatenate_apply_piece 0 [⟨S1x4096, x0⟩, ⟨S1x4096, x1⟩, ⟨S1x4096, x2⟩, ⟨S1x4096, x3⟩] concatenates_S1x4096_S1x4096_S1x4096_S1x4096_S4x4096_d0 (ix2 (⟨1, hg⟩ : Fin 4) o) 1 (by show (1 : Nat) < 4; omega) S1x4096 x1 rfl rfl 1 rfl (ix2 (0 : Fin 1) o) (hi _) rfl
  | ⟨2, hg⟩ => exact concatenate_apply_piece 0 [⟨S1x4096, x0⟩, ⟨S1x4096, x1⟩, ⟨S1x4096, x2⟩, ⟨S1x4096, x3⟩] concatenates_S1x4096_S1x4096_S1x4096_S1x4096_S4x4096_d0 (ix2 (⟨2, hg⟩ : Fin 4) o) 2 (by show (2 : Nat) < 4; omega) S1x4096 x2 rfl rfl 2 rfl (ix2 (0 : Fin 1) o) (hi _) rfl
  | ⟨3, hg⟩ => exact concatenate_apply_piece 0 [⟨S1x4096, x0⟩, ⟨S1x4096, x1⟩, ⟨S1x4096, x2⟩, ⟨S1x4096, x3⟩] concatenates_S1x4096_S1x4096_S1x4096_S1x4096_S4x4096_d0 (ix2 (⟨3, hg⟩ : Fin 4) o) 3 (by show (3 : Nat) < 4; omega) S1x4096 x3 rfl rfl 3 rfl (ix2 (0 : Fin 1) o) (hi _) rfl

/-- A 4 x 4096 array viewed as 4 x 1 x 4096 reads, at (g, 0, o), the array at (g, o): the same row-major position. -/
theorem view_rows_apply (x : S4x4096.Idx → α) (g : Fin 4) (u : Fin 1) (o : Fin 4096) :
    shapeCast S4x1x4096 x shapeCasts_S4x4096_S4x1x4096 (ix3 g u o) = x (ix2 g o) :=
  shapeCast_apply x shapeCasts_S4x4096_S4x1x4096 _ _ (by
    have hu : u.val = 0 := by omega
    rw [Shape.rowMajor_val_three, Shape.rowMajor_val_two]
    show g.val * 4096 + o.val = (g.val * 1 + u.val) * 4096 + o.val
    rw [hu, Nat.mul_one, Nat.add_zero])

end Layout

/-! ## The three operands as the host operations leave them -/

section Stages

/-- A host operation's result at its own buffer is its function of its operands' contents, and at any other buffer
    what was there before: these two facts, applied until every buffer is read at the launch memory. -/
local macro "results_more" : tactic =>
  `(tactic| (repeat (first
      | rw [unary_result] | rw [binary_result] | rw [reshape_result] | rw [nary_result]
      | (rw [unary_result_ne]; rotate_left; decide)
      | (rw [binary_result_ne]; rotate_left; decide)
      | (rw [reshape_result_ne]; rotate_left; decide)
      | (rw [nary_result_ne]; rotate_left; decide))))

variable (m : (ℓ : Loc nD τ sig) → Buf (Elt Ideal) ℓ) (c : Dev nD)

/-! ## The argument arrays

`A k` is the k-th argument array of the program as the launch memory of core `c` holds it, typed as a function from the
array's literal index type to the extended reals (in the programs' order: x, h, w_ir, b_ir, w_iz, b_iz, w_in, b_in, w_hr, b_hr,
w_hz, b_hz, w_hn, b_hn). -/

abbrev A0 : S8192x4096.Idx → EReal := m ((c.tc : Thread nD τ).loc main_arg0)
abbrev A1 : S8192x4096.Idx → EReal := m ((c.tc : Thread nD τ).loc main_arg1)
abbrev A2 : S4096x4096.Idx → EReal := m ((c.tc : Thread nD τ).loc main_arg2)
abbrev A3 : S4096.Idx → EReal := m ((c.tc : Thread nD τ).loc main_arg3)
abbrev A4 : S4096x4096.Idx → EReal := m ((c.tc : Thread nD τ).loc main_arg4)
abbrev A5 : S4096.Idx → EReal := m ((c.tc : Thread nD τ).loc main_arg5)
abbrev A6 : S4096x4096.Idx → EReal := m ((c.tc : Thread nD τ).loc main_arg6)
abbrev A7 : S4096.Idx → EReal := m ((c.tc : Thread nD τ).loc main_arg7)
abbrev A8 : S4096x4096.Idx → EReal := m ((c.tc : Thread nD τ).loc main_arg8)
abbrev A9 : S4096.Idx → EReal := m ((c.tc : Thread nD τ).loc main_arg9)
abbrev A10 : S4096x4096.Idx → EReal := m ((c.tc : Thread nD τ).loc main_arg10)
abbrev A11 : S4096.Idx → EReal := m ((c.tc : Thread nD τ).loc main_arg11)
abbrev A12 : S4096x4096.Idx → EReal := m ((c.tc : Thread nD τ).loc main_arg12)
abbrev A13 : S4096.Idx → EReal := m ((c.tc : Thread nD τ).loc main_arg13)

/-! ## The operands as whole arrays -/

/-- The region's input operand is the input x, its format changed. -/
theorem x_eq : (V m c main_v16 : S8192x4096.Idx → EReal)
    = truncf (F := Ideal) .bf16 (m ((c.tc : Thread nD τ).loc main_arg0) : FVec Ideal S8192x4096 .f32) bitsLt_bf16_f32 := by
  dsimp only [Cert.KernelIdeal.Hand.V, Gen.hostOps0]
  after_results

/-- The region's weight operand is the stack of the four (fused) weight matrices, its format changed. -/
theorem w_eq : (V m c main_v9 : S4x4096x4096.Idx → EReal)
    = truncf (F := Ideal) .bf16
        (concatenate S4x4096x4096 0
          [⟨S1x4096x4096, broadcastInDim S1x4096x4096 ![1, 2] bcast_S4096x4096_S1x4096x4096_1_2
              (addf (F := Ideal) (s := S4096x4096) (φ := .f32) (m ((c.tc : Thread nD τ).loc main_arg2) : FVec Ideal S4096x4096 .f32)
                (m ((c.tc : Thread nD τ).loc main_arg8) : FVec Ideal S4096x4096 .f32))⟩,
           ⟨S1x4096x4096, broadcastInDim S1x4096x4096 ![1, 2] bcast_S4096x4096_S1x4096x4096_1_2
              (addf (F := Ideal) (s := S4096x4096) (φ := .f32) (m ((c.tc : Thread nD τ).loc main_arg4) : FVec Ideal S4096x4096 .f32)
                (m ((c.tc : Thread nD τ).loc main_arg10) : FVec Ideal S4096x4096 .f32))⟩,
           ⟨S1x4096x4096, broadcastInDim S1x4096x4096 ![1, 2] bcast_S4096x4096_S1x4096x4096_1_2
              (m ((c.tc : Thread nD τ).loc main_arg6) : FVec Ideal S4096x4096 .f32)⟩,
           ⟨S1x4096x4096, broadcastInDim S1x4096x4096 ![1, 2] bcast_S4096x4096_S1x4096x4096_1_2
              (m ((c.tc : Thread nD τ).loc main_arg12) : FVec Ideal S4096x4096 .f32)⟩]
          concatenates_S1x4096x4096_S1x4096x4096_S1x4096x4096_S1x4096x4096_S4x4096x4096_d0 : FVec Ideal S4x4096x4096 .f32)
        bitsLt_bf16_f32 := by
  dsimp only [Cert.KernelIdeal.Hand.V, Gen.hostOps0]
  after_results
  dsimp only [Matrix.cons_val]
  results_more
  first | done | rfl

/-- The region's bias operand is the stack of the four (fused) bias rows, viewed as 4 x 1 x 4096. -/
theorem b_eq : (V m c main_v15 : S4x1x4096.Idx → EReal)
    = shapeCast S4x1x4096
        (concatenate S4x4096 0
          [⟨S1x4096, broadcastInDim S1x4096 ![1] bcast_S4096_S1x4096_1
              (addf (F := Ideal) (s := S4096) (φ := .f32) (m ((c.tc : Thread nD τ).loc main_arg3) : FVec Ideal S4096 .f32)
                (m ((c.tc : Thread nD τ).loc main_arg9) : FVec Ideal S4096 .f32))⟩,
           ⟨S1x4096, broadcastInDim S1x4096 ![1] bcast_S4096_S1x4096_1
              (addf (F := Ideal) (s := S4096) (φ := .f32) (m ((c.tc : Thread nD τ).loc main_arg5) : FVec Ideal S4096 .f32)
                (m ((c.tc : Thread nD τ).loc main_arg11) : FVec Ideal S4096 .f32))⟩,
           ⟨S1x4096, broadcastInDim S1x4096 ![1] bcast_S4096_S1x4096_1
              (m ((c.tc : Thread nD τ).loc main_arg7) : FVec Ideal S4096 .f32)⟩,
           ⟨S1x4096, broadcastInDim S1x4096 ![1] bcast_S4096_S1x4096_1
              (m ((c.tc : Thread nD τ).loc main_arg13) : FVec Ideal S4096 .f32)⟩]
          concatenates_S1x4096_S1x4096_S1x4096_S1x4096_S4x4096_d0 : S4x4096.Idx → EReal)
        shapeCasts_S4x4096_S4x1x4096 := by
  dsimp only [Cert.KernelIdeal.Hand.V, Gen.hostOps0]
  after_results
  dsimp only [Matrix.cons_val]
  results_more
  first | done | rfl

/-! ## The three operands at an index -/

/-- The input operand at (p, d) is x(p, d). -/
theorem stage_x (p : Fin 8192) (d : Fin 4096) :
    (V m c main_v16 : S8192x4096.Idx → EReal) (ix2 p d)
      = A0 m c (ix2 p d) :=
  congrFun (x_eq m c) (ix2 p d)

/-- The weight operand at (g, o, d): entry (o, d) of the g-th matrix of [w_ir + w_hr, w_iz + w_hz, w_in, w_hn]. -/
theorem stage_w (g : Fin 4) (o d : Fin 4096) :
    (V m c main_v9 : S4x4096x4096.Idx → EReal) (ix3 g o d)
      = (match g with
          | 0 => A2 m c (ix2 o d)
                  + A8 m c (ix2 o d)
          | 1 => A4 m c (ix2 o d)
                  + A10 m c (ix2 o d)
          | 2 => A6 m c (ix2 o d)
          | 3 => A12 m c (ix2 o d)) := by
  refine (congrFun (w_eq m c) (ix3 g o d)).trans ?_
  refine (stack_mat_apply _ _ _ _ g o d).trans ?_
  match g with
  | ⟨0, _⟩ => exact lift_mat_apply _ (0 : Fin 1) o d
  | ⟨1, _⟩ => exact lift_mat_apply _ (0 : Fin 1) o d
  | ⟨2, _⟩ => exact lift_mat_apply _ (0 : Fin 1) o d
  | ⟨3, _⟩ => exact lift_mat_apply _ (0 : Fin 1) o d

/-- The bias operand at (g, 0, o): entry o of the g-th row of [b_ir + b_hr, b_iz + b_hz, b_in, b_hn]. -/
theorem stage_b (g : Fin 4) (o : Fin 4096) :
    (V m c main_v15 : S4x1x4096.Idx → EReal) (ix3 g (0 : Fin 1) o)
      = (match g with
          | 0 => A3 m c (ix1 o)
                  + A9 m c (ix1 o)
          | 1 => A5 m c (ix1 o)
                  + A11 m c (ix1 o)
          | 2 => A7 m c (ix1 o)
          | 3 => A13 m c (ix1 o)) := by
  refine (congrFun (b_eq m c) (ix3 g (0 : Fin 1) o)).trans ?_
  refine (view_rows_apply _ g (0 : Fin 1) o).trans ?_
  refine (stack_row_apply _ _ _ _ g o).trans ?_
  match g with
  | ⟨0, _⟩ => exact lift_row_apply _ (0 : Fin 1) o
  | ⟨1, _⟩ => exact lift_row_apply _ (0 : Fin 1) o
  | ⟨2, _⟩ => exact lift_row_apply _ (0 : Fin 1) o
  | ⟨3, _⟩ => exact lift_row_apply _ (0 : Fin 1) o

end Stages

end Cert.KernelIdeal.KerValue

end
-- ==== Proof.KerFinal.lean ====
/-
  The gate kernel's result array, at the ideal instance, is the cell update `Gker` of the fourteen arguments.

  The output window is written back exactly at the points with reduction step k = 3. At such a point t = 32 i + 4 j + 3
  the stored tile at (p, o) is the cell's combine of the four slabs of the running sum plus the bias rows and the hidden
  tile (KerAcc); the running sum over the four steps of 1024 is ONE sum over the 4096 reduction indices of row
  2048 i + p of the staged input against row 512 j + o of the staged gate weights (AccFull); the staged arrays are the
  host's casts, sums and stacks of the arguments (HostStages). So the tile is block (i, j) of `Gker`, and the 4 x 8
  blocks tile the 8192 x 4096 array.
-/
import proofs.«107846_j83116207112676_2_alg».proof.Proof.KerAcc
import proofs.«107846_j83116207112676_2_alg».proof.Proof.AccFull
import proofs.«107846_j83116207112676_2_alg».proof.Proof.HostStages
import proofs.«107846_j83116207112676_2_alg».proof.Proof.KerSums
import proofs.«107846_j83116207112676_2_alg».proof.Proof.BlockReads
import Idealize.ShloMosaic.Lib.Pipeline.Value
import Idealize.ShloMosaic.Lib.ValueIdx

set_option maxRecDepth 16384

noncomputable section

namespace Cert.KernelIdeal.KerValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The cell update of core `c`'s fourteen argument arrays. -/
abbrev resultArr (c : Dev nD) : S8192x4096.Idx → EReal :=
  Cert.GruSpec.Gker (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- The row of the array that row `p` of point `t`'s tile is, and likewise the column. -/
def rowOf (t : Fin cfg0.N) (p : Fin 2048) : Fin 8192 := ⟨2048 * (t.val / 32) + p.val, by have := point_lt t; have := p.isLt; omega⟩
def colOf (t : Fin cfg0.N) (o : Fin 512) : Fin 4096 := ⟨512 * ((t.val / 4) % 8) + o.val, by have := o.isLt; omega⟩

/-- The stored tile at a last reduction step is the block of `Gker` at the tile's place. -/
theorem tile_eq (c : Dev nD) (t : Fin cfg0.N) (h3 : t.val % 4 = 3) (p : Fin 2048) (o : Fin 512) :
    ((outsAt0 m c t.val t.isLt).1 : Vec Ideal S2048x512 .f32) (ix2 p o) = resultArr m c (ix2 (rowOf t p) (colOf t o)) := by
  rw [out_eq m c t h3 p o, acc_full m c t h3 0 p o, acc_full m c t h3 1 p o, acc_full m c t h3 2 p o, acc_full m c t h3 3 p o]
  -- the bias tile and the hidden tile are blocks of the staged bias stack and of the hidden-state argument
  have bb : ∀ g : Fin 4, bTile m c t (ix3 g (0 : Fin 1) o)
      = (V m c main_v15 : S4x1x4096.Idx → EReal) (ix3 g (0 : Fin 1) (colOf t o)) := fun g => by
    show ((cfg0.win 2).blk t).view.read (Elt Ideal) (V m c (Pipeline.arrRef spec0 2)) (ix3 g (0 : Fin 1) o) = _
    exact blk2_read (F := Ideal) (V m c (Pipeline.arrRef spec0 2)) t g o
  have bh : hTile m c t (ix2 p o) = A1 m c (ix2 (rowOf t p) (colOf t o)) := by
    show ((cfg0.win 3).blk t).view.read (Elt Ideal) (V m c (Pipeline.arrRef spec0 3)) (ix2 p o) = _
    rw [blk3_read (F := Ideal) (V m c (Pipeline.arrRef spec0 3)) t p o]
    exact congrFun (V_main_arg1 m c) _
  -- the staged input and the staged weight stack are the host's casts, sums and stack of the arguments
  have ss : ∀ g : Fin 4, (∑ d : Fin 4096, xArr m c (ix2 (rowOf t p) d) * wArr m c (ix3 g (colOf t o) d))
      = ∑ d : Fin 4096, A0 m c (ix2 (rowOf t p) d) * (match g with
          | 0 => A2 m c (ix2 (colOf t o) d) + A8 m c (ix2 (colOf t o) d)
          | 1 => A4 m c (ix2 (colOf t o) d) + A10 m c (ix2 (colOf t o) d)
          | 2 => A6 m c (ix2 (colOf t o) d)
          | 3 => A12 m c (ix2 (colOf t o) d)) := fun g =>
    Finset.sum_congr rfl fun d _ => by
      have e1 : xArr m c (ix2 (rowOf t p) d) = A0 m c (ix2 (rowOf t p) d) := stage_x m c (rowOf t p) d
      have e2 : wArr m c (ix3 g (colOf t o) d) = (match g with
          | 0 => A2 m c (ix2 (colOf t o) d) + A8 m c (ix2 (colOf t o) d)
          | 1 => A4 m c (ix2 (colOf t o) d) + A10 m c (ix2 (colOf t o) d)
          | 2 => A6 m c (ix2 (colOf t o) d)
          | 3 => A12 m c (ix2 (colOf t o) d)) := stage_w m c g (colOf t o) d
      rw [e1, e2]
  show Cert.GruSpec.combine
      ((∑ d : Fin 4096, xArr m c (ix2 (rowOf t p) d) * wArr m c (ix3 0 (colOf t o) d)) + bTile m c t (ix3 (0 : Fin 4) (0 : Fin 1) o))
      ((∑ d : Fin 4096, xArr m c (ix2 (rowOf t p) d) * wArr m c (ix3 1 (colOf t o) d)) + bTile m c t (ix3 (1 : Fin 4) (0 : Fin 1) o))
      ((∑ d : Fin 4096, xArr m c (ix2 (rowOf t p) d) * wArr m c (ix3 2 (colOf t o) d)) + bTile m c t (ix3 (2 : Fin 4) (0 : Fin 1) o))
      ((∑ d : Fin 4096, xArr m c (ix2 (rowOf t p) d) * wArr m c (ix3 3 (colOf t o) d)) + bTile m c t (ix3 (3 : Fin 4) (0 : Fin 1) o))
      (hTile m c t (ix2 p o)) = _
  rw [ss 0, ss 1, ss 2, ss 3, bb 0, bb 1, bb 2, bb 3, bh, stage_b m c 0, stage_b m c 1, stage_b m c 2, stage_b m c 3]
  exact (gker_at (A0 m c) (A1 m c) (A2 m c) (A3 m c) (A4 m c) (A5 m c) (A6 m c) (A7 m c) (A8 m c) (A9 m c) (A10 m c) (A11 m c) (A12 m c) (A13 m c) (rowOf t p) (colOf t o)).symm

/-- What a point with reduction step k = 3 writes back is its block of `Gker` of the arguments. -/
theorem flushed_eq (c : Dev nD) (t : Fin cfg0.N) (hf : (cfg0.win 4).flush t = true) :
    (dats m 0 c).flushed 4 t = ((cfg0.win 4).blk t).view.read (Elt Ideal) (resultArr m c) := by
  have h3 : t.val % 4 = 3 := (flush0_4 t).mp hf
  show (cfg0.win 4).cut (grid0.coords t) ((dats m 0 c).after 4 t) = _
  rw [after0_4]
  funext y
  obtain ⟨p, o, rfl⟩ : ∃ (p : Fin 2048) (o : Fin 512), y = ix2 p o := ⟨y 0, y 1, eq_ix2 y⟩
  rw [View.read_apply, blk4_emb]
  exact tile_eq m c t h3 p o

/-- The 4 x 8 written-back blocks tile the array, so it ends holding `Gker` of the arguments everywhere. -/
theorem final (c : Dev nD) : (dats m 0 c).arrAt 4 cfg0.N = resultArr m c :=
  (dats m 0 c).arrAt_eq_of_cover 4 (resultArr m c) (flushed_eq m c) fun y => by
    obtain ⟨t, h3, hy⟩ := cover4 y
    exact ⟨t, (flush0_4 t).mpr h3, hy⟩

/-- The run, read: every weakly fair execution of @main terminates with the result array at `Gker` of the launch
    contents of the arguments, and the arguments unchanged. -/
theorem run : θ_run defs (onTc (τ := τ) (main (F := Ideal))) ⟨m, fun _ => 0, ρ⟩ (fun r => ∀ c : Dev nD,
      r.2.mem ((c.tc : Thread nD τ).loc main_v17) = Cert.GruSpec.Gker (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (final m c), (h c).2⟩) (Cert.KernelIdeal.Hand.result (F := Ideal) m ρ)

end Cert.KernelIdeal.KerValue

end
-- ==== Proof.RefValueA.lean ====
import proofs.«107846_j83116207112676_2_alg».proof.Proof.Gen.ReferenceIdeal.Read
import proofs.«107846_j83116207112676_2_alg».proof.Proof.Spec
import Idealize.ShloMosaic.Lib.ValueIdx
import Idealize.ShloMosaic.Lib.Pipeline.Value
import Idealize.ShloMosaic.PureOps.Ideal.Laws

noncomputable section

namespace Cert.GruRef

open Cert.ReferenceIdeal Cert.ReferenceIdeal.Gen Cert.ReferenceIdeal.Read Cert.GruSpec Idealize.ShloMosaic Idealize.ShloMosaic.ValueIdx

/-! # The reference's stacked product, read gate by gate

The reference stacks the six weight matrices on their row axis (24576 x 4096) and the six bias rows (24576), multiplies the
input once against the stack, adds the bias row, and slices the 8192 x 24576 product into six column bands of width 4096.
Row 4096 g + o of the stack is row o of the g-th matrix, so band g at (p, o) is the linear gate of the g-th matrix and
bias at (p, o). -/

/-- The word 0x3F800000 is the number one. -/
theorem ofBits_one : Ideal.ofBits .f32 0x3F800000#32 = 1 := by
  simp [Ideal.ofBits, Ideal.ieee, -EReal.coe_mul]; norm_num

/-! ## The two stacks at an index -/

/-- Row 0 + o of the weight stack is row o of matrix 0. -/
theorem stackW0 (x2 x4 x6 x8 x10 x12 : Mat 4096 4096) (o d : Fin 4096) :
    val_main_v0 (F := Ideal) x2 x4 x6 x8 x10 x12 (ix2 (⟨o.val, by omega⟩ : Fin 24576) d) = x2 (ix2 o d) := by
  unfold val_main_v0
  refine concatenate_apply_piece (t := S24576x4096) 0 [⟨S4096x4096, x2⟩, ⟨S4096x4096, x4⟩, ⟨S4096x4096, x6⟩, ⟨S4096x4096, x8⟩, ⟨S4096x4096, x10⟩, ⟨S4096x4096, x12⟩] _ _ 0 (by show (0 : Nat) < 6; decide) S4096x4096 x2 rfl rfl 0 ?_ (ix2 o d) ?_ ?_
  · simp
  · intro b hb
    match b with
    | ⟨0, _⟩ => exact absurd rfl hb
    | ⟨1, _⟩ => rfl
  · show 0 + o.val = o.val; omega

/-- Entry 0 + o of the bias stack is entry o of bias row 0. -/
theorem stackB0 (x3 x5 x7 x9 x11 x13 : Row 4096) (o : Fin 4096) :
    val_main_v1 (F := Ideal) x3 x5 x7 x9 x11 x13 (ix1 (⟨o.val, by omega⟩ : Fin 24576)) = x3 (ix1 o) := by
  unfold val_main_v1
  refine concatenate_apply_piece (t := S24576) 0 [⟨S4096, x3⟩, ⟨S4096, x5⟩, ⟨S4096, x7⟩, ⟨S4096, x9⟩, ⟨S4096, x11⟩, ⟨S4096, x13⟩] _ _ 0 (by show (0 : Nat) < 6; decide) S4096 x3 rfl rfl 0 ?_ (ix1 o) ?_ ?_
  · simp
  · intro b hb
    match b with
    | ⟨0, _⟩ => exact absurd rfl hb
  · show 0 + o.val = o.val; omega

/-- Row 4096 + o of the weight stack is row o of matrix 1. -/
theorem stackW1 (x2 x4 x6 x8 x10 x12 : Mat 4096 4096) (o d : Fin 4096) :
    val_main_v0 (F := Ideal) x2 x4 x6 x8 x10 x12 (ix2 (⟨4096 + o.val, by omega⟩ : Fin 24576) d) = x4 (ix2 o d) := by
  unfold val_main_v0
  refine concatenate_apply_piece (t := S24576x4096) 0 [⟨S4096x4096, x2⟩, ⟨S4096x4096, x4⟩, ⟨S4096x4096, x6⟩, ⟨S4096x4096, x8⟩, ⟨S4096x4096, x10⟩, ⟨S4096x4096, x12⟩] _ _ 1 (by show (1 : Nat) < 6; decide) S4096x4096 x4 rfl rfl 4096 ?_ (ix2 o d) ?_ ?_
  · simp
  · intro b hb
    match b with
    | ⟨0, _⟩ => exact absurd rfl hb
    | ⟨1, _⟩ => rfl
  · show 4096 + o.val = 4096 + o.val; rfl

/-- Entry 4096 + o of the bias stack is entry o of bias row 1. -/
theorem stackB1 (x3 x5 x7 x9 x11 x13 : Row 4096) (o : Fin 4096) :
    val_main_v1 (F := Ideal) x3 x5 x7 x9 x11 x13 (ix1 (⟨4096 + o.val, by omega⟩ : Fin 24576)) = x5 (ix1 o) := by
  unfold val_main_v1
  refine concatenate_apply_piece (t := S24576) 0 [⟨S4096, x3⟩, ⟨S4096, x5⟩, ⟨S4096, x7⟩, ⟨S4096, x9⟩, ⟨S4096, x11⟩, ⟨S4096, x13⟩] _ _ 1 (by show (1 : Nat) < 6; decide) S4096 x5 rfl rfl 4096 ?_ (ix1 o) ?_ ?_
  · simp
  · intro b hb
    match b with
    | ⟨0, _⟩ => exact absurd rfl hb
  · show 4096 + o.val = 4096 + o.val; rfl

/-- Row 8192 + o of the weight stack is row o of matrix 2. -/
theorem stackW2 (x2 x4 x6 x8 x10 x12 : Mat 4096 4096) (o d : Fin 4096) :
    val_main_v0 (F := Ideal) x2 x4 x6 x8 x10 x12 (ix2 (⟨8192 + o.val, by omega⟩ : Fin 24576) d) = x6 (ix2 o d) := by
  unfold val_main_v0
  refine concatenate_apply_piece (t := S24576x4096) 0 [⟨S4096x4096, x2⟩, ⟨S4096x4096, x4⟩, ⟨S4096x4096, x6⟩, ⟨S4096x4096, x8⟩, ⟨S4096x4096, x10⟩, ⟨S4096x4096, x12⟩] _ _ 2 (by show (2 : Nat) < 6; decide) S4096x4096 x6 rfl rfl 8192 ?_ (ix2 o d) ?_ ?_
  · simp
  · intro b hb
    match b with
    | ⟨0, _⟩ => exact absurd rfl hb
    | ⟨1, _⟩ => rfl
  · show 8192 + o.val = 8192 + o.val; rfl

/-- Entry 8192 + o of the bias stack is entry o of bias row 2. -/
theorem stackB2 (x3 x5 x7 x9 x11 x13 : Row 4096) (o : Fin 4096) :
    val_main_v1 (F := Ideal) x3 x5 x7 x9 x11 x13 (ix1 (⟨8192 + o.val, by omega⟩ : Fin 24576)) = x7 (ix1 o) := by
  unfold val_main_v1
  refine concatenate_apply_piece (t := S24576) 0 [⟨S4096, x3⟩, ⟨S4096, x5⟩, ⟨S4096, x7⟩, ⟨S4096, x9⟩, ⟨S4096, x11⟩, ⟨S4096, x13⟩] _ _ 2 (by show (2 : Nat) < 6; decide) S4096 x7 rfl rfl 8192 ?_ (ix1 o) ?_ ?_
  · simp
  · intro b hb
    match b with
    | ⟨0, _⟩ => exact absurd rfl hb
  · show 8192 + o.val = 8192 + o.val; rfl

/-- Row 12288 + o of the weight stack is row o of matrix 3. -/
theorem stackW3 (x2 x4 x6 x8 x10 x12 : Mat 4096 4096) (o d : Fin 4096) :
    val_main_v0 (F := Ideal) x2 x4 x6 x8 x10 x12 (ix2 (⟨12288 + o.val, by omega⟩ : Fin 24576) d) = x8 (ix2 o d) := by
  unfold val_main_v0
  refine concatenate_apply_piece (t := S24576x4096) 0 [⟨S4096x4096, x2⟩, ⟨S4096x4096, x4⟩, ⟨S4096x4096, x6⟩, ⟨S4096x4096, x8⟩, ⟨S4096x4096, x10⟩, ⟨S4096x4096, x12⟩] _ _ 3 (by show (3 : Nat) < 6; decide) S4096x4096 x8 rfl rfl 12288 ?_ (ix2 o d) ?_ ?_
  · simp
  · intro b hb
    match b with
    | ⟨0, _⟩ => exact absurd rfl hb
    | ⟨1, _⟩ => rfl
  · show 12288 + o.val = 12288 + o.val; rfl

/-- Entry 12288 + o of the bias stack is entry o of bias row 3. -/
theorem stackB3 (x3 x5 x7 x9 x11 x13 : Row 4096) (o : Fin 4096) :
    val_main_v1 (F := Ideal) x3 x5 x7 x9 x11 x13 (ix1 (⟨12288 + o.val, by omega⟩ : Fin 24576)) = x9 (ix1 o) := by
  unfold val_main_v1
  refine concatenate_apply_piece (t := S24576) 0 [⟨S4096, x3⟩, ⟨S4096, x5⟩, ⟨S4096, x7⟩, ⟨S4096, x9⟩, ⟨S4096, x11⟩, ⟨S4096, x13⟩] _ _ 3 (by show (3 : Nat) < 6; decide) S4096 x9 rfl rfl 12288 ?_ (ix1 o) ?_ ?_
  · simp
  · intro b hb
    match b with
    | ⟨0, _⟩ => exact absurd rfl hb
  · show 12288 + o.val = 12288 + o.val; rfl

/-- Row 16384 + o of the weight stack is row o of matrix 4. -/
theorem stackW4 (x2 x4 x6 x8 x10 x12 : Mat 4096 4096) (o d : Fin 4096) :
    val_main_v0 (F := Ideal) x2 x4 x6 x8 x10 x12 (ix2 (⟨16384 + o.val, by omega⟩ : Fin 24576) d) = x10 (ix2 o d) := by
  unfold val_main_v0
  refine concatenate_apply_piece (t := S24576x4096) 0 [⟨S4096x4096, x2⟩, ⟨S4096x4096, x4⟩, ⟨S4096x4096, x6⟩, ⟨S4096x4096, x8⟩, ⟨S4096x4096, x10⟩, ⟨S4096x4096, x12⟩] _ _ 4 (by show (4 : Nat) < 6; decide) S4096x4096 x10 rfl rfl 16384 ?_ (ix2 o d) ?_ ?_
  · simp
  · intro b hb
    match b with
    | ⟨0, _⟩ => exact absurd rfl hb
    | ⟨1, _⟩ => rfl
  · show 16384 + o.val = 16384 + o.val; rfl

/-- Entry 16384 + o of the bias stack is entry o of bias row 4. -/
theorem stackB4 (x3 x5 x7 x9 x11 x13 : Row 4096) (o : Fin 4096) :
    val_main_v1 (F := Ideal) x3 x5 x7 x9 x11 x13 (ix1 (⟨16384 + o.val, by omega⟩ : Fin 24576)) = x11 (ix1 o) := by
  unfold val_main_v1
  refine concatenate_apply_piece (t := S24576) 0 [⟨S4096, x3⟩, ⟨S4096, x5⟩, ⟨S4096, x7⟩, ⟨S4096, x9⟩, ⟨S4096, x11⟩, ⟨S4096, x13⟩] _ _ 4 (by show (4 : Nat) < 6; decide) S4096 x11 rfl rfl 16384 ?_ (ix1 o) ?_ ?_
  · simp
  · intro b hb
    match b with
    | ⟨0, _⟩ => exact absurd rfl hb
  · show 16384 + o.val = 16384 + o.val; rfl

/-- Row 20480 + o of the weight stack is row o of matrix 5. -/
theorem stackW5 (x2 x4 x6 x8 x10 x12 : Mat 4096 4096) (o d : Fin 4096) :
    val_main_v0 (F := Ideal) x2 x4 x6 x8 x10 x12 (ix2 (⟨20480 + o.val, by omega⟩ : Fin 24576) d) = x12 (ix2 o d) := by
  unfold val_main_v0
  refine concatenate_apply_piece (t := S24576x4096) 0 [⟨S4096x4096, x2⟩, ⟨S4096x4096, x4⟩, ⟨S4096x4096, x6⟩, ⟨S4096x4096, x8⟩, ⟨S4096x4096, x10⟩, ⟨S4096x4096, x12⟩] _ _ 5 (by show (5 : Nat) < 6; decide) S4096x4096 x12 rfl rfl 20480 ?_ (ix2 o d) ?_ ?_
  · simp
  · intro b hb
    match b with
    | ⟨0, _⟩ => exact absurd rfl hb
    | ⟨1, _⟩ => rfl
  · show 20480 + o.val = 20480 + o.val; rfl

/-- Entry 20480 + o of the bias stack is entry o of bias row 5. -/
theorem stackB5 (x3 x5 x7 x9 x11 x13 : Row 4096) (o : Fin 4096) :
    val_main_v1 (F := Ideal) x3 x5 x7 x9 x11 x13 (ix1 (⟨20480 + o.val, by omega⟩ : Fin 24576)) = x13 (ix1 o) := by
  unfold val_main_v1
  refine concatenate_apply_piece (t := S24576) 0 [⟨S4096, x3⟩, ⟨S4096, x5⟩, ⟨S4096, x7⟩, ⟨S4096, x9⟩, ⟨S4096, x11⟩, ⟨S4096, x13⟩] _ _ 5 (by show (5 : Nat) < 6; decide) S4096 x13 rfl rfl 20480 ?_ (ix1 o) ?_ ?_
  · simp
  · intro b hb
    match b with
    | ⟨0, _⟩ => exact absurd rfl hb
  · show 20480 + o.val = 20480 + o.val; rfl

/-! ## The product plus the bias row at an index -/

/-- Entry (p, c) of the 8192 x 24576 product plus bias: the row p of the input against row c of the weight stack, plus
    entry c of the bias stack. -/
theorem v5_at (x0 : Mat 8192 4096) (x2 : Mat 4096 4096) (x3 : Row 4096) (x4 : Mat 4096 4096) (x5 : Row 4096) (x6 : Mat 4096 4096) (x7 : Row 4096) (x8 : Mat 4096 4096) (x9 : Row 4096) (x10 : Mat 4096 4096) (x11 : Row 4096) (x12 : Mat 4096 4096) (x13 : Row 4096) (p : Fin 8192) (c : Fin 24576) :
    val_main_v5 (F := Ideal) x0 x2 x3 x4 x5 x6 x7 x8 x9 x10 x11 x12 x13 (ix2 p c)
      = (∑ k : Fin 4096, x0 (ix2 p k) * val_main_v0 (F := Ideal) x2 x4 x6 x8 x10 x12 (ix2 c k))
        + val_main_v1 (F := Ideal) x3 x5 x7 x9 x11 x13 (ix1 c) := by
  have el : ∀ k : Fin 4096, lidx_main_v2 (ix2 p c) k = ix2 p k := fun k => funext fun a => Fin.ext (by
    match a with
    | ⟨0, _⟩ => rfl
    | ⟨1, _⟩ => rfl)
  have er : ∀ k : Fin 4096, ridx_main_v2 (ix2 p c) k = ix2 c k := fun k => funext fun a => Fin.ext (by
    match a with
    | ⟨0, _⟩ => rfl
    | ⟨1, _⟩ => rfl)
  have e3 : idx_main_v3 (idx_main_v4 (ix2 p c)) = ix1 c := funext fun a => Fin.ext (by
    match a with
    | ⟨0, _⟩ => rfl)
  rw [val_main_v5_apply, val_main_v2_apply, val_main_v4_apply, val_main_v3_apply, e3, Ideal.addf_def]
  simp only [el, er]

/-! ## The six column bands are the six linear gates -/

/-- Band 0 (columns 0 + o) at (p, o) is the linear gate of matrix 0 and bias row 0. -/
theorem gate0 (x0 : Mat 8192 4096) (x2 : Mat 4096 4096) (x3 : Row 4096) (x4 : Mat 4096 4096) (x5 : Row 4096) (x6 : Mat 4096 4096) (x7 : Row 4096) (x8 : Mat 4096 4096) (x9 : Row 4096) (x10 : Mat 4096 4096) (x11 : Row 4096) (x12 : Mat 4096 4096) (x13 : Row 4096) (p : Fin 8192) (o : Fin 4096) :
    val_main_v5 (F := Ideal) x0 x2 x3 x4 x5 x6 x7 x8 x9 x10 x11 x12 x13 (idx_main_v6 (ix2 p o)) = lin x0 x2 x3 p o := by
  have e : idx_main_v6 (ix2 p o) = ix2 p (⟨o.val, by omega⟩ : Fin 24576) := funext fun a => Fin.ext (by
    match a with
    | ⟨0, _⟩ => rfl
    | ⟨1, _⟩ => rfl)
  rw [e, v5_at, stackB0]
  unfold lin
  simp only [stackW0]

/-- Band 1 (columns 4096 + o) at (p, o) is the linear gate of matrix 1 and bias row 1. -/
theorem gate1 (x0 : Mat 8192 4096) (x2 : Mat 4096 4096) (x3 : Row 4096) (x4 : Mat 4096 4096) (x5 : Row 4096) (x6 : Mat 4096 4096) (x7 : Row 4096) (x8 : Mat 4096 4096) (x9 : Row 4096) (x10 : Mat 4096 4096) (x11 : Row 4096) (x12 : Mat 4096 4096) (x13 : Row 4096) (p : Fin 8192) (o : Fin 4096) :
    val_main_v5 (F := Ideal) x0 x2 x3 x4 x5 x6 x7 x8 x9 x10 x11 x12 x13 (idx_main_v7 (ix2 p o)) = lin x0 x4 x5 p o := by
  have e : idx_main_v7 (ix2 p o) = ix2 p (⟨4096 + o.val, by omega⟩ : Fin 24576) := funext fun a => Fin.ext (by
    match a with
    | ⟨0, _⟩ => rfl
    | ⟨1, _⟩ => rfl)
  rw [e, v5_at, stackB1]
  unfold lin
  simp only [stackW1]

/-- Band 2 (columns 8192 + o) at (p, o) is the linear gate of matrix 2 and bias row 2. -/
theorem gate2 (x0 : Mat 8192 4096) (x2 : Mat 4096 4096) (x3 : Row 4096) (x4 : Mat 4096 4096) (x5 : Row 4096) (x6 : Mat 4096 4096) (x7 : Row 4096) (x8 : Mat 4096 4096) (x9 : Row 4096) (x10 : Mat 4096 4096) (x11 : Row 4096) (x12 : Mat 4096 4096) (x13 : Row 4096) (p : Fin 8192) (o : Fin 4096) :
    val_main_v5 (F := Ideal) x0 x2 x3 x4 x5 x6 x7 x8 x9 x10 x11 x12 x13 (idx_main_v8 (ix2 p o)) = lin x0 x6 x7 p o := by
  have e : idx_main_v8 (ix2 p o) = ix2 p (⟨8192 + o.val, by omega⟩ : Fin 24576) := funext fun a => Fin.ext (by
    match a with
    | ⟨0, _⟩ => rfl
    | ⟨1, _⟩ => rfl)
  rw [e, v5_at, stackB2]
  unfold lin
  simp only [stackW2]

/-- Band 3 (columns 12288 + o) at (p, o) is the linear gate of matrix 3 and bias row 3. -/
theorem gate3 (x0 : Mat 8192 4096) (x2 : Mat 4096 4096) (x3 : Row 4096) (x4 : Mat 4096 4096) (x5 : Row 4096) (x6 : Mat 4096 4096) (x7 : Row 4096) (x8 : Mat 4096 4096) (x9 : Row 4096) (x10 : Mat 4096 4096) (x11 : Row 4096) (x12 : Mat 4096 4096) (x13 : Row 4096) (p : Fin 8192) (o : Fin 4096) :
    val_main_v5 (F := Ideal) x0 x2 x3 x4 x5 x6 x7 x8 x9 x10 x11 x12 x13 (idx_main_v9 (ix2 p o)) = lin x0 x8 x9 p o := by
  have e : idx_main_v9 (ix2 p o) = ix2 p (⟨12288 + o.val, by omega⟩ : Fin 24576) := funext fun a => Fin.ext (by
    match a with
    | ⟨0, _⟩ => rfl
    | ⟨1, _⟩ => rfl)
  rw [e, v5_at, stackB3]
  unfold lin
  simp only [stackW3]

/-- Band 4 (columns 16384 + o) at (p, o) is the linear gate of matrix 4 and bias row 4. -/
theorem gate4 (x0 : Mat 8192 4096) (x2 : Mat 4096 4096) (x3 : Row 4096) (x4 : Mat 4096 4096) (x5 : Row 4096) (x6 : Mat 4096 4096) (x7 : Row 4096) (x8 : Mat 4096 4096) (x9 : Row 4096) (x10 : Mat 4096 4096) (x11 : Row 4096) (x12 : Mat 4096 4096) (x13 : Row 4096) (p : Fin 8192) (o : Fin 4096) :
    val_main_v5 (F := Ideal) x0 x2 x3 x4 x5 x6 x7 x8 x9 x10 x11 x12 x13 (idx_main_v10 (ix2 p o)) = lin x0 x10 x11 p o := by
  have e : idx_main_v10 (ix2 p o) = ix2 p (⟨16384 + o.val, by omega⟩ : Fin 24576) := funext fun a => Fin.ext (by
    match a with
    | ⟨0, _⟩ => rfl
    | ⟨1, _⟩ => rfl)
  rw [e, v5_at, stackB4]
  unfold lin
  simp only [stackW4]

/-- Band 5 (columns 20480 + o) at (p, o) is the linear gate of matrix 5 and bias row 5. -/
theorem gate5 (x0 : Mat 8192 4096) (x2 : Mat 4096 4096) (x3 : Row 4096) (x4 : Mat 4096 4096) (x5 : Row 4096) (x6 : Mat 4096 4096) (x7 : Row 4096) (x8 : Mat 4096 4096) (x9 : Row 4096) (x10 : Mat 4096 4096) (x11 : Row 4096) (x12 : Mat 4096 4096) (x13 : Row 4096) (p : Fin 8192) (o : Fin 4096) :
    val_main_v5 (F := Ideal) x0 x2 x3 x4 x5 x6 x7 x8 x9 x10 x11 x12 x13 (idx_main_v11 (ix2 p o)) = lin x0 x12 x13 p o := by
  have e : idx_main_v11 (ix2 p o) = ix2 p (⟨20480 + o.val, by omega⟩ : Fin 24576) := funext fun a => Fin.ext (by
    match a with
    | ⟨0, _⟩ => rfl
    | ⟨1, _⟩ => rfl)
  rw [e, v5_at, stackB5]
  unfold lin
  simp only [stackW5]

end Cert.GruRef
end
-- ==== Proof.RefValue.lean ====
import proofs.«107846_j83116207112676_2_alg».proof.Proof.Gen.ReferenceIdeal.Read
import proofs.«107846_j83116207112676_2_alg».proof.Proof.Spec
import proofs.«107846_j83116207112676_2_alg».proof.Proof.RefValueA
import Idealize.ShloMosaic.Lib.ValueIdx
import Idealize.ShloMosaic.Lib.Pipeline.Value
import Idealize.ShloMosaic.PureOps.Ideal.Laws

noncomputable section

namespace Cert.GruRef

open Cert.ReferenceIdeal Cert.ReferenceIdeal.Gen Cert.ReferenceIdeal.Read Cert.GruSpec Idealize.ShloMosaic Idealize.ShloMosaic.ValueIdx

/-! # The reference computes the gated-recurrent update

Each of the reference's three sigmoids is spelt 1 / (1 + exp (-y)) with the float 1.0 a broadcast constant; that spelling is
the logistic function. With the six column bands of the stacked product read as the six linear gates, the remaining
operations are the update's last lines, entry by entry. -/

/-- The quotient 1 / (1 + exp (-y)), with both ones spelt as the float word, is the logistic function. -/
theorem logistic_spelt (y : EReal) :
    Ideal.div (Ideal.ofBits .f32 0x3F800000#32) (Ideal.ofBits .f32 0x3F800000#32 + Ideal.exp (-y)) = Ideal.logistic y := by
  rw [ofBits_one]; rfl

/-- The reference's last stage is the update `Gref` of its fourteen arguments. -/
theorem ref_eq
      (x0 x1 : (⟨Cert.ReferenceIdeal.S8192x4096, .f32⟩ : BufTy).Contents (Elt Ideal))
      (x2 : (⟨Cert.ReferenceIdeal.S4096x4096, .f32⟩ : BufTy).Contents (Elt Ideal)) (x3 : (⟨Cert.ReferenceIdeal.S4096, .f32⟩ : BufTy).Contents (Elt Ideal))
      (x4 : (⟨Cert.ReferenceIdeal.S4096x4096, .f32⟩ : BufTy).Contents (Elt Ideal)) (x5 : (⟨Cert.ReferenceIdeal.S4096, .f32⟩ : BufTy).Contents (Elt Ideal))
      (x6 : (⟨Cert.ReferenceIdeal.S4096x4096, .f32⟩ : BufTy).Contents (Elt Ideal)) (x7 : (⟨Cert.ReferenceIdeal.S4096, .f32⟩ : BufTy).Contents (Elt Ideal))
      (x8 : (⟨Cert.ReferenceIdeal.S4096x4096, .f32⟩ : BufTy).Contents (Elt Ideal)) (x9 : (⟨Cert.ReferenceIdeal.S4096, .f32⟩ : BufTy).Contents (Elt Ideal))
      (x10 : (⟨Cert.ReferenceIdeal.S4096x4096, .f32⟩ : BufTy).Contents (Elt Ideal)) (x11 : (⟨Cert.ReferenceIdeal.S4096, .f32⟩ : BufTy).Contents (Elt Ideal))
      (x12 : (⟨Cert.ReferenceIdeal.S4096x4096, .f32⟩ : BufTy).Contents (Elt Ideal)) (x13 : (⟨Cert.ReferenceIdeal.S4096, .f32⟩ : BufTy).Contents (Elt Ideal)) :
      Cert.ReferenceIdeal.Read.val_main_v38 (F := Ideal) x0 x1 x2 x3 x4 x5 x6 x7 x8 x9 x10 x11 x12 x13
        = Cert.GruSpec.Gref x0 x1 x2 x3 x4 x5 x6 x7 x8 x9 x10 x11 x12 x13 := by
  funext j
  obtain ⟨p, o, rfl⟩ : ∃ (p : Fin 8192) (o : Fin 4096), j = ix2 p o := ⟨j 0, j 1, eq_ix2 j⟩
  show _ = combine (lin x0 x2 x3 p o + lin x0 x8 x9 p o) (lin x0 x4 x5 p o + lin x0 x10 x11 p o)
    (lin x0 x6 x7 p o) (lin x0 x12 x13 p o) (x1 (ix2 p o))
  simp only [val_main_v38_apply, val_main_v36_apply, val_main_v37_apply, val_main_v35_apply, val_main_v34_apply, val_main_v25_apply, val_main_v24_apply, val_main_v23_apply, val_main_v22_apply, val_main_v21_apply, val_main_v20_apply, val_main_v19_apply, val_main_v7_apply, val_main_v10_apply, val_main_v33_apply, val_main_v32_apply, val_main_v31_apply, val_main_v30_apply, val_main_v29_apply, val_main_v28_apply, val_main_v27_apply, val_main_v8_apply, val_main_v26_apply, val_main_v18_apply, val_main_v17_apply, val_main_v16_apply, val_main_v15_apply, val_main_v14_apply, val_main_v13_apply, val_main_v12_apply, val_main_v6_apply, val_main_v9_apply, val_main_v11_apply,
    val_main_cst_apply, val_main_cst_0_apply, val_main_cst_1_apply, val_main_cst_2_apply, val_main_cst_3_apply, val_main_cst_4_apply, val_main_cst_5_apply,
    gate0, gate1, gate2, gate3, gate4, gate5,
    Ideal.addf_def, Ideal.mulf_def, Ideal.subf_def, Ideal.hostDivf_def, Ideal.hostUnary_exp_def, Ideal.hostNegf_def,
    Ideal.negf_def, Ideal.ofBits_def]
  simp only [logistic_spelt]
  rfl

end Cert.GruRef
end
-- ==== Proof.LibRealDistrib.lean ====
/-
  Distributivity on the extended reals, for real-valued data.

  On the extended reals x * (a + b) = x * a + x * b is FALSE in general: with x = -1, a = +infinity, b = -infinity the left
  side is (-1) * (-infinity) = +infinity while the right side is -infinity + (+infinity) = -infinity; with x = +infinity,
  a = 1, b = -1 the left side is (+infinity) * 0 = 0 while the right side is +infinity + (-infinity) = -infinity. It holds
  when x, a and b are real numbers (neither infinity): there it is the distributive law of the real field carried through
  the embedding of the reals. Under a finite sum the termwise law then gives
      sum_d f(d) * (g(d) + g'(d)) = sum_d f(d) * g(d) + sum_d f(d) * g'(d)
  for real-valued families over any index type; splitting the sum of termwise sums needs no finiteness, the extended reals
  being a commutative additive monoid. This is the law that lets two weight matrices be added BEFORE a product with a
  shared input instead of adding the two products after.
-/
import Mathlib.Data.EReal.Basic
import Mathlib.Data.EReal.Operations
import Mathlib.Algebra.BigOperators.Group.Finset.Basic

noncomputable section

open scoped BigOperators

namespace Cert.LibRealDistrib

/-- Distributivity for three extended reals that are real numbers. -/
theorem mul_add_of_real {x a b : EReal} (hx : ∃ r : ℝ, x = (r : EReal)) (ha : ∃ r : ℝ, a = (r : EReal))
    (hb : ∃ r : ℝ, b = (r : EReal)) : x * (a + b) = x * a + x * b := by
  obtain ⟨x, rfl⟩ := hx
  obtain ⟨a, rfl⟩ := ha
  obtain ⟨b, rfl⟩ := hb
  exact_mod_cast congrArg (fun t : ℝ => (t : EReal)) (mul_add x a b)

/-- Distributivity under a finite sum: for real-valued families f, g, g' over any index type,
    sum f * (g + g') = sum f * g + sum f * g'. -/
theorem sum_mul_add_of_real {ι : Type} (s : Finset ι) (f g g' : ι → EReal)
    (hf : ∀ d, ∃ r : ℝ, f d = (r : EReal)) (hg : ∀ d, ∃ r : ℝ, g d = (r : EReal)) (hg' : ∀ d, ∃ r : ℝ, g' d = (r : EReal)) :
    ∑ d ∈ s, f d * (g d + g' d) = ∑ d ∈ s, f d * g d + ∑ d ∈ s, f d * g' d := by
  rw [← Finset.sum_add_distrib]
  exact Finset.sum_congr rfl (fun d _ => mul_add_of_real (hf d) (hg d) (hg' d))

end Cert.LibRealDistrib

end
-- ==== Proof.Law.lean ====
/-
  The two spellings of the gated-recurrent-cell update agree on real-valued data.

  The pre-activation of the reset gate (and of the update gate) is, in one spelling, the sum of two linear gates
      (sum_d x(p,d) * w(o,d) + b(o)) + (sum_d x(p,d) * w'(o,d) + b'(o)),
  and in the other one linear gate with the weights and the biases added first,
      sum_d x(p,d) * (w(o,d) + w'(o,d)) + (b(o) + b'(o)).
  Three facts join them:
    (i)   x * (a + b) = x * a + x * b for extended reals x, a, b that are REAL numbers. On the extended reals this law
          is false in general: with x = -1, a = +infinity, b = -infinity the left side is -1 * (-infinity) = +infinity and the
          right side is -infinity + +infinity = -infinity (the sum of the two infinities being -infinity); with x = +infinity,
          a = 1, b = -1 the left side is +infinity * 0 = 0 and the right side is +infinity + -infinity = -infinity. So it is
          proved from the real witnesses, where it is the distributive law of the real field carried through the embedding
          of the reals (the general lemma, with the law under a finite sum, is in LibRealDistrib);
    (ii)  a finite sum of termwise sums is the sum of the two sums (the extended reals are a commutative additive monoid:
          no finiteness of the entries is needed here);
    (iii) (A + B) + (b + b') = (A + b) + (B + b'), commutativity and associativity of + alone; the biases may be infinite.
  The remaining two pre-activations and the hidden entry are spelt identically on both sides.
-/
import proofs.«107846_j83116207112676_2_alg».proof.Proof.Spec
import proofs.«107846_j83116207112676_2_alg».proof.Proof.LibRealDistrib

noncomputable section

open scoped BigOperators

namespace Cert.GruSpec

open Idealize.ShloMosaic Idealize.ShloMosaic.ValueIdx

/-- One linear gate with weights and biases added first is the sum of the two linear gates, when the input and the two
    weight matrices are real-valued. The biases are unrestricted. -/
theorem linFused_eq (x : Mat 8192 4096) (w w' : Mat 4096 4096) (b b' : Row 4096) (p : Fin 8192) (o : Fin 4096)
    (hx : AllReal x) (hw : AllReal w) (hw' : AllReal w') :
    linFused x w w' b b' p o = lin x w b p o + lin x w' b' p o := by
  have h : ∑ d : Fin 4096, x (ix2 p d) * (w (ix2 o d) + w' (ix2 o d))
      = ∑ d : Fin 4096, x (ix2 p d) * w (ix2 o d) + ∑ d : Fin 4096, x (ix2 p d) * w' (ix2 o d) :=
    Cert.LibRealDistrib.sum_mul_add_of_real Finset.univ (fun d : Fin 4096 => x (ix2 p d)) (fun d : Fin 4096 => w (ix2 o d))
      (fun d : Fin 4096 => w' (ix2 o d)) (fun d => hx (ix2 p d)) (fun d => hw (ix2 o d)) (fun d => hw' (ix2 o d))
  unfold linFused lin
  rw [h]
  exact add_add_add_comm _ _ _ _

/-- The update with the weights added first equals the update with the pre-activations added after, when the input x and
    the four added weight matrices are real-valued. -/
theorem gker_eq_gref (x h : Mat 8192 4096) (wir : Mat 4096 4096) (bir : Row 4096) (wiz : Mat 4096 4096) (biz : Row 4096)
    (win : Mat 4096 4096) (bin : Row 4096) (whr : Mat 4096 4096) (bhr : Row 4096) (whz : Mat 4096 4096) (bhz : Row 4096)
    (whn : Mat 4096 4096) (bhn : Row 4096)
    (hx : AllReal x) (hwir : AllReal wir) (hwhr : AllReal whr) (hwiz : AllReal wiz) (hwhz : AllReal whz) :
    Gker x h wir bir wiz biz win bin whr bhr whz bhz whn bhn = Gref x h wir bir wiz biz win bin whr bhr whz bhz whn bhn := by
  funext j
  exact congrArg₂ (fun a b : EReal => combine a b (lin x win bin (j 0) (j 1)) (lin x whn bhn (j 0) (j 1)) (h j))
    (linFused_eq x wir whr bir bhr (j 0) (j 1) hx hwir hwhr) (linFused_eq x wiz whz biz bhz (j 0) (j 1) hx hwiz hwhz)

end Cert.GruSpec

end
-- ==== Proof.Finite.lean ====
/-
  The precondition, decoded: the arrays the distributive law is applied to are real-valued.

  The precondition is one bit: for each of the fourteen float arguments a, "every entry of |a| is below +infinity",
  the fourteen bits and-ed together, and the claim assumes that bit is 1. Read back:
    - an and of two bits is 1 exactly when both are;
    - an and-reduction of a whole array of bits (started from 1) into a single bit is 1 only if every entry is 1;
    - the entry at an index is the comparison  max (a j) (-(a j)) < +infinity  on the extended reals, +infinity being what the
      single-precision word 0x7F800000 denotes; it holds for neither infinity (max (+inf) (-inf) and max (-inf) (+inf) are both +inf), so a j
      is a real number.
  Hence each argument is real-valued; stated below for the five the algebraic law needs: the input x and the four weight
  matrices w_ir, w_hr, w_iz, w_hz that are added pairwise before the product.
-/
import proofs.«107846_j83116207112676_2_alg».proof.Defs
import proofs.«107846_j83116207112676_2_alg».proof.Proof.Gen.Pre_finite_inputs
import proofs.«107846_j83116207112676_2_alg».proof.Proof.Spec
import Idealize.ShloMosaic.Lib.ReduceAll

noncomputable section

namespace Cert.GruFinite

open Idealize.ShloMosaic Idealize.SL.Sem Idealize.ShloMosaic.ValueIdx

/-- The rank-0 shape has exactly one index (the empty tuple of coordinates). -/
instance subsingleton_scalar_idx : Subsingleton Cert.Pre_finite_inputs.S_.Idx :=
  ⟨fun _ _ => funext fun d => d.elim0⟩

/-- An extended real whose absolute value max x (-x) is strictly below +infinity is a real number:
    at x = +infinity and at x = -infinity the maximum is +infinity itself. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- For an array x of any shape: if the and over ALL entries of "|x j| < +infinity" is 1, every entry of x is real. -/
theorem allReal_of_all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    Cert.GruSpec.AllReal x := by
  intro j
  exact real_of_abs_lt_inf (x j) (Host.reduce_andi_all _ _ hr hu ix0 e j)

/-- Under the precondition, on every device, the input x (argument 0) and the weight matrices w_ir, w_hr, w_iz, w_hz
    (arguments 2, 8, 4, 10) are real-valued. The precondition's bit is a left-nested and of fourteen and-reductions, one per
    argument in order; it is split into its fourteen conjuncts and the five needed are read back entry by entry. -/
theorem of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.GruSpec.AllReal (m ((c.tc : Thread Cert.KernelIdeal.nD Cert.KernelIdeal.τ).loc Cert.KernelIdeal.main_arg0))
    ∧ Cert.GruSpec.AllReal (m ((c.tc : Thread _ _).loc Cert.KernelIdeal.main_arg2))
    ∧ Cert.GruSpec.AllReal (m ((c.tc : Thread _ _).loc Cert.KernelIdeal.main_arg8))
    ∧ Cert.GruSpec.AllReal (m ((c.tc : Thread _ _).loc Cert.KernelIdeal.main_arg4))
    ∧ Cert.GruSpec.AllReal (m ((c.tc : Thread _ _).loc Cert.KernelIdeal.main_arg10)) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h
  simp only [IntOp.andi_eq_one] at h
  obtain ⟨⟨⟨⟨⟨⟨⟨⟨⟨⟨⟨⟨⟨h0, _⟩, h2⟩, _⟩, h4⟩, _⟩, _⟩, _⟩, h8⟩, _⟩, h10⟩, _⟩, _⟩, _⟩ := h
  exact ⟨allReal_of_all_finite _ _ _ _ h0, allReal_of_all_finite _ _ _ _ h2, allReal_of_all_finite _ _ _ _ h8,
    allReal_of_all_finite _ _ _ _ h4, allReal_of_all_finite _ _ _ _ h10⟩

end Cert.GruFinite

end
-- ==== Proof.lean ====
/-
  The certificate of the fused gated-recurrent-cell gate kernel against its jnp reference.

  The kernel computes out = (1 - z) * h + z * n with r = sigma(x W_r^T + b_r), z = sigma(x W_z^T + b_z),
  n = sigma(x W_in^T + b_in + r * (x W_hn^T + b_hn)), where W_r = W_ir + W_hr, b_r = b_ir + b_hr (and likewise for z) are
  added on the host BEFORE one pallas_call that accumulates the four products over four reduction steps in a scratch
  accumulator. The reference multiplies x by all six weight matrices and adds the pre-activations of r and of z AFTER.

  * The three frames: each program runs to the end without a fault and leaves its arguments unchanged. For the two
    kernel programs this is the frame proved in Proof/Frame.lean (one text, any float instance; the word-level program's
    copy in Proof/KFrame.lean); for the reference it is its run with the result dropped.
  * The idealization rewrote nothing, so there is nothing to preserve.
  * At the ideal instance both programs end at ONE function of the fourteen arguments: the reference's last stage is
    `Gref` (Proof/RefValue.lean), the kernel's result array is `Gker` (Proof/KerFinal.lean), and `Gker = Gref` when the
    input and the four added weight matrices are finite (Proof/Law.lean: distributivity under the sum, which needs the
    finiteness the precondition supplies, Proof/Finite.lean).
-/
import proofs.«107846_j83116207112676_2_alg».proof.Defs
import proofs.«107846_j83116207112676_2_alg».proof.Proof.Gen.Kernel
import proofs.«107846_j83116207112676_2_alg».proof.Proof.Gen.KernelIdeal
import proofs.«107846_j83116207112676_2_alg».proof.Proof.Gen.ReferenceIdeal
import proofs.«107846_j83116207112676_2_alg».proof.Proof.Gen.ReferenceIdeal.Run
import proofs.«107846_j83116207112676_2_alg».proof.Proof.Gen.ReferenceIdeal.Read
import proofs.«107846_j83116207112676_2_alg».proof.Proof.Gen.Pre_finite_inputs
import proofs.«107846_j83116207112676_2_alg».proof.Proof.Frame
import proofs.«107846_j83116207112676_2_alg».proof.Proof.KFrame
import proofs.«107846_j83116207112676_2_alg».proof.Proof.KerFinal
import proofs.«107846_j83116207112676_2_alg».proof.Proof.RefValue
import proofs.«107846_j83116207112676_2_alg».proof.Proof.Law
import proofs.«107846_j83116207112676_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.GruSpec.Gref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · -- the kernel: its result array is Gker of the arguments, and Gker = Gref on finite inputs
    have hrun : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v17) = Cert.GruSpec.Gker (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) := Cert.KernelIdeal.KerValue.run m ρ
    refine (θ_run Cert.KernelIdeal.defs _ _).mono (fun r h c => ⟨(h c).1.trans ?_, (h c).2⟩) hrun
    obtain ⟨hx, hwir, hwhr, hwiz, hwhz⟩ := Cert.GruFinite.of_pre m hpre c
    exact Cert.GruSpec.gker_eq_gref _ _ _ _ _ _ _ _ _ _ _ _ _ _ hx hwir hwhr hwiz hwhz
  · -- the reference: its last stage is Gref of its arguments, which agree with the kernel's
    refine (θ_run Cert.ReferenceIdeal.defs _ _).mono (fun r h c => ⟨?_, (h c).2⟩) (Cert.ReferenceIdeal.Value.run (F := Ideal) m' ρ')
    rw [(h c).1, Cert.ReferenceIdeal.Read.val_main_v38_eq, Cert.GruRef.ref_eq]
    obtain ⟨e0, e1, e2, e3, e4, e5, e6, e7, e8, e9, e10, e11, e12, e13⟩ := hagree c
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
